-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x768 : Shape := ⟨3, ![4, 2048, 768]⟩
abbrev S768x768 : Shape := ⟨2, ![768, 768]⟩
abbrev S768 : Shape := ⟨1, ![768]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn {F : FTy → Type} [FloatOps F] (main_arg0 : FVec F S4x2048x768 .f32) (main_arg1 : FVec F S768x768 .f32) (main_arg2 : FVec F S768 .f32) : IVec S_ 1 :=
  let main_v0 : FVec F S4x2048x768 .f32 := Host.absf main_arg0
  let main_cst : FVec F S_ .f32 := constant S_ .f32 0x7F800000#32
  let main_v1 : FVec F S4x2048x768 .f32 := broadcastInDim S4x2048x768 ![] bcast_S_S4x2048x768 main_cst
  let main_v2 : IVec S4x2048x768 1 := cmpf .olt main_v0 main_v1
  let main_c : IVec S_ 1 := constantI S_ 1 1#1
  let main_v3 : IVec S_ 1 := (fun x v => Host.reduce IntOp.andi x v reducesTo_S4x2048x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  main_v13
-- ==== Kernel.lean ====
abbrev S4x2048x768 : Shape := ⟨3, ![4, 2048, 768]⟩
abbrev S768x768 : Shape := ⟨2, ![768, 768]⟩
abbrev S768 : Shape := ⟨1, ![768]⟩
abbrev S8192x768 : Shape := ⟨2, ![8192, 768]⟩
abbrev S1024x768 : Shape := ⟨2, ![1024, 768]⟩
abbrev S1x768 : Shape := ⟨2, ![1, 768]⟩
abbrev S4x512x768 : Shape := ⟨3, ![4, 512, 768]⟩
abbrev S4x512x1 : Shape := ⟨3, ![4, 512, 1]⟩
abbrev S4x256x768 : Shape := ⟨3, ![4, 256, 768]⟩
abbrev S4x512x256 : Shape := ⟨3, ![4, 512, 256]⟩
abbrev S4x512 : Shape := ⟨2, ![4, 512]⟩

abbrev nBuf : Space → Nat
  | .hbm => 7
  | .vmem => 11
  | .smem => 0
  | _ => 0

abbrev bufTy : (tb : Table) → Fin (tcTables nBuf tb) → BufTy
  | .hbm, ⟨0, _⟩ => ⟨S4x2048x768, .f32⟩
  | .hbm, ⟨1, _⟩ => ⟨S768x768, .f32⟩
  | .hbm, ⟨2, _⟩ => ⟨S768, .f32⟩
  | .hbm, ⟨3, _⟩ => ⟨S8192x768, .f32⟩
  | .hbm, ⟨4, _⟩ => ⟨S8192x768, .bf16⟩
  | .hbm, ⟨5, _⟩ => ⟨S4x2048x768, .bf16⟩
  | .hbm, ⟨6, _⟩ => ⟨S4x2048x768, .f32⟩
  | .local _ .vmem, ⟨0, _⟩ => ⟨S1024x768, .f32⟩
  | .local _ .vmem, ⟨1, _⟩ => ⟨S1024x768, .f32⟩
  | .local _ .vmem, ⟨2, _⟩ => ⟨S768x768, .f32⟩
  | .local _ .vmem, ⟨3, _⟩ => ⟨S768, .f32⟩
  | .local _ .vmem, ⟨4, _⟩ => ⟨S1024x768, .bf16⟩
  | .local _ .vmem, ⟨5, _⟩ => ⟨S1024x768, .bf16⟩
  | .local _ .vmem, ⟨6, _⟩ => ⟨S4x512x768, .bf16⟩
  | .local _ .vmem, ⟨7, _⟩ => ⟨S4x512x768, .bf16⟩
  | .local _ .vmem, ⟨8, _⟩ => ⟨S4x2048x768, .bf16⟩
  | .local _ .vmem, ⟨9, _⟩ => ⟨S4x512x768, .f32⟩
  | .local _ .vmem, ⟨10, _⟩ => ⟨S4x512x768, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S4x512x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x2048x768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4x512x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S4x2048x768_S8192x768 : S4x2048x768.ShapeCasts S8192x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  bitsLt_bf16_f32 : FTy.bits .bf16 < FTy.bits .f32
  inb_S768x768_S768x768_0_0 : ∀ a, (![0, 0] : Fin 2 → Nat) a + S768x768.size a ≤ S768x768.size a
  h_S768x768 : 0 < S768x768.numel
  inb_S768_S768_0 : ∀ a, (![0] : Fin 1 → Nat) a + S768.size a ≤ S768.size a
  h_S768 : 0 < S768.numel
  shapeCasts_S768_S1x768 : S768.ShapeCasts S1x768
  broadcasts_S1x768_S1024x768 : S1x768.Broadcasts S1024x768
  packedbf16_S1024x768_S1024x768_0_0 : (Rect.unit (s := S1024x768) ![0, 0] S1024x768.size inb_S1024x768_S1024x768_0_0).PackedRows (EltTy.packing .bf16)
  shapeCasts_S8192x768_S4x2048x768 : S8192x768.ShapeCasts S4x2048x768
  inb_S4x512x768_S4x512x768_0_0_0 : ∀ a, (![0, 0, 0] : Fin 3 → Nat) a + S4x512x768.size a ≤ S4x512x768.size a
  h_S4x512x768 : 0 < S4x512x768.numel
  shapeCasts_S4x512x768_S4x512x768 : S4x512x768.ShapeCasts S4x512x768
  inb_S4x2048x768_S4x256x768_0_0_0 : ∀ a, (![0, 0, 0] : Fin 3 → Nat) a + S4x256x768.size a ≤ S4x2048x768.size a
  h_S4x256x768 : 0 < S4x256x768.numel
  shapeCasts_S4x256x768_S4x256x768 : S4x256x768.ShapeCasts S4x256x768
  reduces_S4x512x256_S4x512 : S4x512x256.Reduces [2] S4x512
  shapeCasts_S4x512_S4x512x1 : S4x512.ShapeCasts S4x512x1
  broadcasts_S4x512x1_S4x512x256 : S4x512x1.Broadcasts S4x512x256
  broadcasts_S4x512x1_S4x512x768 : S4x512x1.Broadcasts S4x512x768
  inb_S4x2048x768_S4x256x768_0_256_0 : ∀ a, (![0, 256, 0] : Fin 3 → Nat) a + S4x256x768.size a ≤ S4x2048x768.size a
  inb_S4x2048x768_S4x256x768_0_512_0 : ∀ a, (![0, 512, 0] : Fin 3 → Nat) a + S4x256x768.size a ≤ S4x2048x768.size a
  inb_S4x2048x768_S4x256x768_0_768_0 : ∀ a, (![0, 768, 0] : Fin 3 → Nat) a + S4x256x768.size a ≤ S4x2048x768.size a
  inb_S4x2048x768_S4x256x768_0_1024_0 : ∀ a, (![0, 1024, 0] : Fin 3 → Nat) a + S4x256x768.size a ≤ S4x2048x768.size a
  inb_S4x2048x768_S4x256x768_0_1280_0 : ∀ a, (![0, 1280, 0] : Fin 3 → Nat) a + S4x256x768.size a ≤ S4x2048x768.size a
  inb_S4x2048x768_S4x256x768_0_1536_0 : ∀ a, (![0, 1536, 0] : Fin 3 → Nat) a + S4x256x768.size a ≤ S4x2048x768.size a
  inb_S4x2048x768_S4x256x768_0_1792_0 : ∀ a, (![0, 1792, 0] : Fin 3 → Nat) a + S4x256x768.size a ≤ S4x2048x768.size a
  dot_S1024x768_S768x768_S1024x768_1_1_0_0_n_n_wf : DotDims.WF S1024x768 S768x768 S1024x768 [1] [1] [0] [0] [] []
  dot_S4x512x768_S4x256x768_S4x512x256_2_2_1_1_0_0_wf : DotDims.WF S4x512x768 S4x256x768 S4x512x256 [2] [2] [1] [1] [0] [0]
  dot_S4x512x256_S4x256x768_S4x512x768_2_1_1_2_0_0_wf : DotDims.WF S4x512x256 S4x256x768 S4x512x768 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S8192x768.size a
  hwx0_0 : ∀ i : grid0.Coords, EltTy.bits .f32 = 32 ∨ (Rect.block (s := S8192x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x768.size a ≤ S8192x768.size a
  hwx0_3 : ∀ i : grid0.Coords, EltTy.bits .bf16 = 32 ∨ (Rect.block (s := S8192x768) S1024x768.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x512x768.size a ≤ S4x2048x768.size a
  hwx1_0 : ∀ i : grid1.Coords, EltTy.bits .bf16 = 32 ∨ (Rect.block (s := S4x2048x768) S4x512x768.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x2048x768.size a ≤ S4x2048x768.size a
  hwx1_1 : ∀ i : grid1.Coords, EltTy.bits .bf16 = 32 ∨ (Rect.block (s := S4x2048x768) S4x2048x768.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x512x768.size a ≤ S4x2048x768.size a
  hwx1_2 : ∀ i : grid1.Coords, EltTy.bits .f32 = 32 ∨ (Rect.block (s := S4x2048x768) S4x512x768.size (cc1_transform_2 i) (hinb1_2 i)).WholeWords (EltTy.packing .f32)

variable [Facts₀]

def dot_S1024x768_S768x768_S1024x768_1_1_0_0_n_n : DotDims S1024x768 S768x768 S1024x768 where
  lhsContracting := [1]
  rhsContracting := [1]
  lhsNonContracting := [0]
  rhsNonContracting := [0]
  lhsBatch := []
  rhsBatch := []
  wf := dot_S1024x768_S768x768_S1024x768_1_1_0_0_n_n_wf
def dot_S4x512x768_S4x256x768_S4x512x256_2_2_1_1_0_0 : DotDims S4x512x768 S4x256x768 S4x512x256 where
  lhsContracting := [2]
  rhsContracting := [2]
  lhsNonContracting := [1]
  rhsNonContracting := [1]
  lhsBatch := [0]
  rhsBatch := [0]
  wf := dot_S4x512x768_S4x256x768_S4x512x256_2_2_1_1_0_0_wf
def dot_S4x512x256_S4x256x768_S4x512x768_2_1_1_2_0_0 : DotDims S4x512x256 S4x256x768 S4x512x768 where
  lhsContracting := [2]
  rhsContracting := [1]
  lhsNonContracting := [1]
  rhsNonContracting := [2]
  lhsBatch := [0]
  rhsBatch := [0]
  wf := dot_S4x512x256_S4x256x768_S4x512x768_2_1_1_2_0_0_wf

abbrev win0_0 : Pipeline.Window sig grid0 :=
  Pipeline.Window.ofSpec (Memref.whole main_v0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S4x512x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S4x2048x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S4x512x768.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x2048x768 : Shape := ⟨3, ![4, 2048, 768]⟩
abbrev S768x768 : Shape := ⟨2, ![768, 768]⟩
abbrev S768 : Shape := ⟨1, ![768]⟩
abbrev S1x1x768 : Shape := ⟨3, ![1, 1, 768]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S768x768, .f32⟩
  | .hbm, ⟨2, _⟩ => ⟨S768, .f32⟩
  | .hbm, ⟨3, _⟩ => ⟨S4x2048x768, .f32⟩
  | .hbm, ⟨4, _⟩ => ⟨S1x1x768, .f32⟩
  | .hbm, ⟨5, _⟩ => ⟨S4x2048x768, .f32⟩
  | .hbm, ⟨6, _⟩ => ⟨S4x2048x768, .f32⟩
  | .hbm, ⟨7, _⟩ => ⟨S4x2048x2048, .f32⟩
  | .hbm, ⟨8, _⟩ => ⟨S_, .f32⟩
  | .hbm, ⟨9, _⟩ => ⟨S4x2048x2048, .f32⟩
  | .hbm, ⟨10, _⟩ => ⟨S4x2048x2048, .f32⟩
  | .hbm, ⟨11, _⟩ => ⟨S_, .f32⟩
  | .hbm, ⟨12, _⟩ => ⟨S4x2048, .f32⟩
  | .hbm, ⟨13, _⟩ => ⟨S_, .f32⟩
  | .hbm, ⟨14, _⟩ => ⟨S4x2048, .f32⟩
  | .hbm, ⟨15, _⟩ => ⟨S4x2048, .f32⟩
  | .hbm, ⟨16, _⟩ => ⟨S4x2048x1, .f32⟩
  | .hbm, ⟨17, _⟩ => ⟨S4x2048x2048, .f32⟩
  | .hbm, ⟨18, _⟩ => ⟨S4x2048x2048, .f32⟩
  | .hbm, ⟨19, _⟩ => ⟨S4x2048x2048, .f32⟩
  | .hbm, ⟨20, _⟩ => ⟨S_, .f32⟩
  | .hbm, ⟨21, _⟩ => ⟨S4x2048, .f32⟩
  | .hbm, ⟨22, _⟩ => ⟨S4x2048x1, .f32⟩
  | .hbm, ⟨23, _⟩ => ⟨S4x2048x2048, .f32⟩
  | .hbm, ⟨24, _⟩ => ⟨S4x2048x2048, .f32⟩
  | .hbm, ⟨25, _⟩ => ⟨S4x2048x768, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S4x2048x768_0_1_2 : S1x1x768.BroadcastsInDim S4x2048x768 (![0, 1, 2] : Fin 3 → Fin S4x2048x768.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x768_S768x768_S4x2048x768_2_1_01_0_n_n_wf : DotDims.WF S4x2048x768 S768x768 S4x2048x768 [2] [1] [0, 1] [0] [] []
  dot_S4x2048x768_S4x2048x768_S4x2048x2048_2_2_1_1_0_0_wf : DotDims.WF S4x2048x768 S4x2048x768 S4x2048x2048 [2] [2] [1] [1] [0] [0]
  dot_S4x2048x2048_S4x2048x768_S4x2048x768_2_1_1_2_0_0_wf : DotDims.WF S4x2048x2048 S4x2048x768 S4x2048x768 [2] [1] [1] [2] [0] [0]

variable [Facts₀]

def dot_S4x2048x768_S768x768_S4x2048x768_2_1_01_0_n_n : DotDims S4x2048x768 S768x768 S4x2048x768 where
  lhsContracting := [2]
  rhsContracting := [1]
  lhsNonContracting := [0, 1]
  rhsNonContracting := [0]
  lhsBatch := []
  rhsBatch := []
  wf := dot_S4x2048x768_S768x768_S4x2048x768_2_1_01_0_n_n_wf
def dot_S4x2048x768_S4x2048x768_S4x2048x2048_2_2_1_1_0_0 : DotDims S4x2048x768 S4x2048x768 S4x2048x2048 where
  lhsContracting := [2]
  rhsContracting := [2]
  lhsNonContracting := [1]
  rhsNonContracting := [1]
  lhsBatch := [0]
  rhsBatch := [0]
  wf := dot_S4x2048x768_S4x2048x768_S4x2048x2048_2_2_1_1_0_0_wf
def dot_S4x2048x2048_S4x2048x768_S4x2048x768_2_1_1_2_0_0 : DotDims S4x2048x2048 S4x2048x768 S4x2048x768 where
  lhsContracting := [2]
  rhsContracting := [1]
  lhsNonContracting := [1]
  rhsNonContracting := [2]
  lhsBatch := [0]
  rhsBatch := [0]
  wf := dot_S4x2048x2048_S4x2048x768_S4x2048x768_2_1_1_2_0_0_wf

class Facts : Prop extends Facts₀ where

variable [Facts]
-- ==== Proof.KData.lean ====
/-
  The two launches of the kernel, as data: the block of an operand a grid point works on, what each body leaves in its
  output block as a function of the blocks it loads, and the bookkeeping of both pipelines built from them.

  Launch 0 (the projection) works on 1024 rows of the flattened input at a time: from the row block x, the whole
  weight w and the whole bias b it leaves the block  x · wᵀ + b  (the body's one store).
  Launch 1 (the attention) works on 512 query rows of every batch at a time: it loads that query block and, slice by
  slice of 256 rows, the WHOLE projected array a second time as keys and values (one array behind two operands),
  and leaves the normalised attention output of those query rows (the body's one store, after eight slices).
  Since one array stands behind two operands of launch 1, each of the two holds it at one half of the full share.
-/
import proofs.«176324_j10393820857170_2_alg».proof.Proof.Gen.Kernel.Launch
import proofs.«176324_j10393820857170_2_alg».proof.Proof.Gen.Kernel.Skeleton
import proofs.«176324_j10393820857170_2_alg».proof.Proof.Gen.Kernel.Points
import Idealize.ShloMosaic.Lib.Pipeline.FrameBody

noncomputable section

namespace Cert.Kernel.Att

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F]

-- the contents of a core's buffers when a launch is entered
variable (V : (c : Dev nD) → (b : Ref sig .tc) → Buf (Elt F) ((c : Thread nD τ).loc b))

/-! ## Launch 0: the projection -/

/-- Operand `w`'s block at grid point `t` of the projection, read off its array as the launch finds it. -/
def projBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole of a 1024 × 768 block, of the weight, of the bias: the rectangles the projection body loads and stores. -/
abbrev rRows : Rect S1024x768 := Rect.unit (s := S1024x768) ![0, 0] S1024x768.size inb_S1024x768_S1024x768_0_0
abbrev rWeight : Rect S768x768 := Rect.unit (s := S768x768) ![0, 0] S768x768.size inb_S768x768_S768x768_0_0
abbrev rBias : Rect S768 := Rect.unit (s := S768) ![0] S768.size inb_S768_S768_0

/-- What the projection body leaves in its output block, from the three blocks it loads: its one store. -/
def projOut (x : Vec F S1024x768 .f32) (w : Vec F S768x768 .f32) (b : Vec F S768 .f32) : Vec F S1024x768 .bf16 :=
  View.canon [⟨rRows, k0_pay1 (View.ld x rRows) (View.ld w rWeight) (View.ld b rBias)⟩]

/-- The projection pipeline's bookkeeping on core `c`: the arrays as the launch finds them; after the body each
    input block as it was and the output block at `projOut` of the inputs; nothing carried, nothing owed. -/
def projDat (c : Dev nD) : Dat τ (Elt F) Unit ℕ (UR sig nD τ) ℕ cfg0 c where
  A w := V c (Pipeline.arrRef spec0 w)
  after w t := match w with
    | ⟨0, _⟩ => projBlk V c 0 t
    | ⟨1, _⟩ => projBlk V c 1 t
    | ⟨2, _⟩ => projBlk V c 2 t
    | ⟨3, _⟩ => projOut (projBlk V c 0 t) (projBlk V c 1 t) (projBlk V c 2 t)
  Φ _ := Pipeline.ΦA spec0 c
  q _ := fullShare
  owed _ := 0

theorem projDat_A (c : Dev nD) (w : Fin cfg0.W) : (projDat V c).A w = V c (Pipeline.arrRef spec0 w) := by
  dsimp only [projDat]
theorem projDat_after0 (c : Dev nD) (t : Fin cfg0.N) : (projDat V c).after 0 t = projBlk V c 0 t := by dsimp only [projDat]
theorem projDat_after1 (c : Dev nD) (t : Fin cfg0.N) : (projDat V c).after 1 t = projBlk V c 1 t := by dsimp only [projDat]
theorem projDat_after2 (c : Dev nD) (t : Fin cfg0.N) : (projDat V c).after 2 t = projBlk V c 2 t := by dsimp only [projDat]
theorem projDat_after3 (c : Dev nD) (t : Fin cfg0.N) :
    (projDat V c).after 3 t = projOut (projBlk V c 0 t) (projBlk V c 1 t) (projBlk V c 2 t) := by dsimp only [projDat]

/-! ## Launch 1: the attention -/

/-- Operand `w`'s block at grid point `t` of the attention, read off its array as the launch finds it. -/
def attnBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole query block, and the eight slices of 256 key rows of the resident key block. -/
abbrev rQuery : Rect S4x512x768 := Rect.unit (s := S4x512x768) ![0, 0, 0] S4x512x768.size inb_S4x512x768_S4x512x768_0_0_0
abbrev rKeys0 : Rect S4x2048x768 := Rect.unit (s := S4x2048x768) ![0, 0, 0] S4x256x768.size inb_S4x2048x768_S4x256x768_0_0_0
abbrev rKeys1 : Rect S4x2048x768 := Rect.unit (s := S4x2048x768) ![0, 256, 0] S4x256x768.size inb_S4x2048x768_S4x256x768_0_256_0
abbrev rKeys2 : Rect S4x2048x768 := Rect.unit (s := S4x2048x768) ![0, 512, 0] S4x256x768.size inb_S4x2048x768_S4x256x768_0_512_0
abbrev rKeys3 : Rect S4x2048x768 := Rect.unit (s := S4x2048x768) ![0, 768, 0] S4x256x768.size inb_S4x2048x768_S4x256x768_0_768_0
abbrev rKeys4 : Rect S4x2048x768 := Rect.unit (s := S4x2048x768) ![0, 1024, 0] S4x256x768.size inb_S4x2048x768_S4x256x768_0_1024_0
abbrev rKeys5 : Rect S4x2048x768 := Rect.unit (s := S4x2048x768) ![0, 1280, 0] S4x256x768.size inb_S4x2048x768_S4x256x768_0_1280_0
abbrev rKeys6 : Rect S4x2048x768 := Rect.unit (s := S4x2048x768) ![0, 1536, 0] S4x256x768.size inb_S4x2048x768_S4x256x768_0_1536_0
abbrev rKeys7 : Rect S4x2048x768 := Rect.unit (s := S4x2048x768) ![0, 1792, 0] S4x256x768.size inb_S4x2048x768_S4x256x768_0_1792_0

/-- The value the attention body stores, from the query block and the eight key slices it loads: the body's
    arithmetic in the order the body's four parts hand their values on (part 1 → part 2 → part 3 → the last part's store). -/
def attnStored (v0 : Vec F S4x512x768 .bf16) (v9 v29 v49 v69 v89 v109 v129 v149 : Vec F S4x256x768 .bf16) : FVec F S4x512x768 .f32 :=
  k1_pay40 (k1_pay1 v0)
    (k1_pay35 (k1_pay1 v0) (k1_pay23 (k1_pay1 v0) (k1_pay12 v0 v9 v29) v49 v69) v89 v109)
    (k1_pay38 (k1_pay1 v0) (k1_pay23 (k1_pay1 v0) (k1_pay12 v0 v9 v29) v49 v69)
      (k1_pay26 (k1_pay1 v0) (k1_pay8 v0 v9) (k1_pay12 v0 v9 v29) (k1_pay13 v0 v9 v29) (k1_pay14 v0 v9 v29) v49 v69) v89 v109)
    (k1_pay39 (k1_pay1 v0)
      (k1_pay20 (k1_pay1 v0) (k1_pay9 v0 v9) (k1_pay10 v29) (k1_pay12 v0 v9 v29) (k1_pay13 v0 v9 v29) (k1_pay14 v0 v9 v29) v49)
      (k1_pay21 v69)
      (k1_pay23 (k1_pay1 v0) (k1_pay12 v0 v9 v29) v49 v69)
      (k1_pay24 (k1_pay1 v0) (k1_pay12 v0 v9 v29) v49 v69)
      (k1_pay27 (k1_pay1 v0) (k1_pay12 v0 v9 v29) v49 v69) v89 v109)
    v129 v149

/-- What the attention body leaves in its output block, from the query block and the resident key block: its one
    store, of `attnStored` of the nine pieces it loads. -/
def attnOut (q : Vec F S4x512x768 .bf16) (kv : Vec F S4x2048x768 .bf16) : Vec F S4x512x768 .f32 :=
  View.canon [⟨rQuery, attnStored (View.ld q rQuery) (View.ld kv rKeys0) (View.ld kv rKeys1) (View.ld kv rKeys2)
    (View.ld kv rKeys3) (View.ld kv rKeys4) (View.ld kv rKeys5) (View.ld kv rKeys6) (View.ld kv rKeys7)⟩]

/-- The attention pipeline's bookkeeping on core `c`: the arrays as the launch finds them; after the body each input
    block as it was and the output block at `attnOut` of the inputs; nothing carried, nothing owed. The projected
    array stands behind operands 0 and 1: each holds it at one half of the full share. -/
def attnDat (c : Dev nD) : Dat τ (Elt F) Unit ℕ (UR sig nD τ) ℕ cfg1 c where
  A w := V c (Pipeline.arrRef spec1 w)
  after w t := match w with
    | ⟨0, _⟩ => attnBlk V c 0 t
    | ⟨1, _⟩ => attnBlk V c 1 t
    | ⟨2, _⟩ => attnOut (attnBlk V c 0 t) (attnBlk V c 1 t)
  Φ _ := Pipeline.ΦA spec1 c
  q w := match w with
    | ⟨0, _⟩ => fullShare.left
    | ⟨1, _⟩ => fullShare.right
    | ⟨2, _⟩ => fullShare
  owed _ := 0

theorem attnDat_A (c : Dev nD) (w : Fin cfg1.W) : (attnDat V c).A w = V c (Pipeline.arrRef spec1 w) := by
  dsimp only [attnDat]
theorem attnDat_after0 (c : Dev nD) (t : Fin cfg1.N) : (attnDat V c).after 0 t = attnBlk V c 0 t := by dsimp only [attnDat]
theorem attnDat_after1 (c : Dev nD) (t : Fin cfg1.N) : (attnDat V c).after 1 t = attnBlk V c 1 t := by dsimp only [attnDat]
theorem attnDat_after2 (c : Dev nD) (t : Fin cfg1.N) :
    (attnDat V c).after 2 t = attnOut (attnBlk V c 0 t) (attnBlk V c 1 t) := by dsimp only [attnDat]

end Cert.Kernel.Att

end
-- ==== Proof.KFold.lean ====
/-
  The contents of a core's buffers at each boundary of the program: at launch; after the reshape of the input to
  8192 × 768 rows; after the projection launch (its output array at what the write-backs of its eight row blocks
  leave, everything else untouched); after the reshape of the projected rows back to 4 × 2048 × 768; after the
  attention launch (its output array at what the write-backs of its four query blocks leave). And the two pipelines'
  bookkeeping, each taken at the contents its launch is entered with.
-/
import proofs.«176324_j10393820857170_2_alg».proof.Proof.KData
import Idealize.ShloMosaic.Lib.Pipeline.RegionsLoop
import Idealize.ShloMosaic.Lib.Pipeline.FrameSuffix

noncomputable section

namespace Cert.Kernel.Att

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat)

variable {F : FTy → Type} [FloatOps F]
variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first reshape: what the projection launch is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection launch: its arrays at what the pipeline leaves (the inputs as entered, the output's eight
    write-backs folded), every other buffer as entered. -/
def W2 (c : Dev nD) : Valuation τ sig (Elt F) :=
  Pipeline.withArrays spec0 c (W1 m ρ c) fun w => (projDat (V1 m ρ) c).arrAt w cfg0.N
abbrev V2 : (c : Dev nD) → (b : Ref sig .tc) → Buf (Elt F) ((c : Thread nD τ).loc b) := fun c b => W2 m ρ c b
/-- After the second reshape: what the attention launch is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- What the attention launch leaves in its output array: the four query blocks' write-backs folded. -/
def attnResult (c : Dev nD) : Buf (Elt F) ((c : Thread nD τ).loc main_v3) := (attnDat (V3 m ρ) c).arrAt 2 cfg1.N
/-- After the attention launch: the output array at `attnResult`, every other buffer as entered (the projected array,
    behind both input operands, is only read). -/
def W4 (c : Dev nD) : Valuation τ sig (Elt F) := Function.update (W3 m ρ c) main_v3 (attnResult m ρ c)
abbrev V4 : (c : Dev nD) → (b : Ref sig .tc) → Buf (Elt F) ((c : Thread nD τ).loc b) := fun c b => W4 m ρ c b

/-- No pipeline prefetches a table. -/
abbrev adm : (p : Fin 2) → (pcfgs (F := F) p).Adm := fun p => (cfgs p).toPCfg_adm
/-- Both pipelines' bookkeeping, each at its launch's entry contents (a literal match on the pipeline's number). -/
def pdats : (p : Fin 2) → (c : Dev nD) → Dat τ (Elt F) Unit ℕ (UR sig nD τ) ℕ (Pipeline.pin (pcfgs (F := F)) adm p) c
  | ⟨0, _⟩ => fun c => projDat (V1 m ρ) c
  | ⟨1, _⟩ => fun c => attnDat (V3 m ρ) c

end Cert.Kernel.Att

end
-- ==== Proof.KRun.lean ====
/-
  The run of the whole program, from the launch to the return, on every core: the first reshape, the projection
  launch, the second reshape, the attention launch. Each stretch is entered from the buffer contents the one before it
  leaves, and what is proved is that every weakly fair execution terminates with every unscoped buffer of a core at
  the contents of the last boundary — the attention output array at the fold of its four query blocks' write-backs,
  every argument array as launched. The two kernel bodies enter as hypotheses (their obligations at every grid point).

  The projection launch has four operands on four arrays, each held whole. The attention launch has three operands on
  TWO arrays: the projected array stands behind both input operands, so at entry its full share is divided into two
  halves, one per operand, and at exit the two halves — which still hold the same contents, an input array is never
  written — are joined back into the whole.
-/
import proofs.«176324_j10393820857170_2_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Att

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Reading the boundary contents -/

/-- After the projection launch each of its four arrays holds what the pipeline leaves there, -/
theorem W2_arr (c : Dev nD) (w : Fin cfg0.W) :
    W2 m ρ c (Proc.devRef .tc (Pipeline.arrRef spec0 w)) = (projDat (V1 m ρ) c).arrAt w cfg0.N := by
  unfold W2; exact Pipeline.withArrays_arr spec0 launch0.win.arr_inj c _ _ w
/-- and every buffer that is none of the four holds what it held when the launch was entered. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem hF0 (c : Dev nD) (w : Fin cfg0.W) : (projDat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the attention launch its output array holds the fold of the four query blocks' write-backs, -/
theorem W4_main_v3 (c : Dev nD) : W4 m ρ c (Proc.devRef .tc main_v3) = attnResult m ρ c := by
  unfold W4; exact Function.update_self ..
/-- and every other buffer holds what it held when the launch was entered. -/
theorem W4_of_ne (c : Dev nD) (b : Ref sig .tc) (hb : b ≠ main_v3) :
    W4 m ρ c (Proc.devRef .tc b) = W3 m ρ c (Proc.devRef .tc b) := by
  unfold W4; exact Function.update_of_ne (StableHlo.devRef_ne_of_ne hb) ..

/-! ### The arguments end as launched

No reshape writes an argument, the projection launch reads the weight and the bias through input operands and never
names the input array, and the attention launch names none of the three: walking the boundaries back from the last
one, an argument's buffer holds at each what it held at the one before, down to the launch memory. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 1).trans (((projDat (V1 m ρ) c).arrAt_in 1 rfl _).trans (projDat_A (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 2).trans (((projDat (V1 m ρ) c).arrAt_in 2 rfl _).trans (projDat_A (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ## What every stretch carries beside the buffers -/

abbrev 𝒱₀ : Variants := Variants.none
/-- No core owes another anything, so no level is assigned. -/
abbrev L : GSem nD τ sig → Finset Unit := fun _ => ∅
abbrev lv : GSem nD τ sig → Unit → ℕ := fun _ _ => 0
/-- Beside the buffers a core carries its generator register, at some state, and its debts, at nothing. -/
abbrev R (c : Dev nD) : sProp 𝕄 := iprop((∃ r, prngReg c r) ∗ ∃ W, owes (c : Thread nD τ) (0 : CellTallies nD τ sig Unit) W)
/-- A stretch of host operations as a segment: it takes the unscoped buffers from the contents `W` to the contents
    after the operations, the register and the debts riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Neither reshape allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped reference of the core is among those whose buffers the run holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state of a core, its debts apart: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The attention launch's arrays: one array behind two operands -/

section AttnArrays

variable (V : (c : Dev nD) → (b : Ref sig .tc) → Buf (Elt F) ((c : Thread nD τ).loc b))

/-- The two input operands hold their array at the two halves of the full share, the output operand holds its own whole. -/
theorem attn_share0 (c : Dev nD) : (attnDat V c).share 0 = fullShare.left := rfl
theorem attn_share1 (c : Dev nD) : (attnDat V c).share 1 = fullShare.right := rfl
theorem attn_share2 (c : Dev nD) : (attnDat V c).share 2 = fullShare := rfl

/-- The three operands stand on two buffers: the projected array and the output array. -/
theorem attn_arrRefs : (Finset.univ.image (Pipeline.arrRef spec1)) = {main_v2, main_v3} := by decide

/-- The launch's arrays at contents `G`, operand by operand: the projected array at one half of the full share under
    operand 0's contents and at the other half under operand 1's, the output array whole under operand 2's. -/
theorem attn_arrays_eq (c : Dev nD) (G : (w : Fin cfg1.W) → Buf (Elt F) ((cfg1.win w).arr.view.loc (c : Thread nD τ))) :
    ((attnDat V c).arrays G : sProp 𝕄)
      = iprop((((c : Thread nD τ).loc main_v2) ↦{fullShare.left} G 0) ∗ (((c : Thread nD τ).loc main_v2) ↦{fullShare.right} G 1)
          ∗ (((c : Thread nD τ).loc main_v3) ↦{fullShare} G 2)) := by
  unfold Dat.arrays
  rw [bigSep_W1, (arr_whole1 0).set_eq_univ, (arr_whole1 2).set_eq_univ, attn_share0, attn_share1, attn_share2]

/-- The distinct buffers behind the operands, each whole at contents `Vc`: the projected array and the output array. -/
theorem attn_arrBufs_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v2) ↦{fullShare} Vc main_v2) ∗ (((c : Thread nD τ).loc main_v3) ↦{fullShare} Vc main_v3)) := by
  unfold Pipeline.arrBufs
  rw [attn_arrRefs, BI.bigSep_insert (by decide), BI.bigSep_singleton]
  rfl

/-- A core's unscoped buffers at contents `Vc` are those two buffers and the rest. -/
theorem attn_unscopedBufs_eq (c : Dev nD) (Vc : (b : Ref sig .tc) → Buf (Elt F) ((c : Thread nD τ).loc b)) :
    (unscopedBufs (Ix := Unit) (Name := ℕ) (U := UR sig nD τ) (Lvl := ℕ) c Vc : sProp 𝕄)
      = iprop(((((c : Thread nD τ).loc main_v2) ↦{fullShare} Vc main_v2) ∗ (((c : Thread nD τ).loc main_v3) ↦{fullShare} Vc main_v3))
          ∗ Pipeline.unscopedRest (Ix := Unit) (Name := ℕ) (U := UR sig nD τ) (Lvl := ℕ) spec1 c Vc) := by
  have hsp : (unscopedBufs (Ix := Unit) (Name := ℕ) (U := UR sig nD τ) (Lvl := ℕ) c Vc : sProp 𝕄)
      = iprop(Pipeline.arrBufs (Ix := Unit) (Name := ℕ) (U := UR sig nD τ) (Lvl := ℕ) spec1 c Vc
          ∗ Pipeline.unscopedRest (Ix := Unit) (Name := ℕ) (U := UR sig nD τ) (Lvl := ℕ) spec1 c Vc) :=
    Pipeline.unscopedBufs_split₀ (Pipeline.pin (pcfgs (F := F)) adm) 1 winFacts₀1.arr_unscoped c Vc
  rw [hsp, attn_arrBufs_eq]

end AttnArrays

/-- ENTRY of the attention launch: out of a core's unscoped buffers at the contents after the second reshape, the
    projected array's full share is divided into its two halves, one for each input operand — both at the array's
    contents, which is what either operand's bookkeeping starts from —, the output array goes to the output operand
    whole, and the rest bypasses the launch. -/
theorem attn_entry (c : Dev nD) :
    (unscopedBufs (Ix := Unit) (Name := ℕ) (U := UR sig nD τ) (Lvl := ℕ) c (V3 m ρ c) : sProp 𝕄)
      ⊢ iprop((attnDat (V3 m ρ) c).arrays ((attnDat (V3 m ρ) c).arrAt · 0)
          ∗ Pipeline.unscopedRest (Ix := Unit) (Name := ℕ) (U := UR sig nD τ) (Lvl := ℕ) spec1 c (V3 m ρ c)) := by
  rw [attn_unscopedBufs_eq, attn_arrays_eq]
  iintro ⟨⟨H2, H3⟩, Hrest⟩
  ihave H := (pointsTo_share (PosShare.mem_left_op_right fullShare)).1 $$ H2
  icases H with ⟨Ha, Hb⟩
  isplitr [Hrest]
  · isplitl [Ha]; · iexact Ha
    isplitl [Hb]; · iexact Hb
    iexact H3
  iexact Hrest

/-- The buffers no operand of the attention launch stands on hold at the last boundary what they held when the launch
    was entered: the last boundary differs from that one at the output array only. -/
theorem attn_rest_eq (c : Dev nD) :
    (Pipeline.unscopedRest (Ix := Unit) (Name := ℕ) (U := UR sig nD τ) (Lvl := ℕ) spec1 c (V4 m ρ c) : sProp 𝕄)
      = Pipeline.unscopedRest (Ix := Unit) (Name := ℕ) (U := UR sig nD τ) (Lvl := ℕ) spec1 c (V3 m ρ c) := by
  unfold Pipeline.unscopedRest
  exact BI.bigSep_congr fun b hb => by
    rw [show V4 m ρ c b = V3 m ρ c b from W4_of_ne m ρ c b fun e =>
      (Finset.mem_sdiff.mp hb).2 (Finset.mem_image.mpr ⟨2, Finset.mem_univ _, e.symm⟩)]

/-- EXIT of the attention launch: an input operand's array is never written, so the two halves of the projected array
    come back at the same contents and join into the whole; the output array comes back at the fold of the four query
    blocks' write-backs; with the rest, this is every unscoped buffer of the core at the last boundary's contents. -/
theorem attn_exit (c : Dev nD) :
    iprop((attnDat (V3 m ρ) c).arrays ((attnDat (V3 m ρ) c).arrAt · cfg1.N)
        ∗ Pipeline.unscopedRest (Ix := Unit) (Name := ℕ) (U := UR sig nD τ) (Lvl := ℕ) spec1 c (V3 m ρ c))
      ⊢ (unscopedBufs (Ix := Unit) (Name := ℕ) (U := UR sig nD τ) (Lvl := ℕ) c (V4 m ρ c) : sProp 𝕄) := by
  rw [attn_unscopedBufs_eq, attn_arrays_eq, attn_rest_eq,
    show V4 m ρ c main_v2 = V3 m ρ c main_v2 from W4_of_ne m ρ c main_v2 (by decide),
    show V4 m ρ c main_v3 = attnResult m ρ c from W4_main_v3 m ρ c,
    show (attnDat (V3 m ρ) c).arrAt 0 cfg1.N = V3 m ρ c main_v2 from
      ((attnDat (V3 m ρ) c).arrAt_in 0 rfl _).trans (attnDat_A (V3 m ρ) c 0),
    show (attnDat (V3 m ρ) c).arrAt 1 cfg1.N = V3 m ρ c main_v2 from
      ((attnDat (V3 m ρ) c).arrAt_in 1 rfl _).trans (attnDat_A (V3 m ρ) c 1),
    show (attnDat (V3 m ρ) c).arrAt 2 cfg1.N = attnResult m ρ c from rfl]
  iintro ⟨⟨Ha, Hb, H3⟩, Hrest⟩
  ihave H2 := (pointsTo_share (PosShare.mem_left_op_right fullShare)).2 $$ [Ha Hb]
  · isplitl [Ha] <;> iassumption
  isplitr [Hrest]
  · isplitl [H2]; · iexact H2
    iexact H3
  iexact Hrest

/-! ## The two launches as segments -/

section Segments

variable (hb0 : ∀ c, Pipeline.BodyObligation (projDat (F := F) (V1 m ρ) c) (defs₀ (F := F)) Variants.none () Set.univ)
variable (hb1 : ∀ c, Pipeline.BodyObligation (attnDat (F := F) (V3 m ρ) c) (defs₀ (F := F)) Variants.none () Set.univ)

set_option backward.isDefEq.respectTransparency.types false in
/-- The projection launch over a core's state: entered with every unscoped buffer at the contents after the first
    reshape, left with them at the contents `W2`. At entry its four arrays, distinct and each whole, are taken out of
    the unscoped buffers, the rest bypassing the launch; at exit they are put back at what the write-backs left. The
    generator register goes into the launch's invariant and comes back; nothing is owed; the kernel has no semaphore
    of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention launch over a core's state: entered with every unscoped buffer at the contents after the second
    reshape, left with them at the last boundary's contents. Its three operands stand on two arrays, so the arrays are
    taken out of the unscoped buffers by `attn_entry` (the projected array dealt in halves to the two input operands)
    and put back by `attn_exit` (the halves joined again). The generator register goes into the launch's invariant and
    comes back; nothing is owed; the kernel has no semaphore of its own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (hb1 c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := attn_entry m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := attn_exit m ρ c
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The program as four segments, and its run -/

/-- The program's four segments in order: the first reshape from the launch contents, the projection launch, the
    second reshape from the contents the projection leaves, the attention launch. -/
abbrev segs : List (Pipeline.Seg (pcfgs (F := F)) adm (pdats m ρ) () defs₀ 𝒱₀ L lv) :=
  [ .host (hseg hostOps0 hostOps0_sub hostOps0_fresh (W0 m ρ)),
    .region (reg0 m ρ hb0),
    .host (hseg hostOps1 hostOps1_sub hostOps1_fresh (W2 m ρ)),
    .region (reg1 m ρ hb1) ]
/-- The program is the run of these segments. -/
theorem main_run (c : Dev nD) : main (F := F) c = Pipeline.Seg.run (segs m ρ hb0 hb1) := (main_chain c).trans (by chain_rfl)

end Segments

set_option backward.isDefEq.respectTransparency.types false in
/-- THE RUN: from any launch memory with every counter at zero, every weakly fair execution of the program on the
    cores terminates, nothing faulting, and in every final state each unscoped buffer of each core holds the last
    boundary's contents `W4`. The launch deals every core its unscoped buffers at the launch memory, its generator
    register and no debt; the segments chain from there, each entered from what the one before leaves; the last state
    is read against the final memory buffer by buffer. -/
theorem run_all
    (hb0 : ∀ c, Pipeline.BodyObligation (projDat (F := F) (V1 m ρ) c) (defs₀ (F := F)) Variants.none () Set.univ)
    (hb1 : ∀ c, Pipeline.BodyObligation (attnDat (F := F) (V3 m ρ) c) (defs₀ (F := F)) Variants.none () Set.univ) :
    θ_run defs (onTc (τ := τ) (main (F := F))) ⟨m, fun _ => 0, ρ⟩
      (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ hb0 hb1)
    (fun c Q => by rw [main_run m ρ hb0 hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Att

end
-- ==== Proof.KBody0.lean ====
/-
  The projection launch's body, at any float instance: from its three input blocks held in their staging buffers the
  body loads them whole, computes, and stores the whole output block once; so after it the inputs' buffers are as they
  were and the output's holds the one store's value. From that triple, the pipeline's body obligation at every grid
  point: each input's current staging buffer holds its block whether the pipeline fetched it at that point or not.
-/
import proofs.«176324_j10393820857170_2_alg».proof.Proof.KData
import Idealize.ShloMosaic.Lib.Tactic

-- membership in a rectangle of these extents: the structural look recurses once per coordinate of the long axes
set_option maxRecDepth 16384

noncomputable section

namespace Cert.Kernel.Att

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of a core's buffers when the launch is entered
variable (V : (c : Dev nD) → (b : Ref sig .tc) → Buf (Elt F) ((c : Thread nD τ).loc b))

/-! ## Each input's current staging buffer holds its block -/

/-- Input window `w`'s current staging buffer holds its block at every point, fetched there or not, for any
    bookkeeping whose array is the launch's and whose body leaves the block in place: not fetched means the block
    index did not move, so the buffer still holds the previous point's block, which is this point's. -/
theorem proj_before0_of {c : Dev nD} (dat : Dat τ (Elt F) Unit ℕ (UR sig nD τ) ℕ cfg0 c) (hA : dat.A 0 = V c (Pipeline.arrRef spec0 0))
    (hafter : ∀ t, dat.after 0 t = projBlk V c 0 t) (t : Fin cfg0.N) (d) : dat.before 0 t d = projBlk V c 0 t :=
  (dat.before_in_eq_fetched 0 rfl (fun _ => rfl) (fun _ _ _ => rfl) (fun t => by rw [hafter]; unfold Dat.blockOf projBlk; rw [hA]; try rfl) t d).trans
    (by unfold Dat.fetched Dat.blockOf projBlk; rw [hA]; try rfl)

theorem proj_before1_of {c : Dev nD} (dat : Dat τ (Elt F) Unit ℕ (UR sig nD τ) ℕ cfg0 c) (hA : dat.A 1 = V c (Pipeline.arrRef spec0 1))
    (hafter : ∀ t, dat.after 1 t = projBlk V c 1 t) (t : Fin cfg0.N) (d) : dat.before 1 t d = projBlk V c 1 t :=
  (dat.before_in_eq_fetched 1 rfl (fun _ => rfl) (fun _ _ _ => rfl) (fun t => by rw [hafter]; unfold Dat.blockOf projBlk; rw [hA]; try rfl) t d).trans
    (by unfold Dat.fetched Dat.blockOf projBlk; rw [hA]; try rfl)

theorem proj_before2_of {c : Dev nD} (dat : Dat τ (Elt F) Unit ℕ (UR sig nD τ) ℕ cfg0 c) (hA : dat.A 2 = V c (Pipeline.arrRef spec0 2))
    (hafter : ∀ t, dat.after 2 t = projBlk V c 2 t) (t : Fin cfg0.N) (d) : dat.before 2 t d = projBlk V c 2 t :=
  (dat.before_in_eq_fetched 2 rfl (fun _ => rfl) (fun _ _ _ => rfl) (fun t => by rw [hafter]; unfold Dat.blockOf projBlk; rw [hA]; try rfl) t d).trans
    (by unfold Dat.fetched Dat.blockOf projBlk; rw [hA]; try rfl)

theorem proj_before0 (c : Dev nD) (t : Fin cfg0.N) (d) : (projDat V c).before 0 t d = projBlk V c 0 t :=
  proj_before0_of V (projDat V c) (projDat_A V c 0) (projDat_after0 V c) t d
theorem proj_before1 (c : Dev nD) (t : Fin cfg0.N) (d) : (projDat V c).before 1 t d = projBlk V c 1 t :=
  proj_before1_of V (projDat V c) (projDat_A V c 1) (projDat_after1 V c) t d
theorem proj_before2 (c : Dev nD) (t : Fin cfg0.N) (d) : (projDat V c).before 2 t d = projBlk V c 2 t :=
  proj_before2_of V (projDat V c) (projDat_A V c 2) (projDat_after2 V c) t d

/-! ## The body's triple -/

/-- The body's one store writes the whole output block, so it covers it. -/
theorem proj_cover (p0 : Vec F S1024x768 .bf16) (y : S1024x768.Idx) :
    ∃ pc ∈ ([⟨rRows, p0⟩] : List (View.Piece (Elt F) S1024x768 .bf16)), y ∈ pc.1.set :=
  View.cover_of_tiled [⟨rRows, p0⟩] S1024x768.size (by rfl) y

set_option maxHeartbeats 1000000 in
/-- The projection body on whole staging memrefs, the three inputs' at read contents `x`, `w`, `b` and the output's
    at anything, runs to the continuation holding the inputs' as they were and the output's at `projOut x w b`:
    three loads, a load of the output buffer whose value nothing reads, and the one store of the whole block. -/
theorem proj_sound_kernel (c : Dev nD) (E : Set ℕ) (i : grid0.Coords)
    (arg1 : Memref sig .tc .vmem S1024x768 .f32) (harg1 : arg1.IsWhole) (arg2 : Memref sig .tc .vmem S768x768 .f32) (harg2 : arg2.IsWhole)
    (arg3 : Memref sig .tc .vmem S768 .f32) (harg3 : arg3.IsWhole) (arg4 : Memref sig .tc .vmem S1024x768 .bf16) (harg4 : arg4.IsWhole)
    (x : Vec F S1024x768 .f32) (w : Vec F S768x768 .f32) (b : Vec F S768 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (projOut x w b)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (proj_cover _)

/-! ## The body obligation, at a generic point -/

/-- What the body is called with at point `t`: the invariant, what the core owes, and each window's current staging
    buffer at what it then holds, -/
def projBodyPre (c : Dev nD) (t : Fin cfg0.N) : sProp 𝕄 :=
  iprop((projDat V c).Φ t.castSucc ∗ (projDat V c).owesAt () t.castSucc
    ∗ (∃ d, owns (c : Thread nD τ) (st0_0 t) fullShare ((projDat V c).before 0 t d))
    ∗ (∃ d, owns (c : Thread nD τ) (st0_1 t) fullShare ((projDat V c).before 1 t d))
    ∗ (∃ d, owns (c : Thread nD τ) (st0_2 t) fullShare ((projDat V c).before 2 t d))
    ∗ (∃ d, owns (c : Thread nD τ) (st0_3 t) fullShare ((projDat V c).before 3 t d)))

/-- and what it returns. -/
def projBodyPost (c : Dev nD) (t : Fin cfg0.N) : sProp 𝕄 :=
  iprop((projDat V c).Φ t.succ ∗ (projDat V c).owesAt () t.succ
    ∗ owns (c : Thread nD τ) (st0_0 t) fullShare ((projDat V c).after 0 t)
    ∗ owns (c : Thread nD τ) (st0_1 t) fullShare ((projDat V c).after 1 t)
    ∗ owns (c : Thread nD τ) (st0_2 t) fullShare ((projDat V c).after 2 t)
    ∗ owns (c : Thread nD τ) (st0_3 t) fullShare ((projDat V c).after 3 t))

/-- The body at any point: the inputs' memrefs hold their blocks, so the body's triple applies; the invariant and
    what the core owes pass through unread. -/
theorem proj_sound_body (c : Dev nD) (t : Fin cfg0.N) :
    projBodyPre V c t ⊢ wp frame (wpE (defs₀ (F := F)) Variants.none c none) Set.univ (bodyAt0 t) (fun _ => projBodyPost V c t) := by
  unfold projBodyPre projBodyPost bodyAt0
  simp only [proj_before0, proj_before1, proj_before2]
  rw [show (projDat V c).Φ t.succ = (projDat V c).Φ t.castSucc from rfl,
    show (projDat V c).owesAt () t.succ = (projDat V c).owesAt () t.castSucc from rfl,
    projDat_after0, projDat_after1, projDat_after2, projDat_after3]
  iintro ⟨HΦ, Ho, ⟨%d0, H0⟩, ⟨%d1, H1⟩, ⟨%d2, H2⟩, ⟨%d3, H3⟩⟩
  iapply (proj_sound_kernel c Set.univ _ _ _ _ _ _ _ _ _ (projBlk V c 0 t) (projBlk V c 1 t) (projBlk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the projection, at every point. -/
theorem proj_obligation (c : Dev nD) : Pipeline.BodyObligation (projDat (F := F) V c) (defs₀ (F := F)) Variants.none () Set.univ := fun t => by
  rw [bigSep_W0, bigSep_W0]
  exact proj_sound_body V c t

end Cert.Kernel.Att

end
-- ==== Proof.KBody1.lean ====
/-
  The attention launch's body, at any float instance: from the query block and the resident key block held in their
  staging buffers the body loads the query block whole and the key block slice by slice of 256 rows, eight in all,
  carrying a running maximum, denominator and numerator from slice to slice, and stores the whole output block once;
  so after it the inputs' buffers are as they were and the output's holds the one store's value, the body's arithmetic
  of the nine pieces loaded. From that triple, the pipeline's body obligation at every grid point: each input's current
  staging buffer holds its block whether the pipeline fetched it at that point or not.
-/
import proofs.«176324_j10393820857170_2_alg».proof.Proof.KData
import Idealize.ShloMosaic.Lib.Tactic

-- membership in a rectangle of these extents: the structural look recurses once per coordinate of the long axes
set_option maxRecDepth 16384

noncomputable section

namespace Cert.Kernel.Att

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of a core's buffers when the launch is entered
variable (V : (c : Dev nD) → (b : Ref sig .tc) → Buf (Elt F) ((c : Thread nD τ).loc b))

/-! ## Each input's current staging buffer holds its block -/

/-- Input window `w`'s current staging buffer holds its block at every point, fetched there or not, for any
    bookkeeping whose array is the launch's and whose body leaves the block in place: not fetched means the block
    index did not move, so the buffer still holds the previous point's block, which is this point's. -/
theorem attn_before0_of {c : Dev nD} (dat : Dat τ (Elt F) Unit ℕ (UR sig nD τ) ℕ cfg1 c) (hA : dat.A 0 = V c (Pipeline.arrRef spec1 0))
    (hafter : ∀ t, dat.after 0 t = attnBlk V c 0 t) (t : Fin cfg1.N) (d) : dat.before 0 t d = attnBlk V c 0 t :=
  (dat.before_in_eq_fetched 0 rfl (fun _ => rfl) (fun _ _ _ => rfl) (fun t => by rw [hafter]; unfold Dat.blockOf attnBlk; rw [hA]; try rfl) t d).trans
    (by unfold Dat.fetched Dat.blockOf attnBlk; rw [hA]; try rfl)

theorem attn_before1_of {c : Dev nD} (dat : Dat τ (Elt F) Unit ℕ (UR sig nD τ) ℕ cfg1 c) (hA : dat.A 1 = V c (Pipeline.arrRef spec1 1))
    (hafter : ∀ t, dat.after 1 t = attnBlk V c 1 t) (t : Fin cfg1.N) (d) : dat.before 1 t d = attnBlk V c 1 t :=
  (dat.before_in_eq_fetched 1 rfl (fun _ => rfl) (fun _ _ _ => rfl) (fun t => by rw [hafter]; unfold Dat.blockOf attnBlk; rw [hA]; try rfl) t d).trans
    (by unfold Dat.fetched Dat.blockOf attnBlk; rw [hA]; try rfl)

theorem attn_before0 (c : Dev nD) (t : Fin cfg1.N) (d) : (attnDat V c).before 0 t d = attnBlk V c 0 t :=
  attn_before0_of V (attnDat V c) (attnDat_A V c 0) (attnDat_after0 V c) t d
theorem attn_before1 (c : Dev nD) (t : Fin cfg1.N) (d) : (attnDat V c).before 1 t d = attnBlk V c 1 t :=
  attn_before1_of V (attnDat V c) (attnDat_A V c 1) (attnDat_after1 V c) t d

/-! ## The body's triple -/

/-- The body's one store writes the whole output block, so it covers it. -/
theorem attn_cover (p0 : Vec F S4x512x768 .f32) (y : S4x512x768.Idx) :
    ∃ pc ∈ ([⟨rQuery, p0⟩] : List (View.Piece (Elt F) S4x512x768 .f32)), y ∈ pc.1.set :=
  View.cover_of_tiled [⟨rQuery, p0⟩] S4x512x768.size (by rfl) y

set_option maxHeartbeats 1000000 in
/-- The attention body on whole staging memrefs, the query block's at read contents `q`, the resident key block's at
    `kv` and the output's at anything, runs to the continuation holding the inputs' as they were and the output's at
    `attnOut q kv`: the query block loaded whole, the key block loaded in eight slices of 256 rows, a load of the
    output buffer whose value nothing reads, and the one store of the whole block. -/
theorem attn_sound_kernel (c : Dev nD) (E : Set ℕ) (i : grid1.Coords)
    (arg1 : Memref sig .tc .vmem S4x512x768 .bf16) (harg1 : arg1.IsWhole) (arg2 : Memref sig .tc .vmem S4x2048x768 .bf16) (harg2 : arg2.IsWhole)
    (arg3 : Memref sig .tc .vmem S4x512x768 .f32) (harg3 : arg3.IsWhole)
    (q : Vec F S4x512x768 .bf16) (kv : Vec F S4x2048x768 .bf16) (K : PUnit → sProp 𝕄) :
    iprop(owns (c : Thread nD τ) arg1 fullShare q ∗ owns (c : Thread nD τ) arg2 fullShare kv
        ∗ (∃ d, owns (c : Thread nD τ) arg3 fullShare d)
        ∗ (iprop(owns (c : Thread nD τ) arg1 fullShare q ∗ owns (c : Thread nD τ) arg2 fullShare kv
            ∗ owns (c : Thread nD τ) arg3 fullShare (attnOut q kv)) -∗ K ⟨⟩))
      ⊢ wp frame (wpE (defs₀ (F := F)) Variants.none c none) E (cc1__attn_kernel i arg1 harg1 arg2 harg2 arg3 harg3) K := by
  simp only [cc1__attn_kernel_eq_skeleton]; unfold cc1__attn_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (attn_cover _)

/-! ## The body obligation, at a generic point -/

/-- What the body is called with at point `t`: the invariant, what the core owes, and each window's current staging
    buffer at what it then holds, -/
def attnBodyPre (c : Dev nD) (t : Fin cfg1.N) : sProp 𝕄 :=
  iprop((attnDat V c).Φ t.castSucc ∗ (attnDat V c).owesAt () t.castSucc
    ∗ (∃ d, owns (c : Thread nD τ) (st1_0 t) fullShare ((attnDat V c).before 0 t d))
    ∗ (∃ d, owns (c : Thread nD τ) (st1_1 t) fullShare ((attnDat V c).before 1 t d))
    ∗ (∃ d, owns (c : Thread nD τ) (st1_2 t) fullShare ((attnDat V c).before 2 t d)))

/-- and what it returns. -/
def attnBodyPost (c : Dev nD) (t : Fin cfg1.N) : sProp 𝕄 :=
  iprop((attnDat V c).Φ t.succ ∗ (attnDat V c).owesAt () t.succ
    ∗ owns (c : Thread nD τ) (st1_0 t) fullShare ((attnDat V c).after 0 t)
    ∗ owns (c : Thread nD τ) (st1_1 t) fullShare ((attnDat V c).after 1 t)
    ∗ owns (c : Thread nD τ) (st1_2 t) fullShare ((attnDat V c).after 2 t))

/-- The body at any point: the inputs' memrefs hold their blocks, so the body's triple applies; the invariant and
    what the core owes pass through unread. -/
theorem attn_sound_body (c : Dev nD) (t : Fin cfg1.N) :
    attnBodyPre V c t ⊢ wp frame (wpE (defs₀ (F := F)) Variants.none c none) Set.univ (bodyAt1 t) (fun _ => attnBodyPost V c t) := by
  unfold attnBodyPre attnBodyPost bodyAt1
  simp only [attn_before0, attn_before1]
  rw [show (attnDat V c).Φ t.succ = (attnDat V c).Φ t.castSucc from rfl,
    show (attnDat V c).owesAt () t.succ = (attnDat V c).owesAt () t.castSucc from rfl,
    attnDat_after0, attnDat_after1, attnDat_after2]
  iintro ⟨HΦ, Ho, ⟨%d0, H0⟩, ⟨%d1, H1⟩, ⟨%d2, H2⟩⟩
  iapply (attn_sound_kernel c Set.univ _ _ _ _ _ _ _ (attnBlk V c 0 t) (attnBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for the attention, at every point. -/
theorem attn_obligation (c : Dev nD) : Pipeline.BodyObligation (attnDat (F := F) V c) (defs₀ (F := F)) Variants.none () Set.univ := fun t => by
  rw [bigSep_W1, bigSep_W1]
  exact attn_sound_body V c t

end Cert.Kernel.Att

end
-- ==== Proof.KIData.lean ====
/-
  The two launches of the kernel, as data: the block of an operand a grid point works on, what each body leaves in its
  output block as a function of the blocks it loads, and the bookkeeping of both pipelines built from them.

  Launch 0 (the projection) works on 1024 rows of the flattened input at a time: from the row block x, the whole
  weight w and the whole bias b it leaves the block  x · wᵀ + b  (the body's one store).
  Launch 1 (the attention) works on 512 query rows of every batch at a time: it loads that query block and, slice by
  slice of 256 rows, the WHOLE projected array a second time as keys and values (one array behind two operands),
  and leaves the normalised attention output of those query rows (the body's one store, after eight slices).
  Since one array stands behind two operands of launch 1, each of the two holds it at one half of the full share.
-/
import proofs.«176324_j10393820857170_2_alg».proof.Proof.Gen.KernelIdeal.Launch
import proofs.«176324_j10393820857170_2_alg».proof.Proof.Gen.KernelIdeal.Skeleton
import proofs.«176324_j10393820857170_2_alg».proof.Proof.Gen.KernelIdeal.Points
import Idealize.ShloMosaic.Lib.Pipeline.FrameBody

noncomputable section

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F]

-- the contents of a core's buffers when a launch is entered
variable (V : (c : Dev nD) → (b : Ref sig .tc) → Buf (Elt F) ((c : Thread nD τ).loc b))

/-! ## Launch 0: the projection -/

/-- Operand `w`'s block at grid point `t` of the projection, read off its array as the launch finds it. -/
def projBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole of a 1024 × 768 block, of the weight, of the bias: the rectangles the projection body loads and stores. -/
abbrev rRows : Rect S1024x768 := Rect.unit (s := S1024x768) ![0, 0] S1024x768.size inb_S1024x768_S1024x768_0_0
abbrev rWeight : Rect S768x768 := Rect.unit (s := S768x768) ![0, 0] S768x768.size inb_S768x768_S768x768_0_0
abbrev rBias : Rect S768 := Rect.unit (s := S768) ![0] S768.size inb_S768_S768_0

/-- What the projection body leaves in its output block, from the three blocks it loads: its one store. -/
def projOut (x : Vec F S1024x768 .f32) (w : Vec F S768x768 .f32) (b : Vec F S768 .f32) : Vec F S1024x768 .bf16 :=
  View.canon [⟨rRows, k0_pay1 (View.ld x rRows) (View.ld w rWeight) (View.ld b rBias)⟩]

/-- The projection pipeline's bookkeeping on core `c`: the arrays as the launch finds them; after the body each
    input block as it was and the output block at `projOut` of the inputs; nothing carried, nothing owed. -/
def projDat (c : Dev nD) : Dat τ (Elt F) Unit ℕ (UR sig nD τ) ℕ cfg0 c where
  A w := V c (Pipeline.arrRef spec0 w)
  after w t := match w with
    | ⟨0, _⟩ => projBlk V c 0 t
    | ⟨1, _⟩ => projBlk V c 1 t
    | ⟨2, _⟩ => projBlk V c 2 t
    | ⟨3, _⟩ => projOut (projBlk V c 0 t) (projBlk V c 1 t) (projBlk V c 2 t)
  Φ _ := Pipeline.ΦA spec0 c
  q _ := fullShare
  owed _ := 0

theorem projDat_A (c : Dev nD) (w : Fin cfg0.W) : (projDat V c).A w = V c (Pipeline.arrRef spec0 w) := by
  dsimp only [projDat]
theorem projDat_after0 (c : Dev nD) (t : Fin cfg0.N) : (projDat V c).after 0 t = projBlk V c 0 t := by dsimp only [projDat]
theorem projDat_after1 (c : Dev nD) (t : Fin cfg0.N) : (projDat V c).after 1 t = projBlk V c 1 t := by dsimp only [projDat]
theorem projDat_after2 (c : Dev nD) (t : Fin cfg0.N) : (projDat V c).after 2 t = projBlk V c 2 t := by dsimp only [projDat]
theorem projDat_after3 (c : Dev nD) (t : Fin cfg0.N) :
    (projDat V c).after 3 t = projOut (projBlk V c 0 t) (projBlk V c 1 t) (projBlk V c 2 t) := by dsimp only [projDat]

/-! ## Launch 1: the attention -/

/-- Operand `w`'s block at grid point `t` of the attention, read off its array as the launch finds it. -/
def attnBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole query block, and the eight slices of 256 key rows of the resident key block. -/
abbrev rQuery : Rect S4x512x768 := Rect.unit (s := S4x512x768) ![0, 0, 0] S4x512x768.size inb_S4x512x768_S4x512x768_0_0_0
abbrev rKeys0 : Rect S4x2048x768 := Rect.unit (s := S4x2048x768) ![0, 0, 0] S4x256x768.size inb_S4x2048x768_S4x256x768_0_0_0
abbrev rKeys1 : Rect S4x2048x768 := Rect.unit (s := S4x2048x768) ![0, 256, 0] S4x256x768.size inb_S4x2048x768_S4x256x768_0_256_0
abbrev rKeys2 : Rect S4x2048x768 := Rect.unit (s := S4x2048x768) ![0, 512, 0] S4x256x768.size inb_S4x2048x768_S4x256x768_0_512_0
abbrev rKeys3 : Rect S4x2048x768 := Rect.unit (s := S4x2048x768) ![0, 768, 0] S4x256x768.size inb_S4x2048x768_S4x256x768_0_768_0
abbrev rKeys4 : Rect S4x2048x768 := Rect.unit (s := S4x2048x768) ![0, 1024, 0] S4x256x768.size inb_S4x2048x768_S4x256x768_0_1024_0
abbrev rKeys5 : Rect S4x2048x768 := Rect.unit (s := S4x2048x768) ![0, 1280, 0] S4x256x768.size inb_S4x2048x768_S4x256x768_0_1280_0
abbrev rKeys6 : Rect S4x2048x768 := Rect.unit (s := S4x2048x768) ![0, 1536, 0] S4x256x768.size inb_S4x2048x768_S4x256x768_0_1536_0
abbrev rKeys7 : Rect S4x2048x768 := Rect.unit (s := S4x2048x768) ![0, 1792, 0] S4x256x768.size inb_S4x2048x768_S4x256x768_0_1792_0

/-- The value the attention body stores, from the query block and the eight key slices it loads: the body's
    arithmetic in the order the body's four parts hand their values on (part 1 → part 2 → part 3 → the last part's store). -/
def attnStored (v0 : Vec F S4x512x768 .bf16) (v9 v29 v49 v69 v89 v109 v129 v149 : Vec F S4x256x768 .bf16) : FVec F S4x512x768 .f32 :=
  k1_pay40 (k1_pay1 v0)
    (k1_pay35 (k1_pay1 v0) (k1_pay23 (k1_pay1 v0) (k1_pay12 v0 v9 v29) v49 v69) v89 v109)
    (k1_pay38 (k1_pay1 v0) (k1_pay23 (k1_pay1 v0) (k1_pay12 v0 v9 v29) v49 v69)
      (k1_pay26 (k1_pay1 v0) (k1_pay8 v0 v9) (k1_pay12 v0 v9 v29) (k1_pay13 v0 v9 v29) (k1_pay14 v0 v9 v29) v49 v69) v89 v109)
    (k1_pay39 (k1_pay1 v0)
      (k1_pay20 (k1_pay1 v0) (k1_pay9 v0 v9) (k1_pay10 v29) (k1_pay12 v0 v9 v29) (k1_pay13 v0 v9 v29) (k1_pay14 v0 v9 v29) v49)
      (k1_pay21 v69)
      (k1_pay23 (k1_pay1 v0) (k1_pay12 v0 v9 v29) v49 v69)
      (k1_pay24 (k1_pay1 v0) (k1_pay12 v0 v9 v29) v49 v69)
      (k1_pay27 (k1_pay1 v0) (k1_pay12 v0 v9 v29) v49 v69) v89 v109)
    v129 v149

/-- What the attention body leaves in its output block, from the query block and the resident key block: its one
    store, of `attnStored` of the nine pieces it loads. -/
def attnOut (q : Vec F S4x512x768 .bf16) (kv : Vec F S4x2048x768 .bf16) : Vec F S4x512x768 .f32 :=
  View.canon [⟨rQuery, attnStored (View.ld q rQuery) (View.ld kv rKeys0) (View.ld kv rKeys1) (View.ld kv rKeys2)
    (View.ld kv rKeys3) (View.ld kv rKeys4) (View.ld kv rKeys5) (View.ld kv rKeys6) (View.ld kv rKeys7)⟩]

/-- The attention pipeline's bookkeeping on core `c`: the arrays as the launch finds them; after the body each input
    block as it was and the output block at `attnOut` of the inputs; nothing carried, nothing owed. The projected
    array stands behind operands 0 and 1: each holds it at one half of the full share. -/
def attnDat (c : Dev nD) : Dat τ (Elt F) Unit ℕ (UR sig nD τ) ℕ cfg1 c where
  A w := V c (Pipeline.arrRef spec1 w)
  after w t := match w with
    | ⟨0, _⟩ => attnBlk V c 0 t
    | ⟨1, _⟩ => attnBlk V c 1 t
    | ⟨2, _⟩ => attnOut (attnBlk V c 0 t) (attnBlk V c 1 t)
  Φ _ := Pipeline.ΦA spec1 c
  q w := match w with
    | ⟨0, _⟩ => fullShare.left
    | ⟨1, _⟩ => fullShare.right
    | ⟨2, _⟩ => fullShare
  owed _ := 0

theorem attnDat_A (c : Dev nD) (w : Fin cfg1.W) : (attnDat V c).A w = V c (Pipeline.arrRef spec1 w) := by
  dsimp only [attnDat]
theorem attnDat_after0 (c : Dev nD) (t : Fin cfg1.N) : (attnDat V c).after 0 t = attnBlk V c 0 t := by dsimp only [attnDat]
theorem attnDat_after1 (c : Dev nD) (t : Fin cfg1.N) : (attnDat V c).after 1 t = attnBlk V c 1 t := by dsimp only [attnDat]
theorem attnDat_after2 (c : Dev nD) (t : Fin cfg1.N) :
    (attnDat V c).after 2 t = attnOut (attnBlk V c 0 t) (attnBlk V c 1 t) := by dsimp only [attnDat]

end Cert.KernelIdeal.Att

end
-- ==== Proof.KIFold.lean ====
/-
  The contents of a core's buffers at each boundary of the program: at launch; after the reshape of the input to
  8192 × 768 rows; after the projection launch (its output array at what the write-backs of its eight row blocks
  leave, everything else untouched); after the reshape of the projected rows back to 4 × 2048 × 768; after the
  attention launch (its output array at what the write-backs of its four query blocks leave). And the two pipelines'
  bookkeeping, each taken at the contents its launch is entered with.
-/
import proofs.«176324_j10393820857170_2_alg».proof.Proof.KIData
import Idealize.ShloMosaic.Lib.Pipeline.RegionsLoop
import Idealize.ShloMosaic.Lib.Pipeline.FrameSuffix

noncomputable section

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat)

variable {F : FTy → Type} [FloatOps F]
variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first reshape: what the projection launch is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection launch: its arrays at what the pipeline leaves (the inputs as entered, the output's eight
    write-backs folded), every other buffer as entered. -/
def W2 (c : Dev nD) : Valuation τ sig (Elt F) :=
  Pipeline.withArrays spec0 c (W1 m ρ c) fun w => (projDat (V1 m ρ) c).arrAt w cfg0.N
abbrev V2 : (c : Dev nD) → (b : Ref sig .tc) → Buf (Elt F) ((c : Thread nD τ).loc b) := fun c b => W2 m ρ c b
/-- After the second reshape: what the attention launch is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- What the attention launch leaves in its output array: the four query blocks' write-backs folded. -/
def attnResult (c : Dev nD) : Buf (Elt F) ((c : Thread nD τ).loc main_v3) := (attnDat (V3 m ρ) c).arrAt 2 cfg1.N
/-- After the attention launch: the output array at `attnResult`, every other buffer as entered (the projected array,
    behind both input operands, is only read). -/
def W4 (c : Dev nD) : Valuation τ sig (Elt F) := Function.update (W3 m ρ c) main_v3 (attnResult m ρ c)
abbrev V4 : (c : Dev nD) → (b : Ref sig .tc) → Buf (Elt F) ((c : Thread nD τ).loc b) := fun c b => W4 m ρ c b

/-- No pipeline prefetches a table. -/
abbrev adm : (p : Fin 2) → (pcfgs (F := F) p).Adm := fun p => (cfgs p).toPCfg_adm
/-- Both pipelines' bookkeeping, each at its launch's entry contents (a literal match on the pipeline's number). -/
def pdats : (p : Fin 2) → (c : Dev nD) → Dat τ (Elt F) Unit ℕ (UR sig nD τ) ℕ (Pipeline.pin (pcfgs (F := F)) adm p) c
  | ⟨0, _⟩ => fun c => projDat (V1 m ρ) c
  | ⟨1, _⟩ => fun c => attnDat (V3 m ρ) c

end Cert.KernelIdeal.Att

end
-- ==== Proof.KIRun.lean ====
/-
  The run of the whole program, from the launch to the return, on every core: the first reshape, the projection
  launch, the second reshape, the attention launch. Each stretch is entered from the buffer contents the one before it
  leaves, and what is proved is that every weakly fair execution terminates with every unscoped buffer of a core at
  the contents of the last boundary — the attention output array at the fold of its four query blocks' write-backs,
  every argument array as launched. The two kernel bodies enter as hypotheses (their obligations at every grid point).

  The projection launch has four operands on four arrays, each held whole. The attention launch has three operands on
  TWO arrays: the projected array stands behind both input operands, so at entry its full share is divided into two
  halves, one per operand, and at exit the two halves — which still hold the same contents, an input array is never
  written — are joined back into the whole.
-/
import proofs.«176324_j10393820857170_2_alg».proof.Proof.KIFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Reading the boundary contents -/

/-- After the projection launch each of its four arrays holds what the pipeline leaves there, -/
theorem W2_arr (c : Dev nD) (w : Fin cfg0.W) :
    W2 m ρ c (Proc.devRef .tc (Pipeline.arrRef spec0 w)) = (projDat (V1 m ρ) c).arrAt w cfg0.N := by
  unfold W2; exact Pipeline.withArrays_arr spec0 launch0.win.arr_inj c _ _ w
/-- and every buffer that is none of the four holds what it held when the launch was entered. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem hF0 (c : Dev nD) (w : Fin cfg0.W) : (projDat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the attention launch its output array holds the fold of the four query blocks' write-backs, -/
theorem W4_main_v3 (c : Dev nD) : W4 m ρ c (Proc.devRef .tc main_v3) = attnResult m ρ c := by
  unfold W4; exact Function.update_self ..
/-- and every other buffer holds what it held when the launch was entered. -/
theorem W4_of_ne (c : Dev nD) (b : Ref sig .tc) (hb : b ≠ main_v3) :
    W4 m ρ c (Proc.devRef .tc b) = W3 m ρ c (Proc.devRef .tc b) := by
  unfold W4; exact Function.update_of_ne (StableHlo.devRef_ne_of_ne hb) ..

/-! ### The arguments end as launched

No reshape writes an argument, the projection launch reads the weight and the bias through input operands and never
names the input array, and the attention launch names none of the three: walking the boundaries back from the last
one, an argument's buffer holds at each what it held at the one before, down to the launch memory. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 1).trans (((projDat (V1 m ρ) c).arrAt_in 1 rfl _).trans (projDat_A (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 2).trans (((projDat (V1 m ρ) c).arrAt_in 2 rfl _).trans (projDat_A (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ## What every stretch carries beside the buffers -/

abbrev 𝒱₀ : Variants := Variants.none
/-- No core owes another anything, so no level is assigned. -/
abbrev L : GSem nD τ sig → Finset Unit := fun _ => ∅
abbrev lv : GSem nD τ sig → Unit → ℕ := fun _ _ => 0
/-- Beside the buffers a core carries its generator register, at some state, and its debts, at nothing. -/
abbrev R (c : Dev nD) : sProp 𝕄 := iprop((∃ r, prngReg c r) ∗ ∃ W, owes (c : Thread nD τ) (0 : CellTallies nD τ sig Unit) W)
/-- A stretch of host operations as a segment: it takes the unscoped buffers from the contents `W` to the contents
    after the operations, the register and the debts riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Neither reshape allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped reference of the core is among those whose buffers the run holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state of a core, its debts apart: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The attention launch's arrays: one array behind two operands -/

section AttnArrays

variable (V : (c : Dev nD) → (b : Ref sig .tc) → Buf (Elt F) ((c : Thread nD τ).loc b))

/-- The two input operands hold their array at the two halves of the full share, the output operand holds its own whole. -/
theorem attn_share0 (c : Dev nD) : (attnDat V c).share 0 = fullShare.left := rfl
theorem attn_share1 (c : Dev nD) : (attnDat V c).share 1 = fullShare.right := rfl
theorem attn_share2 (c : Dev nD) : (attnDat V c).share 2 = fullShare := rfl

/-- The three operands stand on two buffers: the projected array and the output array. -/
theorem attn_arrRefs : (Finset.univ.image (Pipeline.arrRef spec1)) = {main_v2, main_v3} := by decide

/-- The launch's arrays at contents `G`, operand by operand: the projected array at one half of the full share under
    operand 0's contents and at the other half under operand 1's, the output array whole under operand 2's. -/
theorem attn_arrays_eq (c : Dev nD) (G : (w : Fin cfg1.W) → Buf (Elt F) ((cfg1.win w).arr.view.loc (c : Thread nD τ))) :
    ((attnDat V c).arrays G : sProp 𝕄)
      = iprop((((c : Thread nD τ).loc main_v2) ↦{fullShare.left} G 0) ∗ (((c : Thread nD τ).loc main_v2) ↦{fullShare.right} G 1)
          ∗ (((c : Thread nD τ).loc main_v3) ↦{fullShare} G 2)) := by
  unfold Dat.arrays
  rw [bigSep_W1, (arr_whole1 0).set_eq_univ, (arr_whole1 2).set_eq_univ, attn_share0, attn_share1, attn_share2]

/-- The distinct buffers behind the operands, each whole at contents `Vc`: the projected array and the output array. -/
theorem attn_arrBufs_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v2) ↦{fullShare} Vc main_v2) ∗ (((c : Thread nD τ).loc main_v3) ↦{fullShare} Vc main_v3)) := by
  unfold Pipeline.arrBufs
  rw [attn_arrRefs, BI.bigSep_insert (by decide), BI.bigSep_singleton]
  rfl

/-- A core's unscoped buffers at contents `Vc` are those two buffers and the rest. -/
theorem attn_unscopedBufs_eq (c : Dev nD) (Vc : (b : Ref sig .tc) → Buf (Elt F) ((c : Thread nD τ).loc b)) :
    (unscopedBufs (Ix := Unit) (Name := ℕ) (U := UR sig nD τ) (Lvl := ℕ) c Vc : sProp 𝕄)
      = iprop(((((c : Thread nD τ).loc main_v2) ↦{fullShare} Vc main_v2) ∗ (((c : Thread nD τ).loc main_v3) ↦{fullShare} Vc main_v3))
          ∗ Pipeline.unscopedRest (Ix := Unit) (Name := ℕ) (U := UR sig nD τ) (Lvl := ℕ) spec1 c Vc) := by
  have hsp : (unscopedBufs (Ix := Unit) (Name := ℕ) (U := UR sig nD τ) (Lvl := ℕ) c Vc : sProp 𝕄)
      = iprop(Pipeline.arrBufs (Ix := Unit) (Name := ℕ) (U := UR sig nD τ) (Lvl := ℕ) spec1 c Vc
          ∗ Pipeline.unscopedRest (Ix := Unit) (Name := ℕ) (U := UR sig nD τ) (Lvl := ℕ) spec1 c Vc) :=
    Pipeline.unscopedBufs_split₀ (Pipeline.pin (pcfgs (F := F)) adm) 1 winFacts₀1.arr_unscoped c Vc
  rw [hsp, attn_arrBufs_eq]

end AttnArrays

/-- ENTRY of the attention launch: out of a core's unscoped buffers at the contents after the second reshape, the
    projected array's full share is divided into its two halves, one for each input operand — both at the array's
    contents, which is what either operand's bookkeeping starts from —, the output array goes to the output operand
    whole, and the rest bypasses the launch. -/
theorem attn_entry (c : Dev nD) :
    (unscopedBufs (Ix := Unit) (Name := ℕ) (U := UR sig nD τ) (Lvl := ℕ) c (V3 m ρ c) : sProp 𝕄)
      ⊢ iprop((attnDat (V3 m ρ) c).arrays ((attnDat (V3 m ρ) c).arrAt · 0)
          ∗ Pipeline.unscopedRest (Ix := Unit) (Name := ℕ) (U := UR sig nD τ) (Lvl := ℕ) spec1 c (V3 m ρ c)) := by
  rw [attn_unscopedBufs_eq, attn_arrays_eq]
  iintro ⟨⟨H2, H3⟩, Hrest⟩
  ihave H := (pointsTo_share (PosShare.mem_left_op_right fullShare)).1 $$ H2
  icases H with ⟨Ha, Hb⟩
  isplitr [Hrest]
  · isplitl [Ha]; · iexact Ha
    isplitl [Hb]; · iexact Hb
    iexact H3
  iexact Hrest

/-- The buffers no operand of the attention launch stands on hold at the last boundary what they held when the launch
    was entered: the last boundary differs from that one at the output array only. -/
theorem attn_rest_eq (c : Dev nD) :
    (Pipeline.unscopedRest (Ix := Unit) (Name := ℕ) (U := UR sig nD τ) (Lvl := ℕ) spec1 c (V4 m ρ c) : sProp 𝕄)
      = Pipeline.unscopedRest (Ix := Unit) (Name := ℕ) (U := UR sig nD τ) (Lvl := ℕ) spec1 c (V3 m ρ c) := by
  unfold Pipeline.unscopedRest
  exact BI.bigSep_congr fun b hb => by
    rw [show V4 m ρ c b = V3 m ρ c b from W4_of_ne m ρ c b fun e =>
      (Finset.mem_sdiff.mp hb).2 (Finset.mem_image.mpr ⟨2, Finset.mem_univ _, e.symm⟩)]

/-- EXIT of the attention launch: an input operand's array is never written, so the two halves of the projected array
    come back at the same contents and join into the whole; the output array comes back at the fold of the four query
    blocks' write-backs; with the rest, this is every unscoped buffer of the core at the last boundary's contents. -/
theorem attn_exit (c : Dev nD) :
    iprop((attnDat (V3 m ρ) c).arrays ((attnDat (V3 m ρ) c).arrAt · cfg1.N)
        ∗ Pipeline.unscopedRest (Ix := Unit) (Name := ℕ) (U := UR sig nD τ) (Lvl := ℕ) spec1 c (V3 m ρ c))
      ⊢ (unscopedBufs (Ix := Unit) (Name := ℕ) (U := UR sig nD τ) (Lvl := ℕ) c (V4 m ρ c) : sProp 𝕄) := by
  rw [attn_unscopedBufs_eq, attn_arrays_eq, attn_rest_eq,
    show V4 m ρ c main_v2 = V3 m ρ c main_v2 from W4_of_ne m ρ c main_v2 (by decide),
    show V4 m ρ c main_v3 = attnResult m ρ c from W4_main_v3 m ρ c,
    show (attnDat (V3 m ρ) c).arrAt 0 cfg1.N = V3 m ρ c main_v2 from
      ((attnDat (V3 m ρ) c).arrAt_in 0 rfl _).trans (attnDat_A (V3 m ρ) c 0),
    show (attnDat (V3 m ρ) c).arrAt 1 cfg1.N = V3 m ρ c main_v2 from
      ((attnDat (V3 m ρ) c).arrAt_in 1 rfl _).trans (attnDat_A (V3 m ρ) c 1),
    show (attnDat (V3 m ρ) c).arrAt 2 cfg1.N = attnResult m ρ c from rfl]
  iintro ⟨⟨Ha, Hb, H3⟩, Hrest⟩
  ihave H2 := (pointsTo_share (PosShare.mem_left_op_right fullShare)).2 $$ [Ha Hb]
  · isplitl [Ha] <;> iassumption
  isplitr [Hrest]
  · isplitl [H2]; · iexact H2
    iexact H3
  iexact Hrest

/-! ## The two launches as segments -/

section Segments

variable (hb0 : ∀ c, Pipeline.BodyObligation (projDat (F := F) (V1 m ρ) c) (defs₀ (F := F)) Variants.none () Set.univ)
variable (hb1 : ∀ c, Pipeline.BodyObligation (attnDat (F := F) (V3 m ρ) c) (defs₀ (F := F)) Variants.none () Set.univ)

set_option backward.isDefEq.respectTransparency.types false in
/-- The projection launch over a core's state: entered with every unscoped buffer at the contents after the first
    reshape, left with them at the contents `W2`. At entry its four arrays, distinct and each whole, are taken out of
    the unscoped buffers, the rest bypassing the launch; at exit they are put back at what the write-backs left. The
    generator register goes into the launch's invariant and comes back; nothing is owed; the kernel has no semaphore
    of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention launch over a core's state: entered with every unscoped buffer at the contents after the second
    reshape, left with them at the last boundary's contents. Its three operands stand on two arrays, so the arrays are
    taken out of the unscoped buffers by `attn_entry` (the projected array dealt in halves to the two input operands)
    and put back by `attn_exit` (the halves joined again). The generator register goes into the launch's invariant and
    comes back; nothing is owed; the kernel has no semaphore of its own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (hb1 c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := attn_entry m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := attn_exit m ρ c
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The program as four segments, and its run -/

/-- The program's four segments in order: the first reshape from the launch contents, the projection launch, the
    second reshape from the contents the projection leaves, the attention launch. -/
abbrev segs : List (Pipeline.Seg (pcfgs (F := F)) adm (pdats m ρ) () defs₀ 𝒱₀ L lv) :=
  [ .host (hseg hostOps0 hostOps0_sub hostOps0_fresh (W0 m ρ)),
    .region (reg0 m ρ hb0),
    .host (hseg hostOps1 hostOps1_sub hostOps1_fresh (W2 m ρ)),
    .region (reg1 m ρ hb1) ]
/-- The program is the run of these segments. -/
theorem main_run (c : Dev nD) : main (F := F) c = Pipeline.Seg.run (segs m ρ hb0 hb1) := (main_chain c).trans (by chain_rfl)

end Segments

set_option backward.isDefEq.respectTransparency.types false in
/-- THE RUN: from any launch memory with every counter at zero, every weakly fair execution of the program on the
    cores terminates, nothing faulting, and in every final state each unscoped buffer of each core holds the last
    boundary's contents `W4`. The launch deals every core its unscoped buffers at the launch memory, its generator
    register and no debt; the segments chain from there, each entered from what the one before leaves; the last state
    is read against the final memory buffer by buffer. -/
theorem run_all
    (hb0 : ∀ c, Pipeline.BodyObligation (projDat (F := F) (V1 m ρ) c) (defs₀ (F := F)) Variants.none () Set.univ)
    (hb1 : ∀ c, Pipeline.BodyObligation (attnDat (F := F) (V3 m ρ) c) (defs₀ (F := F)) Variants.none () Set.univ) :
    θ_run defs (onTc (τ := τ) (main (F := F))) ⟨m, fun _ => 0, ρ⟩
      (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ hb0 hb1)
    (fun c Q => by rw [main_run m ρ hb0 hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Att

end
-- ==== Proof.KIBody0.lean ====
/-
  The projection launch's body, at any float instance: from its three input blocks held in their staging buffers the
  body loads them whole, computes, and stores the whole output block once; so after it the inputs' buffers are as they
  were and the output's holds the one store's value. From that triple, the pipeline's body obligation at every grid
  point: each input's current staging buffer holds its block whether the pipeline fetched it at that point or not.
-/
import proofs.«176324_j10393820857170_2_alg».proof.Proof.KIData
import Idealize.ShloMosaic.Lib.Tactic

-- membership in a rectangle of these extents: the structural look recurses once per coordinate of the long axes
set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of a core's buffers when the launch is entered
variable (V : (c : Dev nD) → (b : Ref sig .tc) → Buf (Elt F) ((c : Thread nD τ).loc b))

/-! ## Each input's current staging buffer holds its block -/

/-- Input window `w`'s current staging buffer holds its block at every point, fetched there or not, for any
    bookkeeping whose array is the launch's and whose body leaves the block in place: not fetched means the block
    index did not move, so the buffer still holds the previous point's block, which is this point's. -/
theorem proj_before0_of {c : Dev nD} (dat : Dat τ (Elt F) Unit ℕ (UR sig nD τ) ℕ cfg0 c) (hA : dat.A 0 = V c (Pipeline.arrRef spec0 0))
    (hafter : ∀ t, dat.after 0 t = projBlk V c 0 t) (t : Fin cfg0.N) (d) : dat.before 0 t d = projBlk V c 0 t :=
  (dat.before_in_eq_fetched 0 rfl (fun _ => rfl) (fun _ _ _ => rfl) (fun t => by rw [hafter]; unfold Dat.blockOf projBlk; rw [hA]; try rfl) t d).trans
    (by unfold Dat.fetched Dat.blockOf projBlk; rw [hA]; try rfl)

theorem proj_before1_of {c : Dev nD} (dat : Dat τ (Elt F) Unit ℕ (UR sig nD τ) ℕ cfg0 c) (hA : dat.A 1 = V c (Pipeline.arrRef spec0 1))
    (hafter : ∀ t, dat.after 1 t = projBlk V c 1 t) (t : Fin cfg0.N) (d) : dat.before 1 t d = projBlk V c 1 t :=
  (dat.before_in_eq_fetched 1 rfl (fun _ => rfl) (fun _ _ _ => rfl) (fun t => by rw [hafter]; unfold Dat.blockOf projBlk; rw [hA]; try rfl) t d).trans
    (by unfold Dat.fetched Dat.blockOf projBlk; rw [hA]; try rfl)

theorem proj_before2_of {c : Dev nD} (dat : Dat τ (Elt F) Unit ℕ (UR sig nD τ) ℕ cfg0 c) (hA : dat.A 2 = V c (Pipeline.arrRef spec0 2))
    (hafter : ∀ t, dat.after 2 t = projBlk V c 2 t) (t : Fin cfg0.N) (d) : dat.before 2 t d = projBlk V c 2 t :=
  (dat.before_in_eq_fetched 2 rfl (fun _ => rfl) (fun _ _ _ => rfl) (fun t => by rw [hafter]; unfold Dat.blockOf projBlk; rw [hA]; try rfl) t d).trans
    (by unfold Dat.fetched Dat.blockOf projBlk; rw [hA]; try rfl)

theorem proj_before0 (c : Dev nD) (t : Fin cfg0.N) (d) : (projDat V c).before 0 t d = projBlk V c 0 t :=
  proj_before0_of V (projDat V c) (projDat_A V c 0) (projDat_after0 V c) t d
theorem proj_before1 (c : Dev nD) (t : Fin cfg0.N) (d) : (projDat V c).before 1 t d = projBlk V c 1 t :=
  proj_before1_of V (projDat V c) (projDat_A V c 1) (projDat_after1 V c) t d
theorem proj_before2 (c : Dev nD) (t : Fin cfg0.N) (d) : (projDat V c).before 2 t d = projBlk V c 2 t :=
  proj_before2_of V (projDat V c) (projDat_A V c 2) (projDat_after2 V c) t d

/-! ## The body's triple -/

/-- The body's one store writes the whole output block, so it covers it. -/
theorem proj_cover (p0 : Vec F S1024x768 .bf16) (y : S1024x768.Idx) :
    ∃ pc ∈ ([⟨rRows, p0⟩] : List (View.Piece (Elt F) S1024x768 .bf16)), y ∈ pc.1.set :=
  View.cover_of_tiled [⟨rRows, p0⟩] S1024x768.size (by rfl) y

set_option maxHeartbeats 1000000 in
/-- The projection body on whole staging memrefs, the three inputs' at read contents `x`, `w`, `b` and the output's
    at anything, runs to the continuation holding the inputs' as they were and the output's at `projOut x w b`:
    three loads, a load of the output buffer whose value nothing reads, and the one store of the whole block. -/
theorem proj_sound_kernel (c : Dev nD) (E : Set ℕ) (i : grid0.Coords)
    (arg1 : Memref sig .tc .vmem S1024x768 .f32) (harg1 : arg1.IsWhole) (arg2 : Memref sig .tc .vmem S768x768 .f32) (harg2 : arg2.IsWhole)
    (arg3 : Memref sig .tc .vmem S768 .f32) (harg3 : arg3.IsWhole) (arg4 : Memref sig .tc .vmem S1024x768 .bf16) (harg4 : arg4.IsWhole)
    (x : Vec F S1024x768 .f32) (w : Vec F S768x768 .f32) (b : Vec F S768 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (projOut x w b)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (proj_cover _)

/-! ## The body obligation, at a generic point -/

/-- What the body is called with at point `t`: the invariant, what the core owes, and each window's current staging
    buffer at what it then holds, -/
def projBodyPre (c : Dev nD) (t : Fin cfg0.N) : sProp 𝕄 :=
  iprop((projDat V c).Φ t.castSucc ∗ (projDat V c).owesAt () t.castSucc
    ∗ (∃ d, owns (c : Thread nD τ) (st0_0 t) fullShare ((projDat V c).before 0 t d))
    ∗ (∃ d, owns (c : Thread nD τ) (st0_1 t) fullShare ((projDat V c).before 1 t d))
    ∗ (∃ d, owns (c : Thread nD τ) (st0_2 t) fullShare ((projDat V c).before 2 t d))
    ∗ (∃ d, owns (c : Thread nD τ) (st0_3 t) fullShare ((projDat V c).before 3 t d)))

/-- and what it returns. -/
def projBodyPost (c : Dev nD) (t : Fin cfg0.N) : sProp 𝕄 :=
  iprop((projDat V c).Φ t.succ ∗ (projDat V c).owesAt () t.succ
    ∗ owns (c : Thread nD τ) (st0_0 t) fullShare ((projDat V c).after 0 t)
    ∗ owns (c : Thread nD τ) (st0_1 t) fullShare ((projDat V c).after 1 t)
    ∗ owns (c : Thread nD τ) (st0_2 t) fullShare ((projDat V c).after 2 t)
    ∗ owns (c : Thread nD τ) (st0_3 t) fullShare ((projDat V c).after 3 t))

/-- The body at any point: the inputs' memrefs hold their blocks, so the body's triple applies; the invariant and
    what the core owes pass through unread. -/
theorem proj_sound_body (c : Dev nD) (t : Fin cfg0.N) :
    projBodyPre V c t ⊢ wp frame (wpE (defs₀ (F := F)) Variants.none c none) Set.univ (bodyAt0 t) (fun _ => projBodyPost V c t) := by
  unfold projBodyPre projBodyPost bodyAt0
  simp only [proj_before0, proj_before1, proj_before2]
  rw [show (projDat V c).Φ t.succ = (projDat V c).Φ t.castSucc from rfl,
    show (projDat V c).owesAt () t.succ = (projDat V c).owesAt () t.castSucc from rfl,
    projDat_after0, projDat_after1, projDat_after2, projDat_after3]
  iintro ⟨HΦ, Ho, ⟨%d0, H0⟩, ⟨%d1, H1⟩, ⟨%d2, H2⟩, ⟨%d3, H3⟩⟩
  iapply (proj_sound_kernel c Set.univ _ _ _ _ _ _ _ _ _ (projBlk V c 0 t) (projBlk V c 1 t) (projBlk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the projection, at every point. -/
theorem proj_obligation (c : Dev nD) : Pipeline.BodyObligation (projDat (F := F) V c) (defs₀ (F := F)) Variants.none () Set.univ := fun t => by
  rw [bigSep_W0, bigSep_W0]
  exact proj_sound_body V c t

end Cert.KernelIdeal.Att

end
-- ==== Proof.KIBody1.lean ====
/-
  The attention launch's body, at any float instance: from the query block and the resident key block held in their
  staging buffers the body loads the query block whole and the key block slice by slice of 256 rows, eight in all,
  carrying a running maximum, denominator and numerator from slice to slice, and stores the whole output block once;
  so after it the inputs' buffers are as they were and the output's holds the one store's value, the body's arithmetic
  of the nine pieces loaded. From that triple, the pipeline's body obligation at every grid point: each input's current
  staging buffer holds its block whether the pipeline fetched it at that point or not.
-/
import proofs.«176324_j10393820857170_2_alg».proof.Proof.KIData
import Idealize.ShloMosaic.Lib.Tactic

-- membership in a rectangle of these extents: the structural look recurses once per coordinate of the long axes
set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of a core's buffers when the launch is entered
variable (V : (c : Dev nD) → (b : Ref sig .tc) → Buf (Elt F) ((c : Thread nD τ).loc b))

/-! ## Each input's current staging buffer holds its block -/

/-- Input window `w`'s current staging buffer holds its block at every point, fetched there or not, for any
    bookkeeping whose array is the launch's and whose body leaves the block in place: not fetched means the block
    index did not move, so the buffer still holds the previous point's block, which is this point's. -/
theorem attn_before0_of {c : Dev nD} (dat : Dat τ (Elt F) Unit ℕ (UR sig nD τ) ℕ cfg1 c) (hA : dat.A 0 = V c (Pipeline.arrRef spec1 0))
    (hafter : ∀ t, dat.after 0 t = attnBlk V c 0 t) (t : Fin cfg1.N) (d) : dat.before 0 t d = attnBlk V c 0 t :=
  (dat.before_in_eq_fetched 0 rfl (fun _ => rfl) (fun _ _ _ => rfl) (fun t => by rw [hafter]; unfold Dat.blockOf attnBlk; rw [hA]; try rfl) t d).trans
    (by unfold Dat.fetched Dat.blockOf attnBlk; rw [hA]; try rfl)

theorem attn_before1_of {c : Dev nD} (dat : Dat τ (Elt F) Unit ℕ (UR sig nD τ) ℕ cfg1 c) (hA : dat.A 1 = V c (Pipeline.arrRef spec1 1))
    (hafter : ∀ t, dat.after 1 t = attnBlk V c 1 t) (t : Fin cfg1.N) (d) : dat.before 1 t d = attnBlk V c 1 t :=
  (dat.before_in_eq_fetched 1 rfl (fun _ => rfl) (fun _ _ _ => rfl) (fun t => by rw [hafter]; unfold Dat.blockOf attnBlk; rw [hA]; try rfl) t d).trans
    (by unfold Dat.fetched Dat.blockOf attnBlk; rw [hA]; try rfl)

theorem attn_before0 (c : Dev nD) (t : Fin cfg1.N) (d) : (attnDat V c).before 0 t d = attnBlk V c 0 t :=
  attn_before0_of V (attnDat V c) (attnDat_A V c 0) (attnDat_after0 V c) t d
theorem attn_before1 (c : Dev nD) (t : Fin cfg1.N) (d) : (attnDat V c).before 1 t d = attnBlk V c 1 t :=
  attn_before1_of V (attnDat V c) (attnDat_A V c 1) (attnDat_after1 V c) t d

/-! ## The body's triple -/

/-- The body's one store writes the whole output block, so it covers it. -/
theorem attn_cover (p0 : Vec F S4x512x768 .f32) (y : S4x512x768.Idx) :
    ∃ pc ∈ ([⟨rQuery, p0⟩] : List (View.Piece (Elt F) S4x512x768 .f32)), y ∈ pc.1.set :=
  View.cover_of_tiled [⟨rQuery, p0⟩] S4x512x768.size (by rfl) y

set_option maxHeartbeats 1000000 in
/-- The attention body on whole staging memrefs, the query block's at read contents `q`, the resident key block's at
    `kv` and the output's at anything, runs to the continuation holding the inputs' as they were and the output's at
    `attnOut q kv`: the query block loaded whole, the key block loaded in eight slices of 256 rows, a load of the
    output buffer whose value nothing reads, and the one store of the whole block. -/
theorem attn_sound_kernel (c : Dev nD) (E : Set ℕ) (i : grid1.Coords)
    (arg1 : Memref sig .tc .vmem S4x512x768 .bf16) (harg1 : arg1.IsWhole) (arg2 : Memref sig .tc .vmem S4x2048x768 .bf16) (harg2 : arg2.IsWhole)
    (arg3 : Memref sig .tc .vmem S4x512x768 .f32) (harg3 : arg3.IsWhole)
    (q : Vec F S4x512x768 .bf16) (kv : Vec F S4x2048x768 .bf16) (K : PUnit → sProp 𝕄) :
    iprop(owns (c : Thread nD τ) arg1 fullShare q ∗ owns (c : Thread nD τ) arg2 fullShare kv
        ∗ (∃ d, owns (c : Thread nD τ) arg3 fullShare d)
        ∗ (iprop(owns (c : Thread nD τ) arg1 fullShare q ∗ owns (c : Thread nD τ) arg2 fullShare kv
            ∗ owns (c : Thread nD τ) arg3 fullShare (attnOut q kv)) -∗ K ⟨⟩))
      ⊢ wp frame (wpE (defs₀ (F := F)) Variants.none c none) E (cc1__attn_kernel i arg1 harg1 arg2 harg2 arg3 harg3) K := by
  simp only [cc1__attn_kernel_eq_skeleton]; unfold cc1__attn_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (attn_cover _)

/-! ## The body obligation, at a generic point -/

/-- What the body is called with at point `t`: the invariant, what the core owes, and each window's current staging
    buffer at what it then holds, -/
def attnBodyPre (c : Dev nD) (t : Fin cfg1.N) : sProp 𝕄 :=
  iprop((attnDat V c).Φ t.castSucc ∗ (attnDat V c).owesAt () t.castSucc
    ∗ (∃ d, owns (c : Thread nD τ) (st1_0 t) fullShare ((attnDat V c).before 0 t d))
    ∗ (∃ d, owns (c : Thread nD τ) (st1_1 t) fullShare ((attnDat V c).before 1 t d))
    ∗ (∃ d, owns (c : Thread nD τ) (st1_2 t) fullShare ((attnDat V c).before 2 t d)))

/-- and what it returns. -/
def attnBodyPost (c : Dev nD) (t : Fin cfg1.N) : sProp 𝕄 :=
  iprop((attnDat V c).Φ t.succ ∗ (attnDat V c).owesAt () t.succ
    ∗ owns (c : Thread nD τ) (st1_0 t) fullShare ((attnDat V c).after 0 t)
    ∗ owns (c : Thread nD τ) (st1_1 t) fullShare ((attnDat V c).after 1 t)
    ∗ owns (c : Thread nD τ) (st1_2 t) fullShare ((attnDat V c).after 2 t))

/-- The body at any point: the inputs' memrefs hold their blocks, so the body's triple applies; the invariant and
    what the core owes pass through unread. -/
theorem attn_sound_body (c : Dev nD) (t : Fin cfg1.N) :
    attnBodyPre V c t ⊢ wp frame (wpE (defs₀ (F := F)) Variants.none c none) Set.univ (bodyAt1 t) (fun _ => attnBodyPost V c t) := by
  unfold attnBodyPre attnBodyPost bodyAt1
  simp only [attn_before0, attn_before1]
  rw [show (attnDat V c).Φ t.succ = (attnDat V c).Φ t.castSucc from rfl,
    show (attnDat V c).owesAt () t.succ = (attnDat V c).owesAt () t.castSucc from rfl,
    attnDat_after0, attnDat_after1, attnDat_after2]
  iintro ⟨HΦ, Ho, ⟨%d0, H0⟩, ⟨%d1, H1⟩, ⟨%d2, H2⟩⟩
  iapply (attn_sound_kernel c Set.univ _ _ _ _ _ _ _ (attnBlk V c 0 t) (attnBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for the attention, at every point. -/
theorem attn_obligation (c : Dev nD) : Pipeline.BodyObligation (attnDat (F := F) V c) (defs₀ (F := F)) Variants.none () Set.univ := fun t => by
  rw [bigSep_W1, bigSep_W1]
  exact attn_sound_body V c t

end Cert.KernelIdeal.Att

end
-- ==== Proof.ProjValue.lean ====
/-
  The projection launch, as values over the extended reals.

  The body's stored block is, entry (p, e): row p of the loaded row block against row e of the weight (both operands'
  second axes contracted: x · wᵀ), plus bias entry e. Grid point t works on rows 1024·t … 1024·t + 1023 of the flattened
  input and writes them back to the same rows of the output; the weight and the bias are read whole at every point.
  The eight row blocks tile the 8192 rows, so after the launch the output array is, entry (s, e),
  ∑_d X(s,d)·W(e,d) + B(e) of the arrays the launch found. Nothing here needs the entries finite.
-/
import proofs.«176324_j10393820857170_2_alg».proof.Proof.KIData
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.ProjV

open Cert.KernelIdeal Cert.KernelIdeal.Gen Cert.KernelIdeal.Att
open Idealize.ShloMosaic Idealize.ShloMosaic.TcCoe Idealize.ShloMosaic.ValueIdx Idealize.SL.Sem
open scoped BigOperators

/-! ## The product x · wᵀ at an entry -/

theorem lhs_row (i : S1024x768.Idx) (q : dot_S1024x768_S768x768_S1024x768_1_1_0_0_n_n.contr.Idx) :
    (dot_S1024x768_S768x768_S1024x768_1_1_0_0_n_n.lhsIdx i q 0).val = (i 0).val := by
  unfold DotDims.lhsIdx
  rw [dif_neg (show ¬(0 : Fin S1024x768.rank) ∈ dot_S1024x768_S768x768_S1024x768_1_1_0_0_n_n.lhsBatch by decide), dif_pos (show (0 : Fin S1024x768.rank) ∈ dot_S1024x768_S768x768_S1024x768_1_1_0_0_n_n.lhsNonContracting by decide)]
  rfl
theorem lhs_col (i : S1024x768.Idx) (q : dot_S1024x768_S768x768_S1024x768_1_1_0_0_n_n.contr.Idx) :
    (dot_S1024x768_S768x768_S1024x768_1_1_0_0_n_n.lhsIdx i q 1).val = (q ⟨0, by decide⟩).val :=
  dot_S1024x768_S768x768_S1024x768_1_1_0_0_n_n.lhsIdx_val_of_single rfl i q
theorem rhs_row (i : S1024x768.Idx) (q : dot_S1024x768_S768x768_S1024x768_1_1_0_0_n_n.contr.Idx) :
    (dot_S1024x768_S768x768_S1024x768_1_1_0_0_n_n.rhsIdx i q 0).val = (i 1).val := by
  unfold DotDims.rhsIdx
  rw [dif_neg (show ¬(0 : Fin S768x768.rank) ∈ dot_S1024x768_S768x768_S1024x768_1_1_0_0_n_n.rhsBatch by decide), dif_pos (show (0 : Fin S768x768.rank) ∈ dot_S1024x768_S768x768_S1024x768_1_1_0_0_n_n.rhsNonContracting by decide)]
  rfl
theorem rhs_col (i : S1024x768.Idx) (q : dot_S1024x768_S768x768_S1024x768_1_1_0_0_n_n.contr.Idx) :
    (dot_S1024x768_S768x768_S1024x768_1_1_0_0_n_n.rhsIdx i q 1).val = (q ⟨0, by decide⟩).val :=
  dot_S1024x768_S768x768_S1024x768_1_1_0_0_n_n.rhsIdx_val_of_single rfl i q

/-- The matrix unit's product into a zero accumulator, entry (p, e): ∑_d A(p,d) · W(e,d). -/
theorem rows_dot_apply (A : FVec Ideal S1024x768 .bf16) (W : FVec Ideal S768x768 .bf16) (p : Fin 1024) (e : Fin 768) :
    matmul dot_S1024x768_S768x768_S1024x768_1_1_0_0_n_n none A W (constant (F := Ideal) S1024x768 .f32 0x00000000#32) (ix2 p e)
      = ∑ d : Fin 768, A (ix2 p d) * W (ix2 e d) := by
  show FloatOps.matmul dot_S1024x768_S768x768_S1024x768_1_1_0_0_n_n none A W (constant (F := Ideal) S1024x768 .f32 0x00000000#32) (ix2 p e) = _
  rw [Ideal.matmul_constant_zero_apply, ← Equiv.sum_comp (ValueIdx.contrEquiv1 dot_S1024x768_S768x768_S1024x768_1_1_0_0_n_n 768 rfl rfl).symm]
  refine Finset.sum_congr rfl fun k _ => ?_
  have hk := ValueIdx.contrEquiv1_symm_val dot_S1024x768_S768x768_S1024x768_1_1_0_0_n_n 768 rfl rfl k
  have el : dot_S1024x768_S768x768_S1024x768_1_1_0_0_n_n.lhsIdx (ix2 p e) ((ValueIdx.contrEquiv1 dot_S1024x768_S768x768_S1024x768_1_1_0_0_n_n 768 rfl rfl).symm k) = ix2 p k := funext fun a => Fin.ext (by
    match a with
    | ⟨0, _⟩ => exact lhs_row _ _
    | ⟨1, _⟩ => exact (lhs_col _ _).trans hk)
  have er : dot_S1024x768_S768x768_S1024x768_1_1_0_0_n_n.rhsIdx (ix2 p e) ((ValueIdx.contrEquiv1 dot_S1024x768_S768x768_S1024x768_1_1_0_0_n_n 768 rfl rfl).symm k) = ix2 e k := funext fun a => Fin.ext (by
    match a with
    | ⟨0, _⟩ => exact rhs_row _ _
    | ⟨1, _⟩ => exact (rhs_col _ _).trans hk)
  rw [el, er]

/-- The bias, cast to one row and broadcast over the 1024 rows, reads at (p, e) the bias entry e. -/
theorem bias_rows_apply (b : FVec Ideal S768 .f32) (p : Fin 1024) (e : Fin 768) :
    broadcastTo S1024x768 (shapeCast S1x768 b shapeCasts_S768_S1x768) broadcasts_S1x768_S1024x768 (ix2 p e) = b (ix1 e) := by
  rw [broadcastTo_1b_ab_apply, shapeCast_a_1a_apply]

/-- The body's stored value at entry (p, e). -/
theorem stored_apply (x : Vec Ideal S1024x768 .f32) (w : Vec Ideal S768x768 .f32) (b : Vec Ideal S768 .f32)
    (p : Fin 1024) (e : Fin 768) :
    k0_pay1 (F := Ideal) x w b (ix2 p e) = (∑ d : Fin 768, x (ix2 p d) * w (ix2 e d)) + b (ix1 e) := by
  unfold k0_pay1
  rw [truncf_apply, addf_apply, rows_dot_apply, bias_rows_apply, shapeCast_self]
  rfl

/-! ## The projected rows as one function of the arrays -/

/-- Entry (s, e) of the projected rows: row s of the flattened input against row e of the weight, plus bias e. -/
def rowsEntry (X : S8192x768.Idx → EReal) (W : S768x768.Idx → EReal) (B : S768.Idx → EReal) (s : Fin 8192) (e : Fin 768) : EReal :=
  (∑ d : Fin 768, X (ix2 s d) * W (ix2 e d)) + B (ix1 e)

/-- The projected rows, all of them. -/
def rowsG (X : S8192x768.Idx → EReal) (W : S768x768.Idx → EReal) (B : S768.Idx → EReal) : S8192x768.Idx → EReal :=
  fun i => rowsEntry X W B ⟨(i 0).val, (i 0).isLt⟩ ⟨(i 1).val, (i 1).isLt⟩

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The launch's index maps over the grid: the row block of the input and of the output is block t; the weight and
    the bias do not move. -/
theorem index_facts : ∀ t : Fin cfg0.N, win0_0.index t (0 : Fin 2) = win0_3.index t (0 : Fin 2)
    ∧ win0_0.index t (1 : Fin 2) = 0 ∧ win0_1.index t (0 : Fin 2) = 0 ∧ win0_1.index t (1 : Fin 2) = 0
    ∧ win0_2.index t (0 : Fin 1) = 0 ∧ win0_3.index t (1 : Fin 2) = 0 ∧ win0_3.index t (0 : Fin 2) = t.val :=
  (by decide +kernel : ∀ t : Fin grid0.N, _)

/-- What grid point t writes back is block t of the projected rows of the arrays as the launch finds them. -/
theorem flushed_eq (c : Dev nD) (t : Fin cfg0.N) :
    (projDat V c).flushed 3 t
      = ((cfg0.win 3).blk t).view.read (Elt Ideal) (rowsG (V c main_v0) (V c main_arg1) (V c main_arg2)) := by
  show (cfg0.win 3).cut (grid0.coords t) ((projDat V c).after 3 t) = _
  rw [projDat_after3]
  unfold projOut
  rw [View.canon_unit_zero zero2]
  simp only [View.ld_unit_zero (S := S1024x768) zero2, View.ld_unit_zero (S := S768x768) zero2, View.ld_unit_zero (S := S768) zero1]
  obtain ⟨e0, e1, e2, e3, e4, e5, e6⟩ := index_facts t
  funext j
  obtain ⟨p, e, rfl⟩ : ∃ (p : Fin 1024) (e : Fin 768), j = ix2 p e := ⟨j 0, j 1, eq_ix2 j⟩
  show k0_pay1 (F := Ideal) (projBlk V c 0 t) (projBlk V c 1 t) (projBlk V c 2 t) (ix2 p e)
    = rowsG (V c main_v0) (V c main_arg1) (V c main_arg2) (((cfg0.win 3).blk t).view.emb (ix2 p e))
  rw [stored_apply]
  unfold rowsG rowsEntry
  have hx : ∀ d : Fin 768, projBlk V c 0 t (ix2 p d)
      = V c main_v0 (ix2 ⟨((((cfg0.win 3).blk t).view.emb (ix2 p e)) 0).val, ((((cfg0.win 3).blk t).view.emb (ix2 p e)) 0).isLt⟩ d) := fun d => by
    show V c main_v0 (((cfg0.win 0).blk t).view.emb (ix2 p d)) = _
    refine congrArg (V c main_v0) (funext fun a => Fin.ext ?_)
    match a with
    | ⟨0, _⟩ => show win0_0.index t (0 : Fin 2) * 1024 + 1 * p.val = win0_3.index t (0 : Fin 2) * 1024 + 1 * p.val; omega
    | ⟨1, _⟩ => show win0_0.index t (1 : Fin 2) * 768 + 1 * d.val = d.val; omega
  have hw : ∀ d : Fin 768, projBlk V c 1 t (ix2 e d)
      = V c main_arg1 (ix2 ⟨((((cfg0.win 3).blk t).view.emb (ix2 p e)) 1).val, ((((cfg0.win 3).blk t).view.emb (ix2 p e)) 1).isLt⟩ d) := fun d => by
    show V c main_arg1 (((cfg0.win 1).blk t).view.emb (ix2 e d)) = _
    refine congrArg (V c main_arg1) (funext fun a => Fin.ext ?_)
    match a with
    | ⟨0, _⟩ => show win0_1.index t (0 : Fin 2) * 768 + 1 * e.val = win0_3.index t (1 : Fin 2) * 768 + 1 * e.val; omega
    | ⟨1, _⟩ => show win0_1.index t (1 : Fin 2) * 768 + 1 * d.val = d.val; omega
  have hb : projBlk V c 2 t (ix1 e)
      = V c main_arg2 (ix1 ⟨((((cfg0.win 3).blk t).view.emb (ix2 p e)) 1).val, ((((cfg0.win 3).blk t).view.emb (ix2 p e)) 1).isLt⟩) := by
    show V c main_arg2 (((cfg0.win 2).blk t).view.emb (ix1 e)) = _
    refine congrArg (V c main_arg2) (funext fun a => Fin.ext ?_)
    match a with
    | ⟨0, _⟩ => show win0_2.index t (0 : Fin 1) * 768 + 1 * e.val = win0_3.index t (1 : Fin 2) * 768 + 1 * e.val; omega
  rw [hb]
  exact congrArg (· + _) (Finset.sum_congr rfl fun d _ => by rw [hx d, hw d])

/-- An index of the output array is in point t's block iff each coordinate is in the block's range on its axis. -/
theorem mem_blk (t : Fin cfg0.N) (i : S8192x768.Idx) :
    i ∈ ((cfg0.win 3).blk t).view.set ↔ ∀ a : Fin 2, win0_3.index t a * S1024x768.size a ≤ (i a).val ∧ (i a).val < win0_3.index t a * S1024x768.size a + S1024x768.size a := by
  show i ∈ ((View.whole main_v1).slice (win0_3.rect t)).set ↔ _
  rw [View.set_slice_whole, Rect.mem_set_unit]
  exact Iff.rfl

/-- The eight row blocks tile the output: row s is in block s / 1024. -/
theorem cover (i : S8192x768.Idx) : ∃ t : Fin cfg0.N, (cfg0.win 3).flush t = true ∧ i ∈ ((cfg0.win 3).blk t).view.set := by
  have hi0 : (i 0).val < 8192 := (i 0).isLt
  have hi1 : (i 1).val < 768 := (i 1).isLt
  have hN : (i 0).val / 1024 < cfg0.N := by show (i 0).val / 1024 < grid0.N; rw [N_0]; omega
  refine ⟨⟨(i 0).val / 1024, hN⟩, flush0_3 _, ?_⟩
  rw [mem_blk]
  obtain ⟨e0, e1, e2, e3, e4, e5, e6⟩ := index_facts ⟨(i 0).val / 1024, hN⟩
  intro a
  match a with
  | ⟨0, _⟩ =>
    show win0_3.index _ (0 : Fin 2) * 1024 ≤ (i 0).val ∧ (i 0).val < win0_3.index _ (0 : Fin 2) * 1024 + 1024
    rw [e6]; show (i 0).val / 1024 * 1024 ≤ (i 0).val ∧ (i 0).val < (i 0).val / 1024 * 1024 + 1024; omega
  | ⟨1, _⟩ =>
    show win0_3.index _ (1 : Fin 2) * 768 ≤ (i 1).val ∧ (i 1).val < win0_3.index _ (1 : Fin 2) * 768 + 768
    rw [e5]; omega

/-- THE PROJECTED ARRAY after the launch: the projected rows of the arrays the launch found. -/
theorem final (c : Dev nD) :
    (projDat V c).arrAt 3 cfg0.N = rowsG (V c main_v0) (V c main_arg1) (V c main_arg2) :=
  (projDat V c).arrAt_eq_of_cover 3 _ (fun t _ => flushed_eq V c t) cover

end Cert.KernelIdeal.ProjV

end
-- ==== Proof.AttSpec.lean ====
/-
  The numbers the two programs compute, as real-number formulas.

  With finite inputs every projected entry  Q(b,s,e) = ∑_d X(b,s,d)·W(e,d) + B(e)  is a real number, and both programs'
  results at (b,q,d) are the softmax-weighted average of column d of Q(b,·,·), the weight of key row k being
  exp of the logit of query row q against key row k. The kernel folds the score scale into the query row before the
  products; the reference multiplies the finished dot product by it: over the reals these are one number.
  Keys are counted in eight blocks of 256, as the kernel walks them.
-/
import Idealize.ShloMosaic.PureOps.Ideal
import Idealize.ShloMosaic.PureOps.Ideal.Laws

noncomputable section

namespace Cert.Att.Spec

open Idealize.ShloMosaic
open scoped BigOperators

/-- The score scale: the single-precision number both programs write for 1/√768, as a real. -/
def scaleR : ℝ := (Ideal.ofBits .f32 0x3D13CD3A#32).toReal

/-- That bit pattern is a finite number, so it IS that real. -/
theorem scale_coe : Ideal.ofBits .f32 0x3D13CD3A#32 = (scaleR : EReal) := by
  have h : ∃ r : ℝ, Ideal.ofBits .f32 0x3D13CD3A#32 = (r : EReal) := by
    simp only [Ideal.ofBits, Ideal.ieee]
    rw [if_neg (by decide), if_neg (by decide)]
    exact ⟨_, rfl⟩
  obtain ⟨r, hr⟩ := h
  unfold scaleR
  rw [hr, EReal.toReal_coe]

/-- One projected entry: a row of the input against a row of the weight, plus the bias entry. -/
def projReal (x w : Fin 768 → ℝ) (b : ℝ) : ℝ := (∑ d, x d * w d) + b

/-- The logit of a query row against a key row, the scale folded into the query row. -/
def logit (q k : Fin 768 → ℝ) : ℝ := ∑ e, (q e * scaleR) * k e

/-- The attention output at column `d` for query row `q`: the average of column `d` of the key/value rows
    `kv i j` (block `i` of eight, row `j` of 256), weighted by the exponentials of the logits. -/
def attnReal (q : Fin 768 → ℝ) (kv : ℕ → Fin 256 → Fin 768 → ℝ) (d : Fin 768) : ℝ :=
  (∑ i ∈ Finset.range 8, ∑ j, Real.exp (logit q (kv i j)) * kv i j d)
    / (∑ i ∈ Finset.range 8, ∑ j, Real.exp (logit q (kv i j)))

/-- The projected array from real inputs: entry (b, s, e). -/
def projArr (Xr : Fin 4 → Fin 2048 → Fin 768 → ℝ) (Wr : Fin 768 → Fin 768 → ℝ) (Br : Fin 768 → ℝ)
    (b : Fin 4) (s : Fin 2048) (e : Fin 768) : ℝ := projReal (Xr b s) (Wr e) (Br e)

/-- The 2048 key rows of one batch counted as eight blocks of 256: row `j` of block `i` is row `256·i + j`
    (for `i < 8` the remainder below changes nothing; it only makes the function total). -/
def keyBlocks (Q : Fin 2048 → Fin 768 → ℝ) (i : ℕ) (j : Fin 256) : Fin 768 → ℝ :=
  Q ⟨(256 * i + j.val) % 2048, Nat.mod_lt _ (by norm_num)⟩

/-- THE RESULT both programs compute, at (b, q, d), from real inputs: the attention of the projected array on itself. -/
def outReal (Xr : Fin 4 → Fin 2048 → Fin 768 → ℝ) (Wr : Fin 768 → Fin 768 → ℝ) (Br : Fin 768 → ℝ)
    (b : Fin 4) (q : Fin 2048) (d : Fin 768) : ℝ :=
  attnReal (projArr Xr Wr Br b q) (keyBlocks (projArr Xr Wr Br b)) d

end Cert.Att.Spec

end
-- ==== Proof.LibRank3Layout.lean ====
/-
  Layout operations of rank-three arrays read at an index, general in the extents and the element type.

  * a vector or matrix given unit axes by a shape cast: [a,b] → [a,1,b], [a,b] → [a,b,1], [a] → [1,1,a], [a,1] → [a];
  * the four broadcasts that fill unit axes of a rank-three array: [a,1,c], [1,b,c], [a,b,1], [1,1,c] → [a,b,c];
  * a rank-three array against its row-flattening: [a,b,c] → [a·b,c] and back, row (i, j) of the first being row
    i·b + j of the second.

  Each lemma names both indices by coordinates; its proof is one row-major equation or one case per axis.
-/
import Idealize.ShloMosaic.Lib.ValueIdx
import Idealize.ShloMosaic.Lib.Pipeline.Value

namespace Cert.Rank3Layout

open Idealize.ShloMosaic Idealize.ShloMosaic.ValueIdx

variable {α : Type}

/-! ## Unit axes added or dropped by a shape cast -/

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a]` array cast to `[1, 1, a]` reads, at `(u, v, i)`, the operand at `i`. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    simp only [hu, hv, Nat.zero_mul, Nat.zero_add])

/-- An `[a, 1]` column cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-! ## A rank-three array against its row-flattening -/

/-- An `[a, b, c]` array cast to `[a·b, c]` reads, at row `i·b + j` and column `k`, the operand at `(i, j, k)`. -/
theorem shapeCast_abc_rows_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[a·b, c]` array cast to `[a, b, c]` reads, at `(i, j, k)`, the operand at row `i·b + j` and column `k`. -/
theorem shapeCast_rows_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-! ## Broadcasts that fill unit axes -/

/-- An `[a, 1, c]` array broadcast to `[a, b, c]` reads, at `(i, j, k)`, the operand at `(i, 0, k)`. -/
theorem broadcastTo_a1c_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, b, 1]` array broadcast to `[a, b, c]` reads, at `(i, j, k)`, the operand at `(i, j, 0)`. -/
theorem broadcastTo_ab1_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, 1, c]` array broadcast to `[a, b, c]` reads, at `(i, j, k)`, the operand at `(0, 0, k)`. -/
theorem broadcastTo_11c_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.Rank3Layout
-- ==== Proof.LibOnlineSoftmax.lean ====
/-
  Online softmax on the extended reals.

  A weighted softmax average  (∑ exp(xᵢ)·fᵢ) / (∑ exp(xᵢ))  can be accumulated block by block while keeping only a
  running shift `m`, a running denominator `l` and a running numerator `a`: on a new block with shift `r`,

      m' = max m r,   α = exp (m − m'),   l' = α·l + ∑ⱼ exp (xⱼ − m'),   a' = α·a + ∑ⱼ exp (xⱼ − m')·fⱼ ,

  starting from  m = −∞, l = 0, a = 0  (so that the first α is exp(−∞) = 0).

  The point of this file: after at least one block the state is  (μ, ∑ exp(x−μ), ∑ exp(x−μ)·f)  for SOME real μ, the
  sums ranging over every key seen so far — because exp(μ−μ')·exp(x−μ) = exp(x−μ') — and a softmax does not depend on
  its shift, so a / l is the weighted softmax average whatever the shifts `r` were. In particular nothing is needed
  of `r` being the block's maximum: that choice matters for rounding, not for the value.

  Logits and values are real (finite); the arithmetic is the extended reals' with `Ideal.exp` and `Ideal.div`, whose
  corners (exp(−∞) = 0, division by zero) are met only at the start, where they give 0·0 = 0.
-/
import Idealize.ShloMosaic.PureOps.Ideal

noncomputable section

namespace Cert.Lib.OnlineSoftmax

open Idealize.ShloMosaic
open scoped BigOperators

/-! ## Coercions -/

/-- The coercion of reals into the extended reals commutes with finite sums. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The exponential of a difference of reals, on the extended reals. -/
theorem exp_coe_sub (x μ : ℝ) : Ideal.exp ((x : EReal) - (μ : EReal)) = ((Real.exp (x - μ) : ℝ) : EReal) := by
  rw [← EReal.coe_sub]; rfl

/-- A quotient of reals by a nonzero real, on the extended reals, is the real quotient. -/
theorem div_coe_coe (a : ℝ) {q : ℝ} (hq : q ≠ 0) : Ideal.div (a : EReal) (q : EReal) = ((a / q : ℝ) : EReal) := by
  rw [Ideal.div_coe hq, ← EReal.coe_mul, mul_one_div]

/-- The reciprocal of a nonzero real, on the extended reals. -/
theorem one_div_coe {q : ℝ} (hq : q ≠ 0) : Ideal.div 1 (q : EReal) = ((q⁻¹ : ℝ) : EReal) := by
  have h := div_coe_coe 1 hq
  rw [one_div] at h
  exact_mod_cast h

/-! ## Normalising the factors, or dividing the product -/

/-- A dot product of two vectors each scaled by the reciprocal of a nonzero real (its norm, say) is the dot product
    divided by the product of the two reals: a kernel that normalises its operands first and a reference that
    divides the product by the norms' product compute one number — PROVIDED neither norm is zero (at zero the first
    is 0·(+∞) = 0 and the second 0/0). -/
theorem normalized_dot {ι : Type*} (s : Finset ι) (a b : ι → ℝ) {p t : ℝ} (hp : p ≠ 0) (ht : t ≠ 0) :
    ∑ i ∈ s, ((a i : EReal) * Ideal.div 1 (p : EReal)) * ((b i : EReal) * Ideal.div 1 (t : EReal))
      = Ideal.div ((∑ i ∈ s, a i * b i : ℝ) : EReal) ((p : EReal) * (t : EReal)) := by
  rw [one_div_coe hp, one_div_coe ht, ← EReal.coe_mul p t, div_coe_coe _ (mul_ne_zero hp ht)]
  simp only [← EReal.coe_mul, ← coe_sum]
  congr 1
  rw [Finset.sum_div]
  refine Finset.sum_congr rfl fun i _ => ?_
  field_simp

/-! ## A softmax does not depend on its shift -/

/-- Shifting every logit by the same real changes neither the numerator-to-denominator ratio. Stated over a double
    sum (blocks, then keys inside a block), which is how the accumulation meets it. -/
theorem shift_invariant {ι J : Type*} [Fintype J] (s : Finset ι) (x f : ι → J → ℝ) (μ : ℝ) :
    (∑ i ∈ s, ∑ j, Real.exp (x i j - μ) * f i j) / (∑ i ∈ s, ∑ j, Real.exp (x i j - μ))
      = (∑ i ∈ s, ∑ j, Real.exp (x i j) * f i j) / (∑ i ∈ s, ∑ j, Real.exp (x i j)) := by
  have h : ∀ i j, Real.exp (x i j - μ) = Real.exp (x i j) * Real.exp (-μ) := fun i j => by
    rw [← Real.exp_add, sub_eq_add_neg]
  have hn : (∑ i ∈ s, ∑ j, Real.exp (x i j - μ) * f i j) = (∑ i ∈ s, ∑ j, Real.exp (x i j) * f i j) * Real.exp (-μ) := by
    rw [Finset.sum_mul]; refine Finset.sum_congr rfl fun i _ => ?_
    rw [Finset.sum_mul]; refine Finset.sum_congr rfl fun j _ => ?_
    rw [h]; ring
  have hd : (∑ i ∈ s, ∑ j, Real.exp (x i j - μ)) = (∑ i ∈ s, ∑ j, Real.exp (x i j)) * Real.exp (-μ) := by
    rw [Finset.sum_mul]; refine Finset.sum_congr rfl fun i _ => ?_
    rw [Finset.sum_mul]; refine Finset.sum_congr rfl fun j _ => ?_
    rw [h]
  rw [hn, hd, mul_div_mul_right _ _ (Real.exp_ne_zero _)]

/-! ## The accumulation -/

variable {J : Type*} [Fintype J]

/-- One block: the new shift, the rescaled denominator plus the block's, the rescaled numerator plus the block's. -/
def step (r : ℝ) (x f : J → ℝ) (s : EReal × EReal × EReal) : EReal × EReal × EReal :=
  (max s.1 (r : EReal),
   Ideal.exp (s.1 - max s.1 (r : EReal)) * s.2.1 + ∑ j, Ideal.exp ((x j : EReal) - max s.1 (r : EReal)),
   Ideal.exp (s.1 - max s.1 (r : EReal)) * s.2.2 + ∑ j, Ideal.exp ((x j : EReal) - max s.1 (r : EReal)) * (f j : EReal))

/-- The state after the first `k` blocks, from (−∞, 0, 0). -/
def run (r : ℕ → ℝ) (x f : ℕ → J → ℝ) : ℕ → EReal × EReal × EReal
  | 0 => (⊥, 0, 0)
  | k + 1 => step (r k) (x k) (f k) (run r x f k)

/-- Rescaling the sums accumulated at shift `μ` to the shift `μ'`. -/
theorem rescale (k : ℕ) (x g : ℕ → J → ℝ) (μ μ' : ℝ) :
    Real.exp (μ - μ') * (∑ i ∈ Finset.range k, ∑ j, Real.exp (x i j - μ) * g i j)
      = ∑ i ∈ Finset.range k, ∑ j, Real.exp (x i j - μ') * g i j := by
  rw [Finset.mul_sum]; refine Finset.sum_congr rfl fun i _ => ?_
  rw [Finset.mul_sum]; refine Finset.sum_congr rfl fun j _ => ?_
  rw [← mul_assoc, ← Real.exp_add]; congr 2; ring

/-- After at least one block the state is real: some shift `μ`, and the two sums over every key seen, at that shift. -/
theorem run_succ (r : ℕ → ℝ) (x f : ℕ → J → ℝ) (k : ℕ) :
    ∃ μ : ℝ, run r x f (k + 1)
      = ((μ : EReal),
         ((∑ i ∈ Finset.range (k + 1), ∑ j, Real.exp (x i j - μ) : ℝ) : EReal),
         ((∑ i ∈ Finset.range (k + 1), ∑ j, Real.exp (x i j - μ) * f i j : ℝ) : EReal)) := by
  induction k with
  | zero =>
    refine ⟨r 0, ?_⟩
    have hm : max (⊥ : EReal) (r 0 : EReal) = (r 0 : EReal) := max_eq_right bot_le
    have hb : (⊥ : EReal) - (r 0 : EReal) = ⊥ := by rw [sub_eq_add_neg, EReal.bot_add]
    simp only [run, step, hm, hb, Ideal.exp_bot, zero_mul, zero_add, Finset.sum_range_one, exp_coe_sub,
      ← EReal.coe_mul, ← coe_sum]
  | succ k ih =>
    obtain ⟨μ, hμ⟩ := ih
    refine ⟨max μ (r (k + 1)), ?_⟩
    have hm : max (μ : EReal) (r (k + 1) : EReal) = ((max μ (r (k + 1)) : ℝ) : EReal) := (EReal.coe_strictMono.monotone.map_max).symm
    have h1 := rescale (k + 1) x (fun _ _ => (1 : ℝ)) μ (max μ (r (k + 1)))
    have h2 := rescale (k + 1) x f μ (max μ (r (k + 1)))
    simp only [mul_one] at h1
    rw [run, hμ]
    simp only [step, hm, exp_coe_sub, ← EReal.coe_mul, ← coe_sum, ← EReal.coe_add]
    rw [h1, h2, Finset.sum_range_succ _ (k + 1), Finset.sum_range_succ _ (k + 1)]

/-- The accumulated denominator is positive once a nonempty block has been seen. -/
theorem denom_pos [Nonempty J] (x : ℕ → J → ℝ) (μ : ℝ) (k : ℕ) :
    0 < ∑ i ∈ Finset.range (k + 1), ∑ j, Real.exp (x i j - μ) :=
  Finset.sum_pos (fun _ _ => Finset.sum_pos (fun _ _ => Real.exp_pos _) Finset.univ_nonempty)
    ⟨0, Finset.mem_range.mpr (Nat.succ_pos k)⟩

/-- THE RESULT. After `k+1` nonempty blocks, numerator times the reciprocal of the denominator is the weighted softmax
    average over every key of every block, whatever the shifts were. -/
theorem run_quotient [Nonempty J] (r : ℕ → ℝ) (x f : ℕ → J → ℝ) (k : ℕ) :
    (run r x f (k + 1)).2.2 * Ideal.div 1 (run r x f (k + 1)).2.1
      = (((∑ i ∈ Finset.range (k + 1), ∑ j, Real.exp (x i j) * f i j)
          / (∑ i ∈ Finset.range (k + 1), ∑ j, Real.exp (x i j)) : ℝ) : EReal) := by
  obtain ⟨μ, hμ⟩ := run_succ r x f k
  rw [hμ]
  dsimp only
  rw [one_div_coe (denom_pos x μ k).ne', ← EReal.coe_mul, ← div_eq_mul_inv, shift_invariant]

/-- The same average as a reference spells it: each weight exp(x−M) divided by the sum of all exp(x−M), at the
    reference's own shift `M`, then the weighted sum. -/
theorem softmax_sum [Nonempty J] (x f : ℕ → J → ℝ) (M : ℝ) (k : ℕ) :
    (∑ i ∈ Finset.range (k + 1), ∑ j,
        Real.exp (x i j - M) / (∑ i' ∈ Finset.range (k + 1), ∑ j', Real.exp (x i' j' - M)) * f i j)
      = (∑ i ∈ Finset.range (k + 1), ∑ j, Real.exp (x i j) * f i j)
          / (∑ i ∈ Finset.range (k + 1), ∑ j, Real.exp (x i j)) := by
  rw [← shift_invariant (Finset.range (k + 1)) x f M, Finset.sum_div]
  refine Finset.sum_congr rfl fun i _ => ?_
  rw [Finset.sum_div]; refine Finset.sum_congr rfl fun j _ => ?_
  ring

end Cert.Lib.OnlineSoftmax

end
-- ==== Proof.KernelValue.lean ====
/-
  The kernel's result, read through the whole program, for real inputs.

  The first reshape lays the 4 × 2048 input rows out as 8192 rows: row 2048·b + s is row s of batch b. The projection
  launch leaves, at row 2048·b + s and column e, ∑_d X(b,s,d)·W(e,d) + B(e): a real number when the inputs are real.
  The second reshape folds the rows back to 4 × 2048. The attention launch then leaves, at (b, q, d), the softmax-weighted
  average of column d of the projected rows of batch b, weighted by the logits of row q against every row.
-/
import proofs.«176324_j10393820857170_2_alg».proof.Proof.KIFold
import proofs.«176324_j10393820857170_2_alg».proof.Proof.ProjValue
import proofs.«176324_j10393820857170_2_alg».proof.Proof.AttSpec
import proofs.«176324_j10393820857170_2_alg».proof.Proof.LibRank3Layout
import proofs.«176324_j10393820857170_2_alg».proof.Proof.LibOnlineSoftmax
import Idealize.ShloMosaic.Lib.StableHlo.Run
import Idealize.ShloMosaic.Lib.Pipeline.FrameSuffix

set_option maxRecDepth 16384

noncomputable section

namespace Cert.KernelIdeal.KV

open Cert.KernelIdeal Cert.KernelIdeal.Gen Cert.KernelIdeal.Att
open Idealize.ShloMosaic Idealize.ShloMosaic.TcCoe Idealize.ShloMosaic.ValueIdx Idealize.SL.Sem
open Idealize.ShloMosaic.StableHlo
open Cert.Att.Spec Cert.Rank3Layout
open scoped BigOperators

variable (m : (ℓ : Loc nD τ sig) → Buf (Elt Ideal) ℓ) (ρ : Dev nD → PrngReg)

/-- What the projection launch is entered with: the input laid out as 8192 rows, the weight and the bias as launched. -/
theorem entry_rows (c : Dev nD) :
    (V1 m ρ c main_v0 : S8192x768.Idx → EReal)
      = shapeCast S8192x768 (m ((c : Thread nD τ).loc main_arg0)) shapeCasts_S4x2048x768_S8192x768 := by
  dsimp only [V1, W1, W0, hostOps0]; after_results; rfl
theorem entry_weight (c : Dev nD) : (V1 m ρ c main_arg1 : S768x768.Idx → EReal) = m ((c : Thread nD τ).loc main_arg1) := by
  dsimp only [V1, W1, W0, hostOps0]; after_results
theorem entry_bias (c : Dev nD) : (V1 m ρ c main_arg2 : S768.Idx → EReal) = m ((c : Thread nD τ).loc main_arg2) := by
  dsimp only [V1, W1, W0, hostOps0]; after_results

/-- The projected rows after the projection launch. -/
theorem projected_rows (c : Dev nD) :
    (W2 m ρ c (Proc.devRef .tc main_v1) : S8192x768.Idx → EReal)
      = ProjV.rowsG (V1 m ρ c main_v0) (V1 m ρ c main_arg1) (V1 m ρ c main_arg2) := by
  unfold W2
  exact (Pipeline.withArrays_arr spec0 launch0.win.arr_inj c _ _ 3).trans (ProjV.final (V1 m ρ) c)

/-- What the attention launch is entered with at the projected array: the rows folded back to 4 × 2048. -/
theorem entry_projected (c : Dev nD) :
    (V3 m ρ c main_v2 : S4x2048x768.Idx → EReal)
      = shapeCast S4x2048x768 (W2 m ρ c (Proc.devRef .tc main_v1) : S8192x768.Idx → EReal) shapeCasts_S8192x768_S4x2048x768 := by
  dsimp only [V3, W3, hostOps1]; after_results; rfl

variable (Xr : Fin 4 → Fin 2048 → Fin 768 → ℝ) (Wr : Fin 768 → Fin 768 → ℝ) (Br : Fin 768 → ℝ)

/-- With real inputs the projected array, entry (b, s, e), is the real number projArr. -/
theorem projected_real (c : Dev nD)
    (hX : ∀ b s d, m ((c : Thread nD τ).loc main_arg0) (ix3 b s d) = ((Xr b s d : ℝ) : EReal))
    (hW : ∀ e d, m ((c : Thread nD τ).loc main_arg1) (ix2 e d) = ((Wr e d : ℝ) : EReal))
    (hB : ∀ e, m ((c : Thread nD τ).loc main_arg2) (ix1 e) = ((Br e : ℝ) : EReal))
    (b : Fin 4) (s : Fin 2048) (e : Fin 768) :
    V3 m ρ c main_v2 (ix3 b s e) = ((projArr Xr Wr Br b s e : ℝ) : EReal) := by
  have hr : (⟨b.val * 2048 + s.val, by have := b.isLt; have := s.isLt; omega⟩ : Fin 8192).val = b.val * 2048 + s.val := rfl
  rw [entry_projected, shapeCast_rows_abc_apply _ _ b s e ⟨b.val * 2048 + s.val, by have := b.isLt; have := s.isLt; omega⟩ hr,
    projected_rows]
  show ProjV.rowsEntry (V1 m ρ c main_v0) (V1 m ρ c main_arg1) (V1 m ρ c main_arg2) ⟨b.val * 2048 + s.val, _⟩ ⟨e.val, _⟩ = _
  unfold ProjV.rowsEntry projArr projReal
  rw [entry_rows, entry_weight, entry_bias, EReal.coe_add, Cert.Lib.OnlineSoftmax.coe_sum]
  refine congrArg₂ (· + ·) (Finset.sum_congr rfl fun d _ => ?_) (hB e)
  rw [shapeCast_abc_rows_apply _ _ b s d ⟨b.val * 2048 + s.val, by have := b.isLt; have := s.isLt; omega⟩ hr, hX, EReal.coe_mul]
  exact congrArg _ (hW e d)

end Cert.KernelIdeal.KV

end
-- ==== Proof.AttnArray.lean ====
/-
  The attention launch, from blocks to the array, over the extended reals.

  Both operands of the launch stand on one array, the projected array Q of shape 4 × 2048 × 768. Grid point t works on
  query rows 512·t … 512·t + 511 of every batch, holds the whole of Q as keys and values, and writes the same rows of the
  output back. The body loads the keys in eight slices of 256 rows: row j of slice I is row 256·I + j of Q. Granted what
  the body's arithmetic stores at one entry from real-valued pieces (the hypothesis `StoredSpec`), the block written at
  point t is therefore, entry (b, r, d), the attention of query row 512·t + r of batch b against all 2048 rows of that
  batch, column d. The four row blocks tile the 2048 rows and every point writes back, so after the launch the output
  array is the attention of Q on itself, entry by entry.
-/
import proofs.«176324_j10393820857170_2_alg».proof.Proof.KIData
import proofs.«176324_j10393820857170_2_alg».proof.Proof.AttSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.AttA

open Cert.KernelIdeal Cert.KernelIdeal.Gen Cert.KernelIdeal.Att
open Idealize.ShloMosaic Idealize.ShloMosaic.TcCoe Idealize.ShloMosaic.ValueIdx Idealize.SL.Sem
open scoped BigOperators

/-! ## What is granted about the stored value -/

/-- The body's stored value, entry (b, r, d), from pieces whose entries are real numbers: the attention of query row
    (b, r) against the eight key slices of batch b, column d. -/
def StoredSpec : Prop := ∀ (v0 : Vec Ideal S4x512x768 .bf16) (v9 v29 v49 v69 v89 v109 v129 v149 : Vec Ideal S4x256x768 .bf16)
    (qr : Fin 4 → Fin 512 → Fin 768 → ℝ) (kr : ℕ → Fin 4 → Fin 256 → Fin 768 → ℝ)
    (hq : ∀ b r e, v0 (ValueIdx.ix3 b r e) = ((qr b r e : ℝ) : EReal))
    (h0 : ∀ b j e, v9 (ValueIdx.ix3 b j e) = ((kr 0 b j e : ℝ) : EReal)) (h1 : ∀ b j e, v29 (ValueIdx.ix3 b j e) = ((kr 1 b j e : ℝ) : EReal))
    (h2 : ∀ b j e, v49 (ValueIdx.ix3 b j e) = ((kr 2 b j e : ℝ) : EReal)) (h3 : ∀ b j e, v69 (ValueIdx.ix3 b j e) = ((kr 3 b j e : ℝ) : EReal))
    (h4 : ∀ b j e, v89 (ValueIdx.ix3 b j e) = ((kr 4 b j e : ℝ) : EReal)) (h5 : ∀ b j e, v109 (ValueIdx.ix3 b j e) = ((kr 5 b j e : ℝ) : EReal))
    (h6 : ∀ b j e, v129 (ValueIdx.ix3 b j e) = ((kr 6 b j e : ℝ) : EReal)) (h7 : ∀ b j e, v149 (ValueIdx.ix3 b j e) = ((kr 7 b j e : ℝ) : EReal))
    (b : Fin 4) (r : Fin 512) (d : Fin 768),
    Cert.KernelIdeal.Att.attnStored (F := Ideal) v0 v9 v29 v49 v69 v89 v109 v129 v149 (ValueIdx.ix3 b r d)
      = ((Cert.Att.Spec.attnReal (qr b r) (fun i j => kr i b j) d : ℝ) : EReal)

/-! ## The attention of a real array on itself -/

/-- the attention of a real array Q on itself, as an array of extended reals -/
def attnG (Qr : Fin 4 → Fin 2048 → Fin 768 → ℝ) : S4x2048x768.Idx → EReal :=
  fun i => ((Cert.Att.Spec.attnReal (Qr ⟨(i 0).val, (i 0).isLt⟩ ⟨(i 1).val, (i 1).isLt⟩) (Cert.Att.Spec.keyBlocks (Qr ⟨(i 0).val, (i 0).isLt⟩)) ⟨(i 2).val, (i 2).isLt⟩ : ℝ) : EReal)

/-- `attnG` at an index whose coordinates are known: batch b, row s, column d. -/
theorem attnG_at (Qr : Fin 4 → Fin 2048 → Fin 768 → ℝ) (i : S4x2048x768.Idx) (b : Fin 4) (s : Fin 2048) (d : Fin 768)
    (h0 : (i 0).val = b.val) (h1 : (i 1).val = s.val) (h2 : (i 2).val = d.val) :
    attnG Qr i = ((Cert.Att.Spec.attnReal (Qr b s) (Cert.Att.Spec.keyBlocks (Qr b)) d : ℝ) : EReal) := by
  unfold attnG
  have e0 : (⟨(i 0).val, (i 0).isLt⟩ : Fin 4) = b := Fin.ext h0
  have e1 : (⟨(i 1).val, (i 1).isLt⟩ : Fin 2048) = s := Fin.ext h1
  have e2 : (⟨(i 2).val, (i 2).isLt⟩ : Fin 768) = d := Fin.ext h2
  rw [e0, e1, e2]

/-! ## One key slice: row j of the slice at row offset 256·I is row 256·I + j -/

/-- A load of 256 rows of every batch from row offset `o` reads, at (b, j, e), the array at (b, o + j, e). -/
theorem ld_rows (kv : Vec Ideal S4x2048x768 .bf16) (o : ℕ)
    (inb : ∀ a, (![0, o, 0] : Fin 3 → Nat) a + S4x256x768.size a ≤ S4x2048x768.size a)
    (b : Fin 4) (j : Fin 256) (e : Fin 768) (h : o + j.val < 2048) :
    View.ld kv (Rect.unit (s := S4x2048x768) ![0, o, 0] S4x256x768.size inb) (ix3 b j e) = kv (ix3 b ⟨o + j.val, h⟩ e) := by
  show kv ((Rect.unit (s := S4x2048x768) ![0, o, 0] S4x256x768.size inb).idx (ix3 b j e)) = kv (ix3 b ⟨o + j.val, h⟩ e)
  refine congrArg kv (funext fun a => Fin.ext ?_)
  match a with
  | ⟨0, _⟩ => show 0 + 1 * b.val = b.val; omega
  | ⟨1, _⟩ => show o + 1 * j.val = o + j.val; omega
  | ⟨2, _⟩ => show 0 + 1 * e.val = e.val; omega

/-- Slice I of the keys, read off an array whose entries are the reals `Qr`: block I of the key rows of each batch. -/
theorem key_slice (Qr : Fin 4 → Fin 2048 → Fin 768 → ℝ) (kv : Vec Ideal S4x2048x768 .bf16)
    (hkv : ∀ b s e, kv (ix3 b s e) = ((Qr b s e : ℝ) : EReal)) (I o : ℕ) (hI : I < 8) (ho : o = 256 * I)
    (inb : ∀ a, (![0, o, 0] : Fin 3 → Nat) a + S4x256x768.size a ≤ S4x2048x768.size a)
    (b : Fin 4) (j : Fin 256) (e : Fin 768) :
    View.ld kv (Rect.unit (s := S4x2048x768) ![0, o, 0] S4x256x768.size inb) (ix3 b j e)
      = ((Cert.Att.Spec.keyBlocks (Qr b) I j e : ℝ) : EReal) := by
  have hj : j.val < 256 := j.isLt
  rw [ld_rows kv o inb b j e (by omega), hkv]
  unfold Cert.Att.Spec.keyBlocks
  have em : (256 * I + j.val) % 2048 = o + j.val := by rw [Nat.mod_eq_of_lt (by omega)]; omega
  exact congrArg (fun s : Fin 2048 => ((Qr b s e : ℝ) : EReal)) (Fin.ext em.symm)

/-! ## The stored block at a point, over variables -/

/-- From a query block holding rows `o … o + 511` of a real array and a key block holding all of it, the stored value
    at (b, r, d) is the attention of row `o + r` of batch b against all rows of that batch, column d. -/
theorem stored_point (hS : StoredSpec) (Qr : Fin 4 → Fin 2048 → Fin 768 → ℝ)
    (q : Vec Ideal S4x512x768 .bf16) (kv : Vec Ideal S4x2048x768 .bf16) (o : ℕ) (ho : o + 512 ≤ 2048)
    (hq : ∀ (b : Fin 4) (r : Fin 512) (e : Fin 768), q (ix3 b r e) = ((Qr b ⟨o + r.val, by have := r.isLt; omega⟩ e : ℝ) : EReal))
    (hkv : ∀ b s e, kv (ix3 b s e) = ((Qr b s e : ℝ) : EReal))
    (b : Fin 4) (r : Fin 512) (d : Fin 768) :
    attnStored (F := Ideal) q (View.ld kv rKeys0) (View.ld kv rKeys1) (View.ld kv rKeys2) (View.ld kv rKeys3) (View.ld kv rKeys4) (View.ld kv rKeys5) (View.ld kv rKeys6) (View.ld kv rKeys7) (ix3 b r d)
      = ((Cert.Att.Spec.attnReal (Qr b ⟨o + r.val, by have := r.isLt; omega⟩) (Cert.Att.Spec.keyBlocks (Qr b)) d : ℝ) : EReal) :=
  hS q (View.ld kv rKeys0) (View.ld kv rKeys1) (View.ld kv rKeys2) (View.ld kv rKeys3) (View.ld kv rKeys4) (View.ld kv rKeys5) (View.ld kv rKeys6) (View.ld kv rKeys7)
    (fun b r e => Qr b ⟨o + r.val, by have := r.isLt; omega⟩ e) (fun I b j e => Cert.Att.Spec.keyBlocks (Qr b) I j e) hq
    (fun b j e => key_slice Qr kv hkv 0 0 (by omega) rfl _ b j e) (fun b j e => key_slice Qr kv hkv 1 256 (by omega) rfl _ b j e)
    (fun b j e => key_slice Qr kv hkv 2 512 (by omega) rfl _ b j e) (fun b j e => key_slice Qr kv hkv 3 768 (by omega) rfl _ b j e)
    (fun b j e => key_slice Qr kv hkv 4 1024 (by omega) rfl _ b j e) (fun b j e => key_slice Qr kv hkv 5 1280 (by omega) rfl _ b j e)
    (fun b j e => key_slice Qr kv hkv 6 1536 (by omega) rfl _ b j e) (fun b j e => key_slice Qr kv hkv 7 1792 (by omega) rfl _ b j e)
    b r d

/-! ## The launch's blocks -/

variable (V : (c : Dev nD) → (b : Ref sig .tc) → Buf (Elt Ideal) ((c : Thread nD τ).loc b))

theorem zero3 : (![0, 0, 0] : Fin 3 → Nat) = fun _ => 0 := funext fun a => by fin_cases a <;> rfl

/-- The launch's index maps over the grid: the query block and the output block are row block t; the key block does
    not move. -/
theorem index_facts : ∀ t : Fin cfg1.N,
    win1_0.index t (0 : Fin 3) = 0 ∧ win1_0.index t (1 : Fin 3) = t.val ∧ win1_0.index t (2 : Fin 3) = 0
    ∧ win1_1.index t (0 : Fin 3) = 0 ∧ win1_1.index t (1 : Fin 3) = 0 ∧ win1_1.index t (2 : Fin 3) = 0
    ∧ win1_2.index t (0 : Fin 3) = 0 ∧ win1_2.index t (1 : Fin 3) = t.val ∧ win1_2.index t (2 : Fin 3) = 0 :=
  (by decide +kernel : ∀ t : Fin grid1.N, _)

/-- What grid point t writes back is block t of the attention of the projected array on itself. -/
theorem flushed_eq (hS : StoredSpec) (c : Dev nD) (Qr : Fin 4 → Fin 2048 → Fin 768 → ℝ)
    (hQ : ∀ b s e, V c main_v2 (ValueIdx.ix3 b s e) = ((Qr b s e : ℝ) : EReal)) (t : Fin cfg1.N) :
    (attnDat V c).flushed 2 t = ((cfg1.win 2).blk t).view.read (Elt Ideal) (attnG Qr) := by
  show (cfg1.win 2).cut (grid1.coords t) ((attnDat V c).after 2 t) = _
  rw [attnDat_after2]
  unfold attnOut
  rw [View.canon_unit_zero zero3]
  simp only [View.ld_unit_zero (S := S4x512x768) zero3]
  obtain ⟨q0, q1, q2, k0, k1, k2, o0, o1, o2⟩ := index_facts t
  have ht : t.val < 4 := lt_of_lt_of_eq (b := grid1.N) t.isLt N_1
  funext j
  obtain ⟨b, r, d, rfl⟩ : ∃ (b : Fin 4) (r : Fin 512) (d : Fin 768), j = ix3 b r d := ⟨j 0, j 1, j 2, eq_ix3 j⟩
  have hr : r.val < 512 := r.isLt
  show attnStored (F := Ideal) (attnBlk V c 0 t) (View.ld (attnBlk V c 1 t) rKeys0) (View.ld (attnBlk V c 1 t) rKeys1) (View.ld (attnBlk V c 1 t) rKeys2) (View.ld (attnBlk V c 1 t) rKeys3) (View.ld (attnBlk V c 1 t) rKeys4) (View.ld (attnBlk V c 1 t) rKeys5) (View.ld (attnBlk V c 1 t) rKeys6) (View.ld (attnBlk V c 1 t) rKeys7) (ix3 b r d)
    = attnG Qr (((cfg1.win 2).blk t).view.emb (ix3 b r d))
  have hq : ∀ (b : Fin 4) (r : Fin 512) (e : Fin 768),
      attnBlk V c 0 t (ix3 b r e) = ((Qr b ⟨t.val * 512 + r.val, by have := r.isLt; omega⟩ e : ℝ) : EReal) := fun b r e => by
    show V c main_v2 (((cfg1.win 0).blk t).view.emb (ix3 b r e)) = _
    refine (congrArg (V c main_v2) (funext fun a => Fin.ext ?_)).trans (hQ b ⟨t.val * 512 + r.val, by have := r.isLt; omega⟩ e)
    match a with
    | ⟨0, _⟩ => show win1_0.index t (0 : Fin 3) * 4 + 1 * b.val = b.val; omega
    | ⟨1, _⟩ => show win1_0.index t (1 : Fin 3) * 512 + 1 * r.val = t.val * 512 + r.val; omega
    | ⟨2, _⟩ => show win1_0.index t (2 : Fin 3) * 768 + 1 * e.val = e.val; omega
  have hkv : ∀ (b : Fin 4) (s : Fin 2048) (e : Fin 768), attnBlk V c 1 t (ix3 b s e) = ((Qr b s e : ℝ) : EReal) := fun b s e => by
    show V c main_v2 (((cfg1.win 1).blk t).view.emb (ix3 b s e)) = _
    refine (congrArg (V c main_v2) (funext fun a => Fin.ext ?_)).trans (hQ b s e)
    match a with
    | ⟨0, _⟩ => show win1_1.index t (0 : Fin 3) * 4 + 1 * b.val = b.val; omega
    | ⟨1, _⟩ => show win1_1.index t (1 : Fin 3) * 2048 + 1 * s.val = s.val; omega
    | ⟨2, _⟩ => show win1_1.index t (2 : Fin 3) * 768 + 1 * e.val = e.val; omega
  refine (stored_point hS Qr (attnBlk V c 0 t) (attnBlk V c 1 t) (t.val * 512) (by omega) hq hkv b r d).trans ?_
  refine (attnG_at Qr _ b ⟨t.val * 512 + r.val, by omega⟩ d ?_ ?_ ?_).symm
  · show win1_2.index t (0 : Fin 3) * 4 + 1 * b.val = b.val; omega
  · show win1_2.index t (1 : Fin 3) * 512 + 1 * r.val = t.val * 512 + r.val; omega
  · show win1_2.index t (2 : Fin 3) * 768 + 1 * d.val = d.val; omega

/-- An index of the output array is in point t's block iff each coordinate is in the block's range on its axis. -/
theorem mem_blk (t : Fin cfg1.N) (i : S4x2048x768.Idx) :
    i ∈ ((cfg1.win 2).blk t).view.set ↔ ∀ a : Fin 3, win1_2.index t a * S4x512x768.size a ≤ (i a).val ∧ (i a).val < win1_2.index t a * S4x512x768.size a + S4x512x768.size a := by
  show i ∈ ((View.whole main_v3).slice (win1_2.rect t)).set ↔ _
  rw [View.set_slice_whole, Rect.mem_set_unit]
  exact Iff.rfl

/-- The four row blocks tile the output: row s of every batch is in block s / 512. -/
theorem cover (i : S4x2048x768.Idx) : ∃ t : Fin cfg1.N, (cfg1.win 2).flush t = true ∧ i ∈ ((cfg1.win 2).blk t).view.set := by
  have hi0 : (i 0).val < 4 := (i 0).isLt
  have hi1 : (i 1).val < 2048 := (i 1).isLt
  have hi2 : (i 2).val < 768 := (i 2).isLt
  refine ⟨⟨(i 1).val / 512, by rw [show cfg1.N = grid1.N from rfl, N_1]; omega⟩, flush1_2 _, ?_⟩
  rw [mem_blk]
  obtain ⟨q0, q1, q2, k0, k1, k2, o0, o1, o2⟩ := index_facts ⟨(i 1).val / 512, by rw [show cfg1.N = grid1.N from rfl, N_1]; omega⟩
  intro a
  match a with
  | ⟨0, _⟩ =>
    show win1_2.index _ (0 : Fin 3) * 4 ≤ (i 0).val ∧ (i 0).val < win1_2.index _ (0 : Fin 3) * 4 + 4
    rw [o0]; omega
  | ⟨1, _⟩ =>
    show win1_2.index _ (1 : Fin 3) * 512 ≤ (i 1).val ∧ (i 1).val < win1_2.index _ (1 : Fin 3) * 512 + 512
    rw [o1]; show (i 1).val / 512 * 512 ≤ (i 1).val ∧ (i 1).val < (i 1).val / 512 * 512 + 512; omega
  | ⟨2, _⟩ =>
    show win1_2.index _ (2 : Fin 3) * 768 ≤ (i 2).val ∧ (i 2).val < win1_2.index _ (2 : Fin 3) * 768 + 768
    rw [o2]; omega

/-- THE OUTPUT ARRAY after the launch: the attention of the projected array on itself. -/
theorem attn_final (hS : StoredSpec) (c : Dev nD) (Qr : Fin 4 → Fin 2048 → Fin 768 → ℝ)
    (hQ : ∀ b s e, V c main_v2 (ValueIdx.ix3 b s e) = ((Qr b s e : ℝ) : EReal)) :
    (Cert.KernelIdeal.Att.attnDat V c).arrAt 2 cfg1.N = attnG Qr :=
  (attnDat V c).arrAt_eq_of_cover 2 _ (fun t _ => flushed_eq V hS c Qr hQ t) cover

end Cert.KernelIdeal.AttA

end
-- ==== Proof.AttnSteps.lean ====
/-
  The attention body's arithmetic, slice by slice.

  The body keeps three running arrays per query row: the running maximum m of the logits seen so far, the running
  denominator l and the running numerator acc of the softmax average. For a slice of 256 key rows it forms the
  scores s (scaled query rows against the slice's rows), the new maximum m' = max m (row maximum of s), the factor
  α = exp (m − m'), the weights p = exp (s − m'), and hands on  m',  α·l + (row sum of p),  α·acc + p · slice.
  It starts from m = −∞, l = 0, acc = 0 and ends with acc / l. This file spells one such step once, on whole
  arrays and with the body's own operations, and says that the stored value is eight steps and the quotient.
-/
import proofs.«176324_j10393820857170_2_alg».proof.Proof.KIData

noncomputable section

namespace Cert.KernelIdeal.AttV

open Cert.KernelIdeal Cert.KernelIdeal.Gen
open Idealize.ShloMosaic

variable {F : FTy → Type} [FloatOps F]

/-- The scores of a slice: every scaled query row against every row of the slice, batch by batch. -/
def scores (qs : FVec F S4x512x768 .bf16) (kv : Vec F S4x256x768 .bf16) : FVec F S4x512x256 .f32 :=
  matmul dot_S4x512x768_S4x256x768_S4x512x256_2_2_1_1_0_0 none qs
    (shapeCast S4x256x768 kv shapeCasts_S4x256x768_S4x256x768) (constant S4x512x256 .f32 0x00000000#32)

/-- The maximum of each row of a score block, kept as a column. -/
def rowMax (s : FVec F S4x512x256 .f32) : FVec F S4x512x1 .f32 :=
  shapeCast S4x512x1 (multiReduction .maximumf [2] S4x512 s 0xFF800000#32 reduces_S4x512x256_S4x512 (.inl rfl) rfl)
    shapeCasts_S4x512_S4x512x1

/-- The sum of each row of a weight block, kept as a column. -/
def rowSum (p : FVec F S4x512x256 .f32) : FVec F S4x512x1 .f32 :=
  shapeCast S4x512x1 (multiReduction .add [2] S4x512 p 0x00000000#32 reduces_S4x512x256_S4x512 (.inl rfl) rfl)
    shapeCasts_S4x512_S4x512x1

/-- The running maximum after the slice. -/
def newMax (qs : FVec F S4x512x768 .bf16) (kv : Vec F S4x256x768 .bf16) (m : FVec F S4x512x1 .f32) : FVec F S4x512x1 .f32 :=
  maximumf m (rowMax (scores qs kv))

/-- The factor that brings what was accumulated at the old maximum to the new one. -/
def alpha (qs : FVec F S4x512x768 .bf16) (kv : Vec F S4x256x768 .bf16) (m : FVec F S4x512x1 .f32) : FVec F S4x512x1 .f32 :=
  exp (subf m (newMax qs kv m))

/-- The slice's weights at the new maximum. -/
def probs (qs : FVec F S4x512x768 .bf16) (kv : Vec F S4x256x768 .bf16) (m : FVec F S4x512x1 .f32) : FVec F S4x512x256 .f32 :=
  exp (subf (scores qs kv) (broadcastTo S4x512x256 (newMax qs kv m) broadcasts_S4x512x1_S4x512x256))

/-- The running denominator after the slice. -/
def newDen (qs : FVec F S4x512x768 .bf16) (kv : Vec F S4x256x768 .bf16) (m l : FVec F S4x512x1 .f32) : FVec F S4x512x1 .f32 :=
  addf (mulf (alpha qs kv m) l) (rowSum (probs qs kv m))

/-- The running numerator after the slice. -/
def newAcc (qs : FVec F S4x512x768 .bf16) (kv : Vec F S4x256x768 .bf16) (m : FVec F S4x512x1 .f32)
    (acc : FVec F S4x512x768 .f32) : FVec F S4x512x768 .f32 :=
  addf (mulf (broadcastTo S4x512x768 (alpha qs kv m) broadcasts_S4x512x1_S4x512x768) acc)
    (matmul dot_S4x512x256_S4x256x768_S4x512x768_2_1_1_2_0_0 none (truncf .bf16 (probs qs kv m) bitsLt_bf16_f32)
      (shapeCast S4x256x768 kv shapeCasts_S4x256x768_S4x256x768) (constant S4x512x768 .f32 0x00000000#32))

/-- The three running arrays: maximum, denominator, numerator. -/
abbrev St (F : FTy → Type) : Type := FVec F S4x512x1 .f32 × FVec F S4x512x1 .f32 × FVec F S4x512x768 .f32

/-- One slice. -/
def sliceStep (qs : FVec F S4x512x768 .bf16) (kv : Vec F S4x256x768 .bf16) (s : St F) : St F :=
  (newMax qs kv s.1, newDen qs kv s.1 s.2.1, newAcc qs kv s.1 s.2.2)

/-- Before the first slice: maximum −∞, denominator 0, numerator 0. -/
def init : St F :=
  (broadcast S4x512x1 (Scalar.ofBits .f32 0xFF800000#32), broadcast S4x512x1 (Scalar.ofBits .f32 0x00000000#32),
   broadcast S4x512x768 (Scalar.ofBits .f32 0x00000000#32))

/-- The state after the eight slices. -/
def final (qs : FVec F S4x512x768 .bf16) (v9 v29 v49 v69 v89 v109 v129 v149 : Vec F S4x256x768 .bf16) : St F :=
  sliceStep qs v149 (sliceStep qs v129 (sliceStep qs v109 (sliceStep qs v89 (sliceStep qs v69 (sliceStep qs v49
    (sliceStep qs v29 (sliceStep qs v9 init)))))))

/-- The quotient the body stores, from the last state. -/
def quotient (s : St F) : FVec F S4x512x768 .f32 :=
  divf s.2.2 (broadcastTo S4x512x768 s.2.1 broadcasts_S4x512x1_S4x512x768)

set_option maxRecDepth 65536 in
/-- The stored value is the quotient of the state after eight slices of the scaled query block. -/
theorem attnStored_eq_steps (v0 : Vec F S4x512x768 .bf16) (v9 v29 v49 v69 v89 v109 v129 v149 : Vec F S4x256x768 .bf16) :
    Att.attnStored v0 v9 v29 v49 v69 v89 v109 v129 v149
      = quotient (final (k1_pay1 v0) v9 v29 v49 v69 v89 v109 v129 v149) := by
  first | rfl | fail "not by unfolding"

end Cert.KernelIdeal.AttV

end
-- ==== Proof.LibBatchedDot.lean ====
/-
  Batched matrix products, read at an entry.

  Two arrangements of a product with one leading batch axis, over the extended reals, each read at entry (b, i, j) as the
  textbook sum with the batch index carried along:
    * rows against rows, [B, M, K] × [B, N, K] → [B, M, N] (contract the last axis of both):
        ∑ₖ A(b, i, k) · C(b, j, k)  — the Gram matrix of two families of rows;
    * matrix against matrix, [B, M, K] × [B, K, N] → [B, M, N] (contract the left operand's last axis with the right
      operand's middle axis):  ∑ₖ A(b, i, k) · C(b, k, j).
  Both for the kernel's matrix unit accumulating into zero. No sum is reordered and no factor moved, so nothing here
  needs the entries finite. General in B, M, N, K.
-/
import Idealize.ShloMosaic.PureOps.Ideal
import Idealize.ShloMosaic.PureOps.Ideal.Laws
import Idealize.ShloMosaic.Lib.ValueIdx

noncomputable section

namespace Cert.LibBatchedDot

open Idealize.ShloMosaic Idealize.ShloMosaic.ValueIdx

variable {B M N K : Nat} {φ₁ φ₂ : FTy}

/-! ## Rows against rows -/

/-- The dimension numbers of [B, M, K] × [B, N, K] → [B, M, N]. -/
abbrev rowsDims (wf : DotDims.WF (⟨3, ![B, M, K]⟩ : Shape) ⟨3, ![B, N, K]⟩ ⟨3, ![B, M, N]⟩ [2] [2] [1] [1] [0] [0]) :
    DotDims (⟨3, ![B, M, K]⟩ : Shape) ⟨3, ![B, N, K]⟩ ⟨3, ![B, M, N]⟩ where
  lhsContracting := [2]
  rhsContracting := [2]
  lhsNonContracting := [1]
  rhsNonContracting := [1]
  lhsBatch := [0]
  rhsBatch := [0]
  wf := wf

section Rows
variable (wf : DotDims.WF (⟨3, ![B, M, K]⟩ : Shape) ⟨3, ![B, N, K]⟩ ⟨3, ![B, M, N]⟩ [2] [2] [1] [1] [0] [0])

theorem rows_lhs0 (b : Fin B) (i : Fin M) (j : Fin N) (q : (rowsDims wf).contr.Idx) :
    ((rowsDims wf).lhsIdx (ix3 b i j) q 0).val = b.val := by
  unfold DotDims.lhsIdx
  rw [dif_pos (show (0 : Fin 3) ∈ (rowsDims wf).lhsBatch from List.mem_singleton.mpr rfl)]
  rfl

theorem rows_lhs1 (b : Fin B) (i : Fin M) (j : Fin N) (q : (rowsDims wf).contr.Idx) :
    ((rowsDims wf).lhsIdx (ix3 b i j) q 1).val = i.val := by
  unfold DotDims.lhsIdx
  rw [dif_neg (by decide : ¬(1 : Fin 3) ∈ ([0] : List (Fin 3))),
    dif_pos (show (1 : Fin 3) ∈ (rowsDims wf).lhsNonContracting from List.mem_singleton.mpr rfl)]
  rfl

theorem rows_lhs2 (b : Fin B) (i : Fin M) (j : Fin N) (q : (rowsDims wf).contr.Idx) :
    ((rowsDims wf).lhsIdx (ix3 b i j) q 2).val = (q ⟨0, Nat.one_pos⟩).val :=
  (rowsDims wf).lhsIdx_val_of_single rfl (ix3 b i j) q

theorem rows_rhs0 (b : Fin B) (i : Fin M) (j : Fin N) (q : (rowsDims wf).contr.Idx) :
    ((rowsDims wf).rhsIdx (ix3 b i j) q 0).val = b.val := by
  unfold DotDims.rhsIdx
  rw [dif_pos (show (0 : Fin 3) ∈ (rowsDims wf).rhsBatch from List.mem_singleton.mpr rfl)]
  rfl

theorem rows_rhs1 (b : Fin B) (i : Fin M) (j : Fin N) (q : (rowsDims wf).contr.Idx) :
    ((rowsDims wf).rhsIdx (ix3 b i j) q 1).val = j.val := by
  unfold DotDims.rhsIdx
  rw [dif_neg (by decide : ¬(1 : Fin 3) ∈ ([0] : List (Fin 3))),
    dif_pos (show (1 : Fin 3) ∈ (rowsDims wf).rhsNonContracting from List.mem_singleton.mpr rfl)]
  rfl

theorem rows_rhs2 (b : Fin B) (i : Fin M) (j : Fin N) (q : (rowsDims wf).contr.Idx) :
    ((rowsDims wf).rhsIdx (ix3 b i j) q 2).val = (q ⟨0, Nat.one_pos⟩).val :=
  (rowsDims wf).rhsIdx_val_of_single rfl (ix3 b i j) q

/-- The sum over the contraction index is the sum over k < K of A(b, i, k) · C(b, j, k). -/
theorem rows_sum_contr (A : FVec Ideal ⟨3, ![B, M, K]⟩ φ₁) (C : FVec Ideal ⟨3, ![B, N, K]⟩ φ₂) (b : Fin B) (i : Fin M) (j : Fin N) :
    ∑ q : (rowsDims wf).contr.Idx, A ((rowsDims wf).lhsIdx (ix3 b i j) q) * C ((rowsDims wf).rhsIdx (ix3 b i j) q)
      = ∑ k : Fin K, A (ix3 b i k) * C (ix3 b j k) := by
  rw [← Equiv.sum_comp (contrEquiv1 (rowsDims wf) K rfl rfl).symm]
  refine Finset.sum_congr rfl fun k _ => ?_
  have hk := contrEquiv1_symm_val (rowsDims wf) K rfl rfl k
  have el : (rowsDims wf).lhsIdx (ix3 b i j) ((contrEquiv1 (rowsDims wf) K rfl rfl).symm k) = ix3 b i k := funext fun a => Fin.ext (by
    match a with
    | ⟨0, _⟩ => exact rows_lhs0 wf b i j _
    | ⟨1, _⟩ => exact rows_lhs1 wf b i j _
    | ⟨2, _⟩ => exact (rows_lhs2 wf b i j _).trans hk)
  have er : (rowsDims wf).rhsIdx (ix3 b i j) ((contrEquiv1 (rowsDims wf) K rfl rfl).symm k) = ix3 b j k := funext fun a => Fin.ext (by
    match a with
    | ⟨0, _⟩ => exact rows_rhs0 wf b i j _
    | ⟨1, _⟩ => exact rows_rhs1 wf b i j _
    | ⟨2, _⟩ => exact (rows_rhs2 wf b i j _).trans hk)
  rw [el, er]

/-- The kernel's matrix unit into a zero accumulator, rows against rows, at entry (b, i, j). -/
theorem rows_matmul_zero_apply (prec : Option ContractPrecision)
    (A : FVec Ideal ⟨3, ![B, M, K]⟩ φ₁) (C : FVec Ideal ⟨3, ![B, N, K]⟩ φ₂) (b : Fin B) (i : Fin M) (j : Fin N) :
    FloatOps.matmul (rowsDims wf) prec A C (constant ⟨3, ![B, M, N]⟩ .f32 0x00000000#32) (ix3 b i j)
      = ∑ k : Fin K, A (ix3 b i k) * C (ix3 b j k) := by
  rw [Ideal.matmul_constant_zero_apply]
  exact rows_sum_contr wf A C b i j

end Rows

/-! ## Matrix against matrix -/

/-- The dimension numbers of [B, M, K] × [B, K, N] → [B, M, N]. -/
abbrev matDims (wf : DotDims.WF (⟨3, ![B, M, K]⟩ : Shape) ⟨3, ![B, K, N]⟩ ⟨3, ![B, M, N]⟩ [2] [1] [1] [2] [0] [0]) :
    DotDims (⟨3, ![B, M, K]⟩ : Shape) ⟨3, ![B, K, N]⟩ ⟨3, ![B, M, N]⟩ where
  lhsContracting := [2]
  rhsContracting := [1]
  lhsNonContracting := [1]
  rhsNonContracting := [2]
  lhsBatch := [0]
  rhsBatch := [0]
  wf := wf

section Mat
variable (wf : DotDims.WF (⟨3, ![B, M, K]⟩ : Shape) ⟨3, ![B, K, N]⟩ ⟨3, ![B, M, N]⟩ [2] [1] [1] [2] [0] [0])

theorem mat_lhs0 (b : Fin B) (i : Fin M) (j : Fin N) (q : (matDims wf).contr.Idx) :
    ((matDims wf).lhsIdx (ix3 b i j) q 0).val = b.val := by
  unfold DotDims.lhsIdx
  rw [dif_pos (show (0 : Fin 3) ∈ (matDims wf).lhsBatch from List.mem_singleton.mpr rfl)]
  rfl

theorem mat_lhs1 (b : Fin B) (i : Fin M) (j : Fin N) (q : (matDims wf).contr.Idx) :
    ((matDims wf).lhsIdx (ix3 b i j) q 1).val = i.val := by
  unfold DotDims.lhsIdx
  rw [dif_neg (by decide : ¬(1 : Fin 3) ∈ ([0] : List (Fin 3))),
    dif_pos (show (1 : Fin 3) ∈ (matDims wf).lhsNonContracting from List.mem_singleton.mpr rfl)]
  rfl

theorem mat_lhs2 (b : Fin B) (i : Fin M) (j : Fin N) (q : (matDims wf).contr.Idx) :
    ((matDims wf).lhsIdx (ix3 b i j) q 2).val = (q ⟨0, Nat.one_pos⟩).val :=
  (matDims wf).lhsIdx_val_of_single rfl (ix3 b i j) q

theorem mat_rhs0 (b : Fin B) (i : Fin M) (j : Fin N) (q : (matDims wf).contr.Idx) :
    ((matDims wf).rhsIdx (ix3 b i j) q 0).val = b.val := by
  unfold DotDims.rhsIdx
  rw [dif_pos (show (0 : Fin 3) ∈ (matDims wf).rhsBatch from List.mem_singleton.mpr rfl)]
  rfl

theorem mat_rhs1 (b : Fin B) (i : Fin M) (j : Fin N) (q : (matDims wf).contr.Idx) :
    ((matDims wf).rhsIdx (ix3 b i j) q 1).val = (q ⟨0, Nat.one_pos⟩).val :=
  (matDims wf).rhsIdx_val_of_single rfl (ix3 b i j) q

theorem mat_rhs2 (b : Fin B) (i : Fin M) (j : Fin N) (q : (matDims wf).contr.Idx) :
    ((matDims wf).rhsIdx (ix3 b i j) q 2).val = j.val := by
  unfold DotDims.rhsIdx
  rw [dif_neg (by decide : ¬(2 : Fin 3) ∈ ([0] : List (Fin 3))),
    dif_pos (show (2 : Fin 3) ∈ (matDims wf).rhsNonContracting from List.mem_singleton.mpr rfl)]
  rfl

/-- The sum over the contraction index is the sum over k < K of A(b, i, k) · C(b, k, j). -/
theorem mat_sum_contr (A : FVec Ideal ⟨3, ![B, M, K]⟩ φ₁) (C : FVec Ideal ⟨3, ![B, K, N]⟩ φ₂) (b : Fin B) (i : Fin M) (j : Fin N) :
    ∑ q : (matDims wf).contr.Idx, A ((matDims wf).lhsIdx (ix3 b i j) q) * C ((matDims wf).rhsIdx (ix3 b i j) q)
      = ∑ k : Fin K, A (ix3 b i k) * C (ix3 b k j) := by
  rw [← Equiv.sum_comp (contrEquiv1 (matDims wf) K rfl rfl).symm]
  refine Finset.sum_congr rfl fun k _ => ?_
  have hk := contrEquiv1_symm_val (matDims wf) K rfl rfl k
  have el : (matDims wf).lhsIdx (ix3 b i j) ((contrEquiv1 (matDims wf) K rfl rfl).symm k) = ix3 b i k := funext fun a => Fin.ext (by
    match a with
    | ⟨0, _⟩ => exact mat_lhs0 wf b i j _
    | ⟨1, _⟩ => exact mat_lhs1 wf b i j _
    | ⟨2, _⟩ => exact (mat_lhs2 wf b i j _).trans hk)
  have er : (matDims wf).rhsIdx (ix3 b i j) ((contrEquiv1 (matDims wf) K rfl rfl).symm k) = ix3 b k j := funext fun a => Fin.ext (by
    match a with
    | ⟨0, _⟩ => exact mat_rhs0 wf b i j _
    | ⟨1, _⟩ => exact (mat_rhs1 wf b i j _).trans hk
    | ⟨2, _⟩ => exact mat_rhs2 wf b i j _)
  rw [el, er]

/-- The kernel's matrix unit into a zero accumulator, matrix against matrix, at entry (b, i, j). -/
theorem mat_matmul_zero_apply (prec : Option ContractPrecision)
    (A : FVec Ideal ⟨3, ![B, M, K]⟩ φ₁) (C : FVec Ideal ⟨3, ![B, K, N]⟩ φ₂) (b : Fin B) (i : Fin M) (j : Fin N) :
    FloatOps.matmul (matDims wf) prec A C (constant ⟨3, ![B, M, N]⟩ .f32 0x00000000#32) (ix3 b i j)
      = ∑ k : Fin K, A (ix3 b i k) * C (ix3 b k j) := by
  rw [Ideal.matmul_constant_zero_apply]
  exact mat_sum_contr wf A C b i j

end Mat

end Cert.LibBatchedDot

end
-- ==== Proof.AttnRead.lean ====
/-
  One slice of the attention body read at a query row, for real inputs.

  At the exact values every operation of a slice is the textbook one, so at batch b, query row r and column d the
  three running arrays after a slice are one step of the online softmax accumulation applied to what they were
  before it: the logits are the dot products of the (scaled) query row with the slice's 256 rows, the block shift
  is their maximum, the values are column d of the slice's rows.
-/
import proofs.«176324_j10393820857170_2_alg».proof.Proof.AttnSteps
import proofs.«176324_j10393820857170_2_alg».proof.Proof.AttSpec
import proofs.«176324_j10393820857170_2_alg».proof.Proof.LibBatchedDot
import proofs.«176324_j10393820857170_2_alg».proof.Proof.LibRank3Layout
import proofs.«176324_j10393820857170_2_alg».proof.Proof.LibOnlineSoftmax

set_option pp.maxSteps 5000
set_option pp.deepTerms false

noncomputable section

namespace Cert.KernelIdeal.AttV

open Cert.KernelIdeal Cert.KernelIdeal.Gen
open Idealize.ShloMosaic Idealize.ShloMosaic.ValueIdx
open Cert.Lib.OnlineSoftmax
open scoped BigOperators

/-! ## Two bit patterns -/

/-- The pattern the running maximum starts from is −∞. -/
theorem ofBits_negInf : Ideal.ofBits .f32 0xFF800000#32 = ⊥ := by simp [Ideal.ofBits, Ideal.ieee]

/-! ## A row of a score block: its maximum and its sum -/

/-- Over the (batch, row) pair (b, r), the index with lane k inserted is (b, r, k). -/
theorem lift_eq (b : Fin 4) (r : Fin 512) (k : Fin 256) :
    (reduces_S4x512x256_S4x512).lift (ix2 b r) k = ix3 b r k := by
  funext a
  apply Fin.ext
  match a with
  | ⟨0, _⟩ => rfl
  | ⟨1, _⟩ => rfl
  | ⟨2, _⟩ => rfl

/-- The row maximum at (b, r): the supremum of the row's 256 entries. -/
theorem rowMax_apply (s : FVec Ideal S4x512x256 .f32) (b : Fin 4) (r : Fin 512) (u : Fin 1) :
    rowMax s (ix3 b r u) = Finset.univ.sup fun j : Fin 256 => s (ix3 b r j) := by
  unfold rowMax
  refine (Cert.Rank3Layout.shapeCast_ab_ab1_apply _ _ b r u).trans ?_
  refine (Ideal.multiReduction_maximumf_single s 0xFF800000#32 reduces_S4x512x256_S4x512 (.inl rfl) rfl (ix2 b r)).trans ?_
  have e : (s ∘ (reduces_S4x512x256_S4x512).lift (ix2 b r)) = fun j : Fin 256 => s (ix3 b r j) :=
    funext fun k => congrArg s (lift_eq b r k)
  rw [e]
  show Finset.fold max (Ideal.ofBits .f32 0xFF800000#32) _ _ = _
  rw [ofBits_negInf]
  rfl

/-- The row sum at (b, r): the sum of the row's 256 entries. -/
theorem rowSum_apply (p : FVec Ideal S4x512x256 .f32) (b : Fin 4) (r : Fin 512) (u : Fin 1) :
    rowSum p (ix3 b r u) = ∑ j : Fin 256, p (ix3 b r j) := by
  unfold rowSum
  refine (Cert.Rank3Layout.shapeCast_ab_ab1_apply _ _ b r u).trans ?_
  refine (Ideal.multiReduction_add_single p 0x00000000#32 reduces_S4x512x256_S4x512 (.inl rfl) rfl (ix2 b r)).trans ?_
  exact Finset.sum_congr rfl fun k _ => congrArg p (lift_eq b r k)

/-- The maximum of 256 reals, as a real. -/
def rmax (x : Fin 256 → ℝ) : ℝ := (Finset.univ.sup fun j : Fin 256 => (x j : EReal)).toReal

/-- The supremum of 256 coerced reals is a coerced real. -/
theorem sup_coe (x : Fin 256 → ℝ) : (Finset.univ.sup fun j : Fin 256 => (x j : EReal)) = ((rmax x : ℝ) : EReal) := by
  obtain ⟨i, _, hi⟩ := Finset.exists_mem_eq_sup (Finset.univ : Finset (Fin 256)) ⟨0, Finset.mem_univ _⟩ fun j : Fin 256 => (x j : EReal)
  unfold rmax
  rw [hi, EReal.toReal_coe]

/-! ## The scores -/

/-- A score at (b, r, j): the scaled query row r of batch b against row j of the slice. -/
theorem scores_apply (qs : FVec Ideal S4x512x768 .bf16) (kv : FVec Ideal S4x256x768 .bf16) (b : Fin 4) (r : Fin 512) (j : Fin 256) :
    scores qs kv (ix3 b r j) = ∑ e : Fin 768, qs (ix3 b r e) * kv (ix3 b j e) := by
  unfold scores
  rw [shapeCast_self]
  exact Cert.LibBatchedDot.rows_matmul_zero_apply dot_S4x512x768_S4x256x768_S4x512x256_2_2_1_1_0_0_wf none qs kv b r j

/-- With real entries a score is the real dot product. -/
theorem scores_real (qs : FVec Ideal S4x512x768 .bf16) (kv : FVec Ideal S4x256x768 .bf16) (b : Fin 4) (r : Fin 512)
    (q : Fin 768 → ℝ) (k : Fin 256 → Fin 768 → ℝ)
    (hq : ∀ e, qs (ix3 b r e) = ((q e : ℝ) : EReal)) (hk : ∀ j e, kv (ix3 b j e) = ((k j e : ℝ) : EReal)) (j : Fin 256) :
    scores qs kv (ix3 b r j) = ((∑ e, q e * k j e : ℝ) : EReal) := by
  rw [scores_apply, coe_sum]
  refine Finset.sum_congr rfl fun e _ => ?_
  rw [hq, hk, EReal.coe_mul]

/-! ## The step's five quantities at an index -/

theorem newMax_apply (qs : FVec Ideal S4x512x768 .bf16) (kv : FVec Ideal S4x256x768 .bf16) (m : FVec Ideal S4x512x1 .f32)
    (b : Fin 4) (r : Fin 512) (u : Fin 1) :
    newMax qs kv m (ix3 b r u) = max (m (ix3 b r u)) (Finset.univ.sup fun j : Fin 256 => scores qs kv (ix3 b r j)) := by
  unfold newMax
  rw [maximumf_apply, rowMax_apply]

theorem alpha_apply (qs : FVec Ideal S4x512x768 .bf16) (kv : FVec Ideal S4x256x768 .bf16) (m : FVec Ideal S4x512x1 .f32)
    (b : Fin 4) (r : Fin 512) (u : Fin 1) :
    alpha qs kv m (ix3 b r u) = Ideal.exp (m (ix3 b r u) - newMax qs kv m (ix3 b r u)) := rfl

theorem probs_apply (qs : FVec Ideal S4x512x768 .bf16) (kv : FVec Ideal S4x256x768 .bf16) (m : FVec Ideal S4x512x1 .f32)
    (b : Fin 4) (r : Fin 512) (j : Fin 256) :
    probs qs kv m (ix3 b r j) = Ideal.exp (scores qs kv (ix3 b r j) - newMax qs kv m (ix3 b r (0 : Fin 1))) := by
  unfold probs
  show Ideal.exp (scores qs kv (ix3 b r j) - broadcastTo S4x512x256 (newMax qs kv m) broadcasts_S4x512x1_S4x512x256 (ix3 b r j)) = _
  rw [Cert.Rank3Layout.broadcastTo_ab1_apply]

theorem newDen_apply (qs : FVec Ideal S4x512x768 .bf16) (kv : FVec Ideal S4x256x768 .bf16) (m l : FVec Ideal S4x512x1 .f32)
    (b : Fin 4) (r : Fin 512) (u : Fin 1) :
    newDen qs kv m l (ix3 b r u)
      = alpha qs kv m (ix3 b r u) * l (ix3 b r u) + ∑ j : Fin 256, probs qs kv m (ix3 b r j) := by
  unfold newDen
  rw [addf_apply, mulf_apply, rowSum_apply]

theorem newAcc_apply (qs : FVec Ideal S4x512x768 .bf16) (kv : FVec Ideal S4x256x768 .bf16) (m : FVec Ideal S4x512x1 .f32)
    (acc : FVec Ideal S4x512x768 .f32) (b : Fin 4) (r : Fin 512) (d : Fin 768) :
    newAcc qs kv m acc (ix3 b r d)
      = alpha qs kv m (ix3 b r (0 : Fin 1)) * acc (ix3 b r d) + ∑ j : Fin 256, probs qs kv m (ix3 b r j) * kv (ix3 b j d) := by
  unfold newAcc
  rw [addf_apply, mulf_apply, Cert.Rank3Layout.broadcastTo_ab1_apply, shapeCast_self]
  congr 1
  exact Cert.LibBatchedDot.mat_matmul_zero_apply dot_S4x512x256_S4x256x768_S4x512x768_2_1_1_2_0_0_wf none
    (truncf .bf16 (probs qs kv m) bitsLt_bf16_f32) kv b r d

/-! ## One slice is one step of the accumulation -/

/-- The three running quantities of query row (b, r) at column d. -/
def at3 (s : St Ideal) (b : Fin 4) (r : Fin 512) (d : Fin 768) : EReal × EReal × EReal :=
  (s.1 (ix3 b r (0 : Fin 1)), s.2.1 (ix3 b r (0 : Fin 1)), s.2.2 (ix3 b r d))

/-- If the slice's scores in row (b, r) are the reals x and its entries the reals k, the running quantities after
    the slice are one accumulation step, with the row's maximum as block shift, applied to those before it. -/
theorem sliceStep_at3 (qs : FVec Ideal S4x512x768 .bf16) (kv : FVec Ideal S4x256x768 .bf16) (s : St Ideal)
    (b : Fin 4) (r : Fin 512) (d : Fin 768) (x : Fin 256 → ℝ) (k : Fin 256 → Fin 768 → ℝ)
    (hx : ∀ j, scores qs kv (ix3 b r j) = ((x j : ℝ) : EReal)) (hk : ∀ j e, kv (ix3 b j e) = ((k j e : ℝ) : EReal)) :
    at3 (sliceStep qs kv s) b r d = step (rmax x) x (fun j => k j d) (at3 s b r d) := by
  have hm : newMax qs kv s.1 (ix3 b r (0 : Fin 1)) = max (s.1 (ix3 b r (0 : Fin 1))) ((rmax x : ℝ) : EReal) := by
    rw [newMax_apply, ← sup_coe]
    congr 2
    funext j
    exact hx j
  unfold at3 sliceStep step
  dsimp only
  refine Prod.ext ?_ (Prod.ext ?_ ?_)
  · exact hm
  · show newDen qs kv s.1 s.2.1 (ix3 b r (0 : Fin 1)) = _
    rw [newDen_apply, alpha_apply, hm]
    congr 1
    refine Finset.sum_congr rfl fun j _ => ?_
    rw [probs_apply, hm, hx]
  · show newAcc qs kv s.1 s.2.2 (ix3 b r d) = _
    rw [newAcc_apply, alpha_apply, hm]
    congr 1
    refine Finset.sum_congr rfl fun j _ => ?_
    rw [probs_apply, hm, hx, hk]

/-- Before the first slice the running quantities are (−∞, 0, 0). -/
theorem init_at3 (b : Fin 4) (r : Fin 512) (d : Fin 768) : at3 (init (F := Ideal)) b r d = (⊥, 0, 0) := by
  unfold at3 init
  refine Prod.ext ?_ (Prod.ext ?_ ?_)
  · exact ofBits_negInf
  · exact Ideal.ofBits_zero_f32
  · exact Ideal.ofBits_zero_f32

end Cert.KernelIdeal.AttV

end
-- ==== Proof.AttnValue.lean ====
/-
  The value the attention body stores, at an index, for real inputs.

  At batch b, query row r and column d the body's eight slices are eight steps of the online softmax accumulation
  from (−∞, 0, 0): the logits of slice i are the dot products of the scaled query row with the slice's 256 rows, the
  values are column d of those rows. After eight steps the numerator and the denominator are the two sums of the
  softmax average at a common real shift, the denominator is positive, and the quotient does not depend on the
  shift: it is the softmax-weighted average of column d over all 2048 key rows.
-/
import proofs.«176324_j10393820857170_2_alg».proof.Proof.AttnRead

set_option pp.maxSteps 5000
set_option pp.deepTerms false

noncomputable section

namespace Cert.KernelIdeal.AttV

open Cert.KernelIdeal Cert.KernelIdeal.Gen
open Idealize.ShloMosaic Idealize.ShloMosaic.ValueIdx
open Cert.Lib.OnlineSoftmax
open scoped BigOperators

/-- The scaled query block at an index: the query entry times the score scale. -/
theorem scaledQuery_apply (v0 : FVec Ideal S4x512x768 .bf16) (b : Fin 4) (r : Fin 512) (e : Fin 768) :
    k1_pay1 (F := Ideal) v0 (ix3 b r e) = v0 (ix3 b r e) * Ideal.ofBits .f32 0x3D13CD3A#32 := by
  have h : k1_pay1 (F := Ideal) v0 (ix3 b r e)
      = shapeCast S4x512x768 v0 shapeCasts_S4x512x768_S4x512x768 (ix3 b r e) * Ideal.ofBits .f32 0x3D13CD3A#32 := rfl
  rw [h, shapeCast_self]

/-- With a real query entry it is the real product with the scale. -/
theorem scaledQuery_real (v0 : FVec Ideal S4x512x768 .bf16) (b : Fin 4) (r : Fin 512) (e : Fin 768) (q : ℝ)
    (hq : v0 (ix3 b r e) = ((q : ℝ) : EReal)) :
    k1_pay1 (F := Ideal) v0 (ix3 b r e) = ((q * Cert.Att.Spec.scaleR : ℝ) : EReal) := by
  rw [scaledQuery_apply, hq, Cert.Att.Spec.scale_coe, EReal.coe_mul]

/-- Eight slices are eight accumulation steps from (−∞, 0, 0). -/
theorem final_at3 (qs : FVec Ideal S4x512x768 .bf16) (v9 v29 v49 v69 v89 v109 v129 v149 : FVec Ideal S4x256x768 .bf16)
    (b : Fin 4) (r : Fin 512) (d : Fin 768) (x : ℕ → Fin 256 → ℝ) (k : ℕ → Fin 256 → Fin 768 → ℝ)
    (hx0 : ∀ j, scores qs v9 (ix3 b r j) = ((x 0 j : ℝ) : EReal)) (hk0 : ∀ j e, v9 (ix3 b j e) = ((k 0 j e : ℝ) : EReal))
    (hx1 : ∀ j, scores qs v29 (ix3 b r j) = ((x 1 j : ℝ) : EReal)) (hk1 : ∀ j e, v29 (ix3 b j e) = ((k 1 j e : ℝ) : EReal))
    (hx2 : ∀ j, scores qs v49 (ix3 b r j) = ((x 2 j : ℝ) : EReal)) (hk2 : ∀ j e, v49 (ix3 b j e) = ((k 2 j e : ℝ) : EReal))
    (hx3 : ∀ j, scores qs v69 (ix3 b r j) = ((x 3 j : ℝ) : EReal)) (hk3 : ∀ j e, v69 (ix3 b j e) = ((k 3 j e : ℝ) : EReal))
    (hx4 : ∀ j, scores qs v89 (ix3 b r j) = ((x 4 j : ℝ) : EReal)) (hk4 : ∀ j e, v89 (ix3 b j e) = ((k 4 j e : ℝ) : EReal))
    (hx5 : ∀ j, scores qs v109 (ix3 b r j) = ((x 5 j : ℝ) : EReal)) (hk5 : ∀ j e, v109 (ix3 b j e) = ((k 5 j e : ℝ) : EReal))
    (hx6 : ∀ j, scores qs v129 (ix3 b r j) = ((x 6 j : ℝ) : EReal)) (hk6 : ∀ j e, v129 (ix3 b j e) = ((k 6 j e : ℝ) : EReal))
    (hx7 : ∀ j, scores qs v149 (ix3 b r j) = ((x 7 j : ℝ) : EReal)) (hk7 : ∀ j e, v149 (ix3 b j e) = ((k 7 j e : ℝ) : EReal)) :
    at3 (final qs v9 v29 v49 v69 v89 v109 v129 v149) b r d = run (fun i => rmax (x i)) x (fun i j => k i j d) 8 := by
  have hrun : run (fun i => rmax (x i)) x (fun i j => k i j d) 8
      = step (rmax (x 7)) (x 7) (fun j => k 7 j d) (step (rmax (x 6)) (x 6) (fun j => k 6 j d)
        (step (rmax (x 5)) (x 5) (fun j => k 5 j d) (step (rmax (x 4)) (x 4) (fun j => k 4 j d)
        (step (rmax (x 3)) (x 3) (fun j => k 3 j d) (step (rmax (x 2)) (x 2) (fun j => k 2 j d)
        (step (rmax (x 1)) (x 1) (fun j => k 1 j d) (step (rmax (x 0)) (x 0) (fun j => k 0 j d) (⊥, 0, 0)))))))) := rfl
  rw [hrun]
  unfold final
  rw [sliceStep_at3 qs v149 _ b r d (x 7) (k 7) hx7 hk7, sliceStep_at3 qs v129 _ b r d (x 6) (k 6) hx6 hk6,
    sliceStep_at3 qs v109 _ b r d (x 5) (k 5) hx5 hk5, sliceStep_at3 qs v89 _ b r d (x 4) (k 4) hx4 hk4,
    sliceStep_at3 qs v69 _ b r d (x 3) (k 3) hx3 hk3, sliceStep_at3 qs v49 _ b r d (x 2) (k 2) hx2 hk2,
    sliceStep_at3 qs v29 _ b r d (x 1) (k 1) hx1 hk1, sliceStep_at3 qs v9 _ b r d (x 0) (k 0) hx0 hk0, init_at3]

/-- The stored quotient at an index: numerator at (b, r, d) over denominator of row (b, r). -/
theorem quotient_apply (s : St Ideal) (b : Fin 4) (r : Fin 512) (d : Fin 768) :
    quotient s (ix3 b r d) = Ideal.div (at3 s b r d).2.2 (at3 s b r d).2.1 := by
  unfold quotient at3
  rw [divf_apply, Cert.Rank3Layout.broadcastTo_ab1_apply]

/-- THE VALUE. For real query and key/value entries the stored value at (b, r, d) is the softmax-weighted average of
    column d of the 2048 key/value rows of batch b, the weights the exponentials of the logits of query row r. -/
theorem attnStored_apply
    (v0 : Vec Ideal S4x512x768 .bf16) (v9 v29 v49 v69 v89 v109 v129 v149 : Vec Ideal S4x256x768 .bf16)
    (qr : Fin 4 → Fin 512 → Fin 768 → ℝ) (kr : ℕ → Fin 4 → Fin 256 → Fin 768 → ℝ)
    (hq : ∀ b r e, v0 (ValueIdx.ix3 b r e) = ((qr b r e : ℝ) : EReal))
    (h0 : ∀ b j e, v9 (ValueIdx.ix3 b j e) = ((kr 0 b j e : ℝ) : EReal))
    (h1 : ∀ b j e, v29 (ValueIdx.ix3 b j e) = ((kr 1 b j e : ℝ) : EReal))
    (h2 : ∀ b j e, v49 (ValueIdx.ix3 b j e) = ((kr 2 b j e : ℝ) : EReal))
    (h3 : ∀ b j e, v69 (ValueIdx.ix3 b j e) = ((kr 3 b j e : ℝ) : EReal))
    (h4 : ∀ b j e, v89 (ValueIdx.ix3 b j e) = ((kr 4 b j e : ℝ) : EReal))
    (h5 : ∀ b j e, v109 (ValueIdx.ix3 b j e) = ((kr 5 b j e : ℝ) : EReal))
    (h6 : ∀ b j e, v129 (ValueIdx.ix3 b j e) = ((kr 6 b j e : ℝ) : EReal))
    (h7 : ∀ b j e, v149 (ValueIdx.ix3 b j e) = ((kr 7 b j e : ℝ) : EReal))
    (b : Fin 4) (r : Fin 512) (d : Fin 768) :
    Cert.KernelIdeal.Att.attnStored (F := Ideal) v0 v9 v29 v49 v69 v89 v109 v129 v149 (ValueIdx.ix3 b r d)
      = ((Cert.Att.Spec.attnReal (qr b r) (fun i j => kr i b j) d : ℝ) : EReal) := by
  have hqs : ∀ e, k1_pay1 (F := Ideal) v0 (ix3 b r e) = ((qr b r e * Cert.Att.Spec.scaleR : ℝ) : EReal) :=
    fun e => scaledQuery_real v0 b r e (qr b r e) (hq b r e)
  have hx0 : ∀ j, scores (k1_pay1 (F := Ideal) v0) v9 (ix3 b r j) = ((Cert.Att.Spec.logit (qr b r) (kr 0 b j) : ℝ) : EReal) :=
    fun j => scores_real (k1_pay1 v0) v9 b r (fun e => qr b r e * Cert.Att.Spec.scaleR) (kr 0 b) hqs (h0 b) j
  have hx1 : ∀ j, scores (k1_pay1 (F := Ideal) v0) v29 (ix3 b r j) = ((Cert.Att.Spec.logit (qr b r) (kr 1 b j) : ℝ) : EReal) :=
    fun j => scores_real (k1_pay1 v0) v29 b r (fun e => qr b r e * Cert.Att.Spec.scaleR) (kr 1 b) hqs (h1 b) j
  have hx2 : ∀ j, scores (k1_pay1 (F := Ideal) v0) v49 (ix3 b r j) = ((Cert.Att.Spec.logit (qr b r) (kr 2 b j) : ℝ) : EReal) :=
    fun j => scores_real (k1_pay1 v0) v49 b r (fun e => qr b r e * Cert.Att.Spec.scaleR) (kr 2 b) hqs (h2 b) j
  have hx3 : ∀ j, scores (k1_pay1 (F := Ideal) v0) v69 (ix3 b r j) = ((Cert.Att.Spec.logit (qr b r) (kr 3 b j) : ℝ) : EReal) :=
    fun j => scores_real (k1_pay1 v0) v69 b r (fun e => qr b r e * Cert.Att.Spec.scaleR) (kr 3 b) hqs (h3 b) j
  have hx4 : ∀ j, scores (k1_pay1 (F := Ideal) v0) v89 (ix3 b r j) = ((Cert.Att.Spec.logit (qr b r) (kr 4 b j) : ℝ) : EReal) :=
    fun j => scores_real (k1_pay1 v0) v89 b r (fun e => qr b r e * Cert.Att.Spec.scaleR) (kr 4 b) hqs (h4 b) j
  have hx5 : ∀ j, scores (k1_pay1 (F := Ideal) v0) v109 (ix3 b r j) = ((Cert.Att.Spec.logit (qr b r) (kr 5 b j) : ℝ) : EReal) :=
    fun j => scores_real (k1_pay1 v0) v109 b r (fun e => qr b r e * Cert.Att.Spec.scaleR) (kr 5 b) hqs (h5 b) j
  have hx6 : ∀ j, scores (k1_pay1 (F := Ideal) v0) v129 (ix3 b r j) = ((Cert.Att.Spec.logit (qr b r) (kr 6 b j) : ℝ) : EReal) :=
    fun j => scores_real (k1_pay1 v0) v129 b r (fun e => qr b r e * Cert.Att.Spec.scaleR) (kr 6 b) hqs (h6 b) j
  have hx7 : ∀ j, scores (k1_pay1 (F := Ideal) v0) v149 (ix3 b r j) = ((Cert.Att.Spec.logit (qr b r) (kr 7 b j) : ℝ) : EReal) :=
    fun j => scores_real (k1_pay1 v0) v149 b r (fun e => qr b r e * Cert.Att.Spec.scaleR) (kr 7 b) hqs (h7 b) j
  rw [attnStored_eq_steps, quotient_apply,
    final_at3 (k1_pay1 v0) v9 v29 v49 v69 v89 v109 v129 v149 b r d (fun i j => Cert.Att.Spec.logit (qr b r) (kr i b j)) (fun i => kr i b)
      hx0 (h0 b) hx1 (h1 b) hx2 (h2 b) hx3 (h3 b) hx4 (h4 b) hx5 (h5 b) hx6 (h6 b) hx7 (h7 b)]
  obtain ⟨μ, hμ⟩ := run_succ (fun i => rmax fun j => Cert.Att.Spec.logit (qr b r) (kr i b j))
    (fun i j => Cert.Att.Spec.logit (qr b r) (kr i b j)) (fun i j => kr i b j d) 7
  rw [hμ]
  dsimp only
  rw [div_coe_coe _ (denom_pos _ μ 7).ne', shift_invariant]
  rfl

end Cert.KernelIdeal.AttV

end
-- ==== Proof.RefStages.lean ====
/-
  The reference's stages read at an index, for real inputs.

  With every input entry real, each intermediate array of the reference is real entry by entry:
  the projection  Q(b,s,e) = ∑_d X(b,s,d)·W(e,d) + B(e);  the score  s(b,q,k) = (∑ₑ Q(b,q,e)·Q(b,k,e))·c;
  the row shift  M(b,q) = max(−∞, max over k of s(b,q,k))  — the maximum of finitely many reals from −∞ over a
  nonempty range is a real, and that is all that is used of it —;  the weight  exp(s − M);  the row sum of the
  weights, which is positive;  and the quotient weight / row sum.
-/
import proofs.«176324_j10393820857170_2_alg».proof.Proof.Gen.ReferenceIdeal.Read
import proofs.«176324_j10393820857170_2_alg».proof.Proof.AttSpec
import proofs.«176324_j10393820857170_2_alg».proof.Proof.LibOnlineSoftmax

noncomputable section

namespace Cert.ReferenceIdeal.RefV

open Cert.ReferenceIdeal Cert.ReferenceIdeal.Gen Cert.ReferenceIdeal.Read Idealize.ShloMosaic Idealize.SL.Sem
open Idealize.ShloMosaic.ValueIdx Cert.Att.Spec Cert.Lib.OnlineSoftmax
open scoped BigOperators

/-! ## The index maps of the stages, on coordinates -/

theorem lidx0_eq (b : Fin 4) (s : Fin 2048) (e k : Fin 768) : lidx_main_v0 (ix3 b s e) k = ix3 b s k :=
  funext fun a => Fin.ext (by match a with | ⟨0, _⟩ => rfl | ⟨1, _⟩ => rfl | ⟨2, _⟩ => rfl)
theorem ridx0_eq (b : Fin 4) (s : Fin 2048) (e k : Fin 768) : ridx_main_v0 (ix3 b s e) k = ix2 e k :=
  funext fun a => Fin.ext (by match a with | ⟨0, _⟩ => rfl | ⟨1, _⟩ => rfl)
theorem idx12_eq (b : Fin 4) (s : Fin 2048) (e : Fin 768) : idx_main_v1 (idx_main_v2 (ix3 b s e)) = ix1 e :=
  funext fun a => Fin.ext (by match a with | ⟨0, _⟩ => rfl)
theorem lidx4_eq (b : Fin 4) (q k : Fin 2048) (e : Fin 768) : lidx_main_v4 (ix3 b q k) e = ix3 b q e :=
  funext fun a => Fin.ext (by match a with | ⟨0, _⟩ => rfl | ⟨1, _⟩ => rfl | ⟨2, _⟩ => rfl)
theorem ridx4_eq (b : Fin 4) (q k : Fin 2048) (e : Fin 768) : ridx_main_v4 (ix3 b q k) e = ix3 b k e :=
  funext fun a => Fin.ext (by match a with | ⟨0, _⟩ => rfl | ⟨1, _⟩ => rfl | ⟨2, _⟩ => rfl)
theorem idx1011_eq (b : Fin 4) (q k : Fin 2048) : idx_main_v10 (idx_main_v11 (ix3 b q k)) = ix2 b q :=
  funext fun a => Fin.ext (by match a with | ⟨0, _⟩ => rfl | ⟨1, _⟩ => rfl)
theorem idx14_eq (b : Fin 4) (q k : Fin 2048) : idx_main_v14 (ix2 b q) k = ix3 b q k :=
  funext fun a => Fin.ext (by match a with | ⟨0, _⟩ => rfl | ⟨1, _⟩ => rfl | ⟨2, _⟩ => rfl)
theorem idx1516_eq (b : Fin 4) (q k : Fin 2048) : idx_main_v15 (idx_main_v16 (ix3 b q k)) = ix2 b q :=
  funext fun a => Fin.ext (by match a with | ⟨0, _⟩ => rfl | ⟨1, _⟩ => rfl)
theorem lidx18_eq (b : Fin 4) (q : Fin 2048) (d : Fin 768) (k : Fin 2048) : lidx_main_v18 (ix3 b q d) k = ix3 b q k :=
  funext fun a => Fin.ext (by match a with | ⟨0, _⟩ => rfl | ⟨1, _⟩ => rfl | ⟨2, _⟩ => rfl)
theorem ridx18_eq (b : Fin 4) (q : Fin 2048) (d : Fin 768) (k : Fin 2048) : ridx_main_v18 (ix3 b q d) k = ix3 b k d :=
  funext fun a => Fin.ext (by match a with | ⟨0, _⟩ => rfl | ⟨1, _⟩ => rfl | ⟨2, _⟩ => rfl)

/-! ## Two bit patterns -/

/-- The pattern `0xFF800000` is −∞. -/
theorem ofBits_neg_inf : Ideal.ofBits .f32 0xFF800000#32 = (⊥ : EReal) := by simp [Ideal.ofBits, Ideal.ieee]
/-- The pattern `0x00000000` is zero. -/
theorem ofBits_zero : Ideal.ofBits .f32 0x00000000#32 = (0 : EReal) := by simp [Ideal.ofBits, Ideal.ieee]

/-! ## A maximum of finitely many reals, from −∞ -/

/-- Folding `max` from −∞ over a nonempty finite set of reals gives a real. -/
theorem fold_max_coe {ι : Type*} (s : Finset ι) (hs : s.Nonempty) (g : ι → ℝ) :
    ∃ r : ℝ, s.fold max (⊥ : EReal) (fun k => ((g k : ℝ) : EReal)) = (r : EReal) := by
  induction hs using Finset.Nonempty.cons_induction with
  | singleton a => exact ⟨g a, by rw [Finset.fold_singleton]; exact max_eq_left bot_le⟩
  | cons a s ha hs ih =>
    obtain ⟨r, hr⟩ := ih
    exact ⟨max (g a) r, by rw [Finset.fold_cons, hr]; exact (EReal.coe_strictMono.monotone.map_max).symm⟩

/-- The reduced index (b, q) with the key coordinate put back on the last axis is (b, q, k). -/
theorem lift_ix3 (h : S4x2048x2048.Reduces [2] S4x2048) (b : Fin 4) (q : Fin 2048) (k : Fin (S4x2048x2048.size 2)) :
    h.lift (ix2 b q) k = ix3 b q (⟨k.val, k.isLt⟩ : Fin 2048) :=
  funext fun c => Fin.ext (by match c with | ⟨0, _⟩ => rfl | ⟨1, _⟩ => rfl | ⟨2, _⟩ => rfl)

/-- The max-reduce over the key axis from −∞, at (b, q), of an array whose row (b, q, ·) is real, is a real. -/
theorem reduce_max_real (y : FVec Ideal S4x2048x2048 .f32) (b : Fin 4) (q : Fin 2048)
    (g : Fin 2048 → ℝ) (hy : ∀ k : Fin 2048, y (ix3 b q k) = ((g k : ℝ) : EReal)) :
    ∃ μ : ℝ, Host.reduce (FloatOps.maximumf (F := Ideal) (φ := .f32)) y (val_main_cst_0 (F := Ideal)) reducesTo_S4x2048x2048_S4x2048_d2 h_S_ (ix2 b q)
      = (μ : EReal) := by
  have hR : S4x2048x2048.Reduces [2] S4x2048 := by decide
  rw [Host.reduce_eq_fold_single (FloatOps.maximumf (F := Ideal) (φ := .f32)) y _ reducesTo_S4x2048x2048_S4x2048_d2 hR h_S_]
  have hf : (y ∘ hR.lift (ix2 b q)) = fun k : Fin 2048 => ((g k : ℝ) : EReal) :=
    funext fun k => (congrArg y (lift_ix3 hR b q k)).trans (hy _)
  have hi : val_main_cst_0 (F := Ideal) (Shape.Idx.first h_S_) = (⊥ : EReal) := by
    rw [val_main_cst_0_apply, Ideal.ofBits_def, ofBits_neg_inf]
  obtain ⟨r, hr⟩ := fold_max_coe (Finset.univ : Finset (Fin 2048)) Finset.univ_nonempty g
  refine ⟨r, Eq.trans ?_ hr⟩
  rw [hi]
  exact congrArg (fun f => Finset.fold max (⊥ : EReal) f (Finset.univ : Finset (Fin 2048))) hf

end Cert.ReferenceIdeal.RefV

end
-- ==== Proof.RefSoftmaxReal.lean ====
/-
  The reference's softmax over the 2048 key rows of one batch, as the block form.

  The reference takes the logits (q·k)·scale of a query row against all 2048 key rows, shifts them by a real M,
  divides each weight exp(logit − M) by the sum of all of them and sums the weighted column d. Counting the 2048
  rows as eight blocks of 256 (row j of block i is row 256·i + j) and using that a softmax does not depend on its
  shift, this is the quotient of the two block sums of exp(logit)·value and exp(logit), the scale folded into the
  query row: (q·k)·scale = ∑ₑ (qₑ·scale)·kₑ.
-/
import proofs.«176324_j10393820857170_2_alg».proof.Proof.AttSpec
import proofs.«176324_j10393820857170_2_alg».proof.Proof.LibOnlineSoftmax
import Mathlib.Algebra.BigOperators.Fin
import Mathlib.Logic.Equiv.Fin.Basic

noncomputable section

namespace Cert.Att.RefReal

open Cert.Att.Spec Cert.Lib.OnlineSoftmax
open scoped BigOperators

/-- The 2048 rows as eight blocks of 256: pair (i, j) is row j + 256·i. -/
def rowEquiv : Fin 8 × Fin 256 ≃ Fin 2048 := finProdFinEquiv.trans (finCongr (by norm_num))

theorem rowEquiv_val (i : Fin 8) (j : Fin 256) : (rowEquiv (i, j)).val = j.val + 256 * i.val := rfl

/-- A sum over the 2048 rows is the sum over the eight blocks of the sums over each block's 256 rows. -/
theorem sum_keyBlocks {A : Type*} [AddCommMonoid A] (f : Fin 2048 → A) :
    ∑ k, f k = ∑ i ∈ Finset.range 8, ∑ j : Fin 256, f ⟨(256 * i + j.val) % 2048, Nat.mod_lt _ (by norm_num)⟩ := by
  rw [Finset.sum_range fun i => ∑ j : Fin 256, f ⟨(256 * i + j.val) % 2048, Nat.mod_lt _ (by norm_num)⟩,
    ← Fintype.sum_prod_type' fun (i : Fin 8) (j : Fin 256) => f ⟨(256 * i.val + j.val) % 2048, Nat.mod_lt _ (by norm_num)⟩]
  refine (Fintype.sum_equiv rowEquiv _ _ fun x => ?_).symm
  obtain ⟨i, j⟩ := x
  refine congrArg f (Fin.ext ?_)
  rw [rowEquiv_val]
  show (256 * i.val + j.val) % 2048 = j.val + 256 * i.val
  have hi := i.isLt
  have hj := j.isLt
  omega

/-- The reference's logit is the logit with the scale folded into the query row. -/
theorem logit_eq (q k : Fin 768 → ℝ) : (∑ e, q e * k e) * scaleR = logit q k := by
  unfold logit
  rw [Finset.sum_mul]
  exact Finset.sum_congr rfl fun e _ => by ring

/-- The reference's spelling over the 2048 key rows of one batch — logits (q·k)·scale, shifted by any real M, each
    weight divided by the sum of all — is the block form with the scale folded into the query row. -/
theorem softmax_rows (Q : Fin 2048 → Fin 768 → ℝ) (q : Fin 2048) (d : Fin 768) (M : ℝ) :
    (∑ k : Fin 2048, Real.exp ((∑ e, Q q e * Q k e) * Cert.Att.Spec.scaleR - M)
          / (∑ k' : Fin 2048, Real.exp ((∑ e, Q q e * Q k' e) * Cert.Att.Spec.scaleR - M)) * Q k d)
      = Cert.Att.Spec.attnReal (Q q) (Cert.Att.Spec.keyBlocks Q) d := by
  simp only [logit_eq]
  have hD : (∑ k' : Fin 2048, Real.exp (logit (Q q) (Q k') - M))
      = ∑ i ∈ Finset.range 8, ∑ j : Fin 256, Real.exp (logit (Q q) (keyBlocks Q i j) - M) :=
    sum_keyBlocks fun k' => Real.exp (logit (Q q) (Q k') - M)
  rw [hD]
  refine (sum_keyBlocks fun k => Real.exp (logit (Q q) (Q k) - M)
    / (∑ i ∈ Finset.range 8, ∑ j : Fin 256, Real.exp (logit (Q q) (keyBlocks Q i j) - M)) * Q k d).trans ?_
  exact softmax_sum (fun i j => logit (Q q) (keyBlocks Q i j)) (fun i j => keyBlocks Q i j d) M 7

end Cert.Att.RefReal

end
-- ==== Proof.RefValue.lean ====
/-
  The reference's result, for real inputs, is the common real formula at every index.

  Each stage is read at an index (the generated stage lemmas), the coercion of the reals into the extended reals
  is pushed through sums, products, the exponential and the quotient, and the last contraction is the
  softmax-weighted average of a column of the projected array, written with the reference's own row shift.
  A softmax does not depend on its shift, so that average is the spec's quotient.
-/
import proofs.«176324_j10393820857170_2_alg».proof.Proof.RefStages
import proofs.«176324_j10393820857170_2_alg».proof.Proof.RefSoftmaxReal

noncomputable section

namespace Cert.ReferenceIdeal.RefV

open Cert.ReferenceIdeal Cert.ReferenceIdeal.Gen Cert.ReferenceIdeal.Read Idealize.ShloMosaic Idealize.SL.Sem
open Idealize.ShloMosaic.ValueIdx Cert.Att.Spec Cert.Lib.OnlineSoftmax
open scoped BigOperators

variable {x0 : (⟨S4x2048x768, .f32⟩ : BufTy).Contents (Elt Ideal)} {x1 : (⟨S768x768, .f32⟩ : BufTy).Contents (Elt Ideal)}
  {x2 : (⟨S768, .f32⟩ : BufTy).Contents (Elt Ideal)}
  {Xr : Fin 4 → Fin 2048 → Fin 768 → ℝ} {Wr : Fin 768 → Fin 768 → ℝ} {Br : Fin 768 → ℝ}
  (hX : ∀ b s d, x0 (ix3 b s d) = ((Xr b s d : ℝ) : EReal))
  (hW : ∀ e d, x1 (ix2 e d) = ((Wr e d : ℝ) : EReal))
  (hB : ∀ e, x2 (ix1 e) = ((Br e : ℝ) : EReal))

/-- The score of query row `q` against key row `k`, as the reference computes it: the dot product, then the scale. -/
def score (Q : Fin 2048 → Fin 768 → ℝ) (q k : Fin 2048) : ℝ := (∑ e, Q q e * Q k e) * scaleR

include hX hW hB

/-- The projected array is real: entry (b, s, e) is the spec's. -/
theorem v3_real (b : Fin 4) (s : Fin 2048) (e : Fin 768) :
    val_main_v3 (F := Ideal) x0 x1 x2 (ix3 b s e) = ((projArr Xr Wr Br b s e : ℝ) : EReal) := by
  rw [val_main_v3_apply, val_main_v0_apply, val_main_v2_apply, val_main_v1_apply]
  have hs : (∑ k : Fin 768, x0 (lidx_main_v0 (ix3 b s e) k) * x1 (ridx_main_v0 (ix3 b s e) k))
      = ∑ k : Fin 768, ((Xr b s k * Wr e k : ℝ) : EReal) :=
    Finset.sum_congr rfl fun k _ => by rw [lidx0_eq, ridx0_eq, hX, hW, EReal.coe_mul]
  rw [hs, idx12_eq, hB, Ideal.addf_def, ← coe_sum, ← EReal.coe_add]
  rfl

/-- The scaled scores are real. -/
theorem v6_real (b : Fin 4) (q k : Fin 2048) :
    val_main_v6 (F := Ideal) x0 x1 x2 (ix3 b q k) = ((score (projArr Xr Wr Br b) q k : ℝ) : EReal) := by
  rw [val_main_v6_apply, val_main_v4_apply, val_main_v5_apply, val_main_cst_apply]
  have hs : (∑ e : Fin 768, val_main_v3 (F := Ideal) x0 x1 x2 (lidx_main_v4 (ix3 b q k) e)
        * val_main_v3 (F := Ideal) x0 x1 x2 (ridx_main_v4 (ix3 b q k) e))
      = ∑ e : Fin 768, ((projArr Xr Wr Br b q e * projArr Xr Wr Br b k e : ℝ) : EReal) :=
    Finset.sum_congr rfl fun e _ => by rw [lidx4_eq, ridx4_eq, v3_real hX hW hB, v3_real hX hW hB, EReal.coe_mul]
  rw [hs, Ideal.ofBits_def, scale_coe, Ideal.mulf_def, ← coe_sum, ← EReal.coe_mul]
  rfl

/-- The row shift is a real. -/
theorem v9_real (b : Fin 4) (q : Fin 2048) :
    ∃ M : ℝ, val_main_v9 (F := Ideal) x0 x1 x2 (ix2 b q) = (M : EReal) := by
  obtain ⟨μ, hμ⟩ := reduce_max_real (val_main_v6 (F := Ideal) x0 x1 x2) b q (score (projArr Xr Wr Br b) q)
    (fun k => v6_real hX hW hB b q k)
  refine ⟨μ, ?_⟩
  rw [val_main_v9_apply, val_main_v8_apply, val_main_cst_1_apply, Ideal.ofBits_def, ofBits_neg_inf, Ideal.maximumf_def]
  unfold val_main_v7
  rw [hμ]
  exact max_eq_right bot_le

/-- The weights, the row sum and the normalised weights, at the row shift `M`. -/
theorem v13_real (b : Fin 4) (q : Fin 2048) (M : ℝ) (hM : val_main_v9 (F := Ideal) x0 x1 x2 (ix2 b q) = (M : EReal))
    (k : Fin 2048) :
    val_main_v13 (F := Ideal) x0 x1 x2 (ix3 b q k) = ((Real.exp (score (projArr Xr Wr Br b) q k - M) : ℝ) : EReal) := by
  rw [val_main_v13_apply, val_main_v12_apply, val_main_v11_apply, val_main_v10_apply, idx1011_eq, hM,
    v6_real hX hW hB, Ideal.subf_def, Ideal.hostUnary_exp_def, exp_coe_sub]

theorem v14_real (b : Fin 4) (q : Fin 2048) (M : ℝ) (hM : val_main_v9 (F := Ideal) x0 x1 x2 (ix2 b q) = (M : EReal)) :
    val_main_v14 (F := Ideal) x0 x1 x2 (ix2 b q)
      = ((∑ k : Fin 2048, Real.exp (score (projArr Xr Wr Br b) q k - M) : ℝ) : EReal) := by
  rw [val_main_v14_apply, val_main_cst_2_apply, Ideal.ofBits_def, ofBits_zero, zero_add]
  have hs : (∑ k : Fin 2048, val_main_v13 (F := Ideal) x0 x1 x2 (idx_main_v14 (ix2 b q) k))
      = ∑ k : Fin 2048, ((Real.exp (score (projArr Xr Wr Br b) q k - M) : ℝ) : EReal) :=
    Finset.sum_congr rfl fun k _ => by rw [idx14_eq, v13_real hX hW hB b q M hM]
  rw [hs, ← coe_sum]

theorem v17_real (b : Fin 4) (q : Fin 2048) (M : ℝ) (hM : val_main_v9 (F := Ideal) x0 x1 x2 (ix2 b q) = (M : EReal))
    (k : Fin 2048) :
    val_main_v17 (F := Ideal) x0 x1 x2 (ix3 b q k)
      = ((Real.exp (score (projArr Xr Wr Br b) q k - M)
          / (∑ k' : Fin 2048, Real.exp (score (projArr Xr Wr Br b) q k' - M)) : ℝ) : EReal) := by
  have hpos : (0 : ℝ) < ∑ k' : Fin 2048, Real.exp (score (projArr Xr Wr Br b) q k' - M) :=
    Finset.sum_pos (fun _ _ => Real.exp_pos _) Finset.univ_nonempty
  rw [val_main_v17_apply, val_main_v16_apply, val_main_v15_apply, idx1516_eq, v14_real hX hW hB b q M hM,
    v13_real hX hW hB b q M hM, Ideal.hostDivf_def, div_coe_coe _ hpos.ne']

/-- The reference's result at (b, q, d): the weighted average with the reference's own shift. -/
theorem v18_real (b : Fin 4) (q : Fin 2048) (d : Fin 768) :
    ∃ M : ℝ, val_main_v18 (F := Ideal) x0 x1 x2 (ix3 b q d)
      = ((∑ k : Fin 2048, Real.exp (score (projArr Xr Wr Br b) q k - M)
            / (∑ k' : Fin 2048, Real.exp (score (projArr Xr Wr Br b) q k' - M)) * projArr Xr Wr Br b k d : ℝ) : EReal) := by
  obtain ⟨M, hM⟩ := v9_real hX hW hB b q
  refine ⟨M, ?_⟩
  rw [val_main_v18_apply]
  have hs : (∑ k : Fin 2048, val_main_v17 (F := Ideal) x0 x1 x2 (lidx_main_v18 (ix3 b q d) k)
        * val_main_v3 (F := Ideal) x0 x1 x2 (ridx_main_v18 (ix3 b q d) k))
      = ∑ k : Fin 2048, ((Real.exp (score (projArr Xr Wr Br b) q k - M)
            / (∑ k' : Fin 2048, Real.exp (score (projArr Xr Wr Br b) q k' - M)) * projArr Xr Wr Br b k d : ℝ) : EReal) :=
    Finset.sum_congr rfl fun k _ => by
      rw [lidx18_eq, ridx18_eq, v17_real hX hW hB b q M hM, v3_real hX hW hB, EReal.coe_mul]
  rw [hs, ← coe_sum]

omit hX hW hB in
/-- THE REFERENCE'S RESULT for real inputs: at every index (b, q, d) it is the spec's real number. -/
theorem reference_apply
    (x0 : (⟨S4x2048x768, .f32⟩ : BufTy).Contents (Elt Ideal)) (x1 : (⟨S768x768, .f32⟩ : BufTy).Contents (Elt Ideal))
    (x2 : (⟨S768, .f32⟩ : BufTy).Contents (Elt Ideal))
    (Xr : Fin 4 → Fin 2048 → Fin 768 → ℝ) (Wr : Fin 768 → Fin 768 → ℝ) (Br : Fin 768 → ℝ)
    (hX : ∀ b s d, x0 (ValueIdx.ix3 b s d) = ((Xr b s d : ℝ) : EReal))
    (hW : ∀ e d, x1 (ValueIdx.ix2 e d) = ((Wr e d : ℝ) : EReal))
    (hB : ∀ e, x2 (ValueIdx.ix1 e) = ((Br e : ℝ) : EReal))
    (b : Fin 4) (q : Fin 2048) (d : Fin 768) :
    Cert.ReferenceIdeal.Read.val_main_v18 (F := Ideal) x0 x1 x2 (ValueIdx.ix3 b q d)
      = ((Cert.Att.Spec.outReal Xr Wr Br b q d : ℝ) : EReal) := by
  obtain ⟨M, h⟩ := v18_real hX hW hB b q d
  rw [h]
  exact congrArg (fun r : ℝ => (r : EReal)) (Cert.Att.RefReal.softmax_rows (projArr Xr Wr Br b) q d M)

end Cert.ReferenceIdeal.RefV

end
-- ==== Proof.LibFiniteReal.lean ====
/-
  GENERAL LEMMAS: a `finite inputs` precondition read back on the extended reals.

  A precondition of the form `jnp.all (jnp.abs a < inf)` prints as a host `reduce` by `and`, from the constant
  one, of the comparison `|a| < +∞` against the f32 pattern `0x7F800000` broadcast from a scalar. On the extended
  reals `|v| = max v (-v)` is `+∞` at both infinities, so `|v| < +∞` says exactly that `v` is a real number.
  `real_of_all` turns ONE such conjunct, for an array of any shape reduced over any axes into a scalar, into
  `∀ i, ∃ r : ℝ, a i = r`. Imports only the library.
-/
import Idealize.ShloMosaic.Lib.ReduceAll
import Idealize.ShloMosaic.Lib.ValueIdx
import Idealize.ShloMosaic.PureOps.Ideal

noncomputable section

namespace Cert.FiniteReal

open Idealize.ShloMosaic Idealize.ShloMosaic.ValueIdx

/-- The f32 pattern `0x7F800000` is `+∞`. -/
theorem ofBits_pos_inf : Ideal.ofBits .f32 0x7F800000#32 = ⊤ := by simp [Ideal.ofBits, Ideal.ieee]

/-- `|v| < +∞` on the extended reals: `v` is real. -/
theorem real_of_abs_lt (v : EReal)
    (h : Ideal.cmp .olt (max v (-v)) (Ideal.ofBits .f32 0x7F800000#32) = 1#1) : ∃ r : ℝ, v = r := by
  rw [ofBits_pos_inf] at h
  induction v using EReal.rec with
  | bot =>
    exfalso
    rw [EReal.neg_bot, max_eq_right bot_le] at h
    simp [Ideal.cmp] at h
  | coe r => exact ⟨r, rfl⟩
  | top =>
    exfalso
    rw [max_eq_left le_top] at h
    simp [Ideal.cmp] at h

/-- A scalar has one index. -/
instance scalarIdx_subsingleton : Subsingleton (⟨0, ![]⟩ : Shape).Idx := ⟨fun a b => funext fun d => d.elim0⟩

/-- ONE CONJUNCT OF THE PRECONDITION, read back: an array whose `all (|a| < +∞)` is one has real entries. -/
theorem real_of_all {s : Shape} {axes : List (Fin s.rank)} (a : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (h : Host.reduce IntOp.andi
        (cmpf .olt (Host.absf a) (broadcastInDim s ![] hb (constant (F := Ideal) (⟨0, ![]⟩ : Shape) .f32 0x7F800000#32)))
        (constantI (⟨0, ![]⟩ : Shape) 1 1#1) hr hu ix0 = 1#1) (i : s.Idx) : ∃ r : ℝ, a i = r :=
  real_of_abs_lt (a i) (Host.reduce_andi_all _ _ hr hu ix0 h i)

end Cert.FiniteReal

end
-- ==== Proof.RefInputs.lean ====
/-
  The precondition read as "every input entry is a real number".

  The precondition is the conjunction of three tests, one per input array: all entries satisfy |a| < +∞.
  On the extended reals that says each entry is neither infinity, that is, the coercion of a real. The reals are
  then chosen entry by entry and re-indexed by coordinates.
-/
import proofs.«176324_j10393820857170_2_alg».proof.Proof.Gen.Pre_finite_inputs
import proofs.«176324_j10393820857170_2_alg».proof.Proof.Gen.ReferenceIdeal
import proofs.«176324_j10393820857170_2_alg».proof.Proof.LibFiniteReal

noncomputable section

namespace Cert.ReferenceIdeal.RefV

open Cert.ReferenceIdeal Idealize.ShloMosaic Idealize.SL.Sem

/-- Under the precondition each of the three input arrays is entrywise real. -/
theorem inputs_real_idx [hP : Cert.Pre_finite_inputs.Facts]
    (x0 : (⟨S4x2048x768, .f32⟩ : BufTy).Contents (Elt Ideal)) (x1 : (⟨S768x768, .f32⟩ : BufTy).Contents (Elt Ideal))
    (x2 : (⟨S768, .f32⟩ : BufTy).Contents (Elt Ideal))
    (h : Cert.Pre_finite_inputs.fn (F := Ideal) x0 x1 x2 = fun _ => 1#1) :
    (∀ i : S4x2048x768.Idx, ∃ r : ℝ, x0 i = (r : EReal)) ∧ (∀ i : S768x768.Idx, ∃ r : ℝ, x1 i = (r : EReal))
      ∧ (∀ i : S768.Idx, ∃ r : ℝ, x2 i = (r : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨fun i => Cert.FiniteReal.real_of_all x0 _ _ _ h0' i, fun i => Cert.FiniteReal.real_of_all x1 _ _ _ h1 i,
    fun i => Cert.FiniteReal.real_of_all x2 _ _ _ h2 i⟩

/-- THE PRECONDITION, READ: there are real arrays whose coercions the three inputs are, coordinate by coordinate. -/
theorem inputs_real [hP : Cert.Pre_finite_inputs.Facts]
    (x0 : (⟨S4x2048x768, .f32⟩ : BufTy).Contents (Elt Ideal)) (x1 : (⟨S768x768, .f32⟩ : BufTy).Contents (Elt Ideal))
    (x2 : (⟨S768, .f32⟩ : BufTy).Contents (Elt Ideal))
    (h : Cert.Pre_finite_inputs.fn (F := Ideal) x0 x1 x2 = fun _ => 1#1) :
    ∃ (Xr : Fin 4 → Fin 2048 → Fin 768 → ℝ) (Wr : Fin 768 → Fin 768 → ℝ) (Br : Fin 768 → ℝ),
      (∀ b s d, x0 (ValueIdx.ix3 b s d) = ((Xr b s d : ℝ) : EReal)) ∧ (∀ e d, x1 (ValueIdx.ix2 e d) = ((Wr e d : ℝ) : EReal))
        ∧ (∀ e, x2 (ValueIdx.ix1 e) = ((Br e : ℝ) : EReal)) := by
  obtain ⟨r0, r1, r2⟩ := inputs_real_idx x0 x1 x2 h
  choose f0 hf0 using r0
  choose f1 hf1 using r1
  choose f2 hf2 using r2
  exact ⟨fun b s d => f0 (ValueIdx.ix3 b s d), fun e d => f1 (ValueIdx.ix2 e d), fun e => f2 (ValueIdx.ix1 e),
    fun b s d => hf0 _, fun e d => hf1 _, fun e => hf2 _⟩

end Cert.ReferenceIdeal.RefV

end
-- ==== Proof.lean ====
/-
  Dense self-attention with one shared projection, Q = K = V = X·Wᵀ + b: the tiled kernel against the plain reference.

  The kernel is two launches. The first projects 1024 rows at a time. The second, for 512 query rows of every batch at
  a time, walks the WHOLE projected array as keys and values in eight slices of 256 rows, keeping a running maximum,
  a running denominator and a running numerator of the softmax (rescaled by exp(old max − new max) at every slice),
  and divides at the end; the score scale is folded into the query rows first. The reference forms all 2048 × 2048
  scores of a batch, multiplies them by the scale, takes a softmax over each row and multiplies by the projected array.

  Frames. Each kernel program runs to the end and leaves its three argument arrays as launched: the run is assembled
  from the two launches' pipelines and the two reshapes between them; the one array that stands behind both input
  operands of the second launch is held half and half by the two. The reference's frame is its run with the result
  dropped.

  Values, over the extended reals, for finite inputs. Every projected entry is then a real number. At (b, q, d) the
  kernel's accumulation over eight slices is the softmax-weighted average of column d of the projected rows of batch b
  (an online softmax does not depend on the shifts it used), with the scale inside the logits' products; the reference's
  row softmax is the same average with the scale outside the products: one real number, `outReal`.
  The idealization rewrote nothing, so that conjunct is trivial.
-/
import proofs.«176324_j10393820857170_2_alg».proof.Defs
import proofs.«176324_j10393820857170_2_alg».proof.Proof.Gen.Kernel
import proofs.«176324_j10393820857170_2_alg».proof.Proof.Gen.KernelIdeal
import proofs.«176324_j10393820857170_2_alg».proof.Proof.Gen.ReferenceIdeal
import proofs.«176324_j10393820857170_2_alg».proof.Proof.Gen.Pre_finite_inputs
import proofs.«176324_j10393820857170_2_alg».proof.Proof.KRun
import proofs.«176324_j10393820857170_2_alg».proof.Proof.KBody0
import proofs.«176324_j10393820857170_2_alg».proof.Proof.KBody1
import proofs.«176324_j10393820857170_2_alg».proof.Proof.KIRun
import proofs.«176324_j10393820857170_2_alg».proof.Proof.KIBody0
import proofs.«176324_j10393820857170_2_alg».proof.Proof.KIBody1
import proofs.«176324_j10393820857170_2_alg».proof.Proof.KernelValue
import proofs.«176324_j10393820857170_2_alg».proof.Proof.AttnArray
import proofs.«176324_j10393820857170_2_alg».proof.Proof.AttnValue
import proofs.«176324_j10393820857170_2_alg».proof.Proof.RefValue
import proofs.«176324_j10393820857170_2_alg».proof.Proof.RefInputs
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs to the end and leaves its arguments as launched. -/
theorem frame_kernel : Cert.frame_Kernel := fun m ρ _ =>
  (θ_run (Cert.Kernel.defs (F := Bits)) _ _).mono
    (fun r h c =>
      ⟨(h c _ (Cert.Kernel.Att.mem_uc Cert.Kernel.main_arg0 (by decide))).trans (Cert.Kernel.Att.W4_main_arg0 m ρ c),
       (h c _ (Cert.Kernel.Att.mem_uc Cert.Kernel.main_arg1 (by decide))).trans (Cert.Kernel.Att.W4_main_arg1 m ρ c),
       (h c _ (Cert.Kernel.Att.mem_uc Cert.Kernel.main_arg2 (by decide))).trans (Cert.Kernel.Att.W4_main_arg2 m ρ c)⟩)
    (Cert.Kernel.Att.run_all m ρ (fun c => Cert.Kernel.Att.proj_obligation _ c) (fun c => Cert.Kernel.Att.attn_obligation _ c))

/-- So does the idealized kernel. -/
theorem frame_ideal : Cert.frame_KernelIdeal := fun m ρ _ =>
  (θ_run (Cert.KernelIdeal.defs (F := Ideal)) _ _).mono
    (fun r h c =>
      ⟨(h c _ (Cert.KernelIdeal.Att.mem_uc Cert.KernelIdeal.main_arg0 (by decide))).trans (Cert.KernelIdeal.Att.W4_main_arg0 m ρ c),
       (h c _ (Cert.KernelIdeal.Att.mem_uc Cert.KernelIdeal.main_arg1 (by decide))).trans (Cert.KernelIdeal.Att.W4_main_arg1 m ρ c),
       (h c _ (Cert.KernelIdeal.Att.mem_uc Cert.KernelIdeal.main_arg2 (by decide))).trans (Cert.KernelIdeal.Att.W4_main_arg2 m ρ c)⟩)
    (Cert.KernelIdeal.Att.run_all m ρ (fun c => Cert.KernelIdeal.Att.proj_obligation _ c) (fun c => Cert.KernelIdeal.Att.attn_obligation _ c))

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The stored value of the attention body at an index, for real blocks: the slice-by-slice accumulation read as
    the softmax-weighted average. -/
theorem stored : Cert.KernelIdeal.AttA.StoredSpec :=
  fun v0 v9 v29 v49 v69 v89 v109 v129 v149 qr kr hq h0 h1 h2 h3 h4 h5 h6 h7 b r d =>
    Cert.KernelIdeal.AttV.attnStored_apply v0 v9 v29 v49 v69 v89 v109 v129 v149 qr kr hq h0 h1 h2 h3 h4 h5 h6 h7 b r d

/-- For finite inputs both programs end with the same array: at (b, q, d) the real number `outReal`. -/
theorem algebraic : Cert.algebraic_KernelIdeal_ReferenceIdeal := by
  intro m ρ m' ρ' hpre hagree
  have hreal := fun c => Cert.ReferenceIdeal.RefV.inputs_real _ _ _ (hpre c)
  choose Xr Wr Br hX hW hB using hreal
  refine ⟨fun c => Cert.KernelIdeal.AttA.attnG (Cert.Att.Spec.projArr (Xr c) (Wr c) (Br c)), ?_, ?_⟩
  · refine (θ_run (Cert.KernelIdeal.defs (F := Ideal)) _ _).mono (fun r h c => ⟨?_, ?_, ?_, ?_⟩)
      (Cert.KernelIdeal.Att.run_all m ρ (fun c => Cert.KernelIdeal.Att.proj_obligation _ c) (fun c => Cert.KernelIdeal.Att.attn_obligation _ c))
    · exact ((h c _ (Cert.KernelIdeal.Att.mem_uc Cert.KernelIdeal.main_v3 (by decide))).trans (Cert.KernelIdeal.Att.W4_main_v3 m ρ c)).trans
        (Cert.KernelIdeal.AttA.attn_final (Cert.KernelIdeal.Att.V3 m ρ) stored c _
          (Cert.KernelIdeal.KV.projected_real m ρ (Xr c) (Wr c) (Br c) c (hX c) (hW c) (hB c)))
    · exact (h c _ (Cert.KernelIdeal.Att.mem_uc Cert.KernelIdeal.main_arg0 (by decide))).trans (Cert.KernelIdeal.Att.W4_main_arg0 m ρ c)
    · exact (h c _ (Cert.KernelIdeal.Att.mem_uc Cert.KernelIdeal.main_arg1 (by decide))).trans (Cert.KernelIdeal.Att.W4_main_arg1 m ρ c)
    · exact (h c _ (Cert.KernelIdeal.Att.mem_uc Cert.KernelIdeal.main_arg2 (by decide))).trans (Cert.KernelIdeal.Att.W4_main_arg2 m ρ c)
  · refine (θ_run (Cert.ReferenceIdeal.defs (F := Ideal)) _ _).mono (fun r h c => ⟨?_, (h c).2⟩)
      (Cert.ReferenceIdeal.Value.run (F := Ideal) m' ρ')
    rw [(h c).1, Cert.ReferenceIdeal.Read.val_main_v18_eq, (hagree c).1, (hagree c).2.1, (hagree c).2.2]
    funext i
    obtain ⟨b, q, d, rfl⟩ : ∃ (b : Fin 4) (q : Fin 2048) (d : Fin 768), i = ix3 b q d := ⟨i 0, i 1, i 2, eq_ix3 i⟩
    rw [Cert.ReferenceIdeal.RefV.reference_apply _ _ _ (Xr c) (Wr c) (Br c) (hX c) (hW c) (hB c) b q d]
    exact (Cert.KernelIdeal.AttA.attnG_at _ (ix3 b q d) b q d rfl rfl rfl).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
